-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x64 : Shape := ⟨2, ![12288, 64]⟩
abbrev S12288x128 : Shape := ⟨2, ![12288, 128]⟩
abbrev S12288x3 : Shape := ⟨2, ![12288, 3]⟩
abbrev S192x16 : Shape := ⟨2, ![192, 16]⟩
abbrev S16x16 : Shape := ⟨2, ![16, 16]⟩
abbrev S16x8 : Shape := ⟨2, ![16, 8]⟩
abbrev S16x64 : Shape := ⟨2, ![16, 64]⟩
abbrev S_ : Shape := ⟨0, ![]⟩

class Facts : Prop where
  bcast_S_S12288x64 : S_.BroadcastsInDim S12288x64 (![] : Fin 0 → Fin S12288x64.rank)
  reducesTo_S12288x64_S_d0_1 : S12288x64.ReducesTo [0, 1] S_
  h_S_ : 0 < S_.numel
  bcast_S_S12288x128 : S_.BroadcastsInDim S12288x128 (![] : Fin 0 → Fin S12288x128.rank)
  reducesTo_S12288x128_S_d0_1 : S12288x128.ReducesTo [0, 1] S_
  bcast_S_S12288x3 : S_.BroadcastsInDim S12288x3 (![] : Fin 0 → Fin S12288x3.rank)
  reducesTo_S12288x3_S_d0_1 : S12288x3.ReducesTo [0, 1] S_
  bcast_S_S192x16 : S_.BroadcastsInDim S192x16 (![] : Fin 0 → Fin S192x16.rank)
  reducesTo_S192x16_S_d0_1 : S192x16.ReducesTo [0, 1] S_
  bcast_S_S16x16 : S_.BroadcastsInDim S16x16 (![] : Fin 0 → Fin S16x16.rank)
  reducesTo_S16x16_S_d0_1 : S16x16.ReducesTo [0, 1] S_
  bcast_S_S16x8 : S_.BroadcastsInDim S16x8 (![] : Fin 0 → Fin S16x8.rank)
  reducesTo_S16x8_S_d0_1 : S16x8.ReducesTo [0, 1] S_
  bcast_S_S16x64 : S_.BroadcastsInDim S16x64 (![] : Fin 0 → Fin S16x64.rank)
  reducesTo_S16x64_S_d0_1 : S16x64.ReducesTo [0, 1] S_

variable [Facts]

def fn_part2 {F : FTy → Type} [FloatOps F] (main_arg7 : FVec F S16x64 .f32) (main_v33 : IVec S_ 1) : IVec S_ 1 :=
  let main_v34 : FVec F S16x64 .f32 := Host.absf main_arg7
  let main_cst_12 : FVec F S_ .f32 := constant S_ .f32 0x7F800000#32
  let main_v35 : FVec F S16x64 .f32 := broadcastInDim S16x64 ![] bcast_S_S16x64 main_cst_12
  let main_v36 : IVec S16x64 1 := cmpf .olt main_v34 main_v35
  let main_c_13 : IVec S_ 1 := constantI S_ 1 1#1
  let main_v37 : IVec S_ 1 := (fun x v => Host.reduce IntOp.andi x v reducesTo_S16x64_S_d0_1 h_S_) main_v36 main_c_13
  let main_v38 : IVec S_ 1 := andi main_v33 main_v37
  main_v38

def fn_part1 {F : FTy → Type} [FloatOps F] (main_arg4 : FVec F S16x16 .f32) (main_arg5 : FVec F S16x8 .f32) (main_arg6 : FVec F S16x8 .f32) (main_arg7 : FVec F S16x64 .f32) (main_v13 : IVec S_ 1) (main_v16 : IVec S192x16 1) : IVec S_ 1 :=
  let main_c_5 : IVec S_ 1 := constantI S_ 1 1#1
  let main_v17 : IVec S_ 1 := (fun x v => Host.reduce IntOp.andi x v reducesTo_S192x16_S_d0_1 h_S_) main_v16 main_c_5
  let main_v18 : IVec S_ 1 := andi main_v13 main_v17
  let main_v19 : FVec F S16x16 .f32 := Host.absf main_arg4
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  let main_v24 : FVec F S16x8 .f32 := Host.absf main_arg5
  let main_cst_8 : FVec F S_ .f32 := constant S_ .f32 0x7F800000#32
  let main_v25 : FVec F S16x8 .f32 := broadcastInDim S16x8 ![] bcast_S_S16x8 main_cst_8
  let main_v26 : IVec S16x8 1 := cmpf .olt main_v24 main_v25
  let main_c_9 : IVec S_ 1 := constantI S_ 1 1#1
  let main_v27 : IVec S_ 1 := (fun x v => Host.reduce IntOp.andi x v reducesTo_S16x8_S_d0_1 h_S_) main_v26 main_c_9
  let main_v28 : IVec S_ 1 := andi main_v23 main_v27
  let main_v29 : FVec F S16x8 .f32 := Host.absf main_arg6
  let main_cst_10 : FVec F S_ .f32 := constant S_ .f32 0x7F800000#32
  let main_v30 : FVec F S16x8 .f32 := broadcastInDim S16x8 ![] bcast_S_S16x8 main_cst_10
  let main_v31 : IVec S16x8 1 := cmpf .olt main_v29 main_v30
  let main_c_11 : IVec S_ 1 := constantI S_ 1 1#1
  let main_v32 : IVec S_ 1 := (fun x v => Host.reduce IntOp.andi x v reducesTo_S16x8_S_d0_1 h_S_) main_v31 main_c_11
  let main_v33 : IVec S_ 1 := andi main_v28 main_v32
  fn_part2 (F := F) main_arg7 main_v33

def fn {F : FTy → Type} [FloatOps F] (main_arg0 : FVec F S12288x64 .f32) (main_arg1 : FVec F S12288x128 .f32) (main_arg2 : FVec F S12288x3 .f32) (main_arg3 : FVec F S192x16 .f32) (main_arg4 : FVec F S16x16 .f32) (main_arg5 : FVec F S16x8 .f32) (main_arg6 : FVec F S16x8 .f32) (main_arg7 : FVec F S16x64 .f32) : IVec S_ 1 :=
  let main_v0 : FVec F S12288x64 .f32 := Host.absf main_arg0
  let main_cst : FVec F S_ .f32 := constant S_ .f32 0x7F800000#32
  let main_v1 : FVec F S12288x64 .f32 := broadcastInDim S12288x64 ![] bcast_S_S12288x64 main_cst
  let main_v2 : IVec S12288x64 1 := cmpf .olt main_v0 main_v1
  let main_c : IVec S_ 1 := constantI S_ 1 1#1
  let main_v3 : IVec S_ 1 := (fun x v => Host.reduce IntOp.andi x v reducesTo_S12288x64_S_d0_1 h_S_) main_v2 main_c
  let main_v4 : FVec F S12288x128 .f32 := Host.absf main_arg1
  let main_cst_0 : FVec F S_ .f32 := constant S_ .f32 0x7F800000#32
  let main_v5 : FVec F S12288x128 .f32 := broadcastInDim S12288x128 ![] bcast_S_S12288x128 main_cst_0
  let main_v6 : IVec S12288x128 1 := cmpf .olt main_v4 main_v5
  let main_c_1 : IVec S_ 1 := constantI S_ 1 1#1
  let main_v7 : IVec S_ 1 := (fun x v => Host.reduce IntOp.andi x v reducesTo_S12288x128_S_d0_1 h_S_) main_v6 main_c_1
  let main_v8 : IVec S_ 1 := andi main_v3 main_v7
  let main_v9 : FVec F S12288x3 .f32 := Host.absf main_arg2
  let main_cst_2 : FVec F S_ .f32 := constant S_ .f32 0x7F800000#32
  let main_v10 : FVec F S12288x3 .f32 := broadcastInDim S12288x3 ![] bcast_S_S12288x3 main_cst_2
  let main_v11 : IVec S12288x3 1 := cmpf .olt main_v9 main_v10
  let main_c_3 : IVec S_ 1 := constantI S_ 1 1#1
  let main_v12 : IVec S_ 1 := (fun x v => Host.reduce IntOp.andi x v reducesTo_S12288x3_S_d0_1 h_S_) main_v11 main_c_3
  let main_v13 : IVec S_ 1 := andi main_v8 main_v12
  let main_v14 : FVec F S192x16 .f32 := Host.absf main_arg3
  let main_cst_4 : FVec F S_ .f32 := constant S_ .f32 0x7F800000#32
  let main_v15 : FVec F S192x16 .f32 := broadcastInDim S192x16 ![] bcast_S_S192x16 main_cst_4
  let main_v16 : IVec S192x16 1 := cmpf .olt main_v14 main_v15
  fn_part1 (F := F) main_arg4 main_arg5 main_arg6 main_arg7 main_v13 main_v16
-- ==== Kernel.lean ====
abbrev S12288x64 : Shape := ⟨2, ![12288, 64]⟩
abbrev S12288x128 : Shape := ⟨2, ![12288, 128]⟩
abbrev S12288x3 : Shape := ⟨2, ![12288, 3]⟩
abbrev S192x16 : Shape := ⟨2, ![192, 16]⟩
abbrev S16x16 : Shape := ⟨2, ![16, 16]⟩
abbrev S16x8 : Shape := ⟨2, ![16, 8]⟩
abbrev S16x64 : Shape := ⟨2, ![16, 64]⟩
abbrev S64x16 : Shape := ⟨2, ![64, 16]⟩
abbrev S128x16 : Shape := ⟨2, ![128, 16]⟩
abbrev S16x80 : Shape := ⟨2, ![16, 80]⟩
abbrev S_ : Shape := ⟨0, ![]⟩
abbrev S16x128 : Shape := ⟨2, ![16, 128]⟩
abbrev S1536x64 : Shape := ⟨2, ![1536, 64]⟩
abbrev S1536x128 : Shape := ⟨2, ![1536, 128]⟩
abbrev S1536x16 : Shape := ⟨2, ![1536, 16]⟩
abbrev S256x128 : Shape := ⟨2, ![256, 128]⟩
abbrev S256x64 : Shape := ⟨2, ![256, 64]⟩
abbrev S256x8 : Shape := ⟨2, ![256, 8]⟩
abbrev S12288x8 : Shape := ⟨2, ![12288, 8]⟩
abbrev S256x12288 : Shape := ⟨2, ![256, 12288]⟩
abbrev S256 : Shape := ⟨1, ![256]⟩
abbrev S256x1 : Shape := ⟨2, ![256, 1]⟩

abbrev nBuf : Space → Nat
  | .hbm => 16
  | .vmem => 15
  | .smem => 0
  | _ => 0

abbrev bufTy : (tb : Table) → Fin (tcTables nBuf tb) → BufTy
  | .hbm, ⟨0, _⟩ => ⟨S12288x64, .f32⟩
  | .hbm, ⟨1, _⟩ => ⟨S12288x128, .f32⟩
  | .hbm, ⟨2, _⟩ => ⟨S12288x3, .f32⟩
  | .hbm, ⟨3, _⟩ => ⟨S192x16, .f32⟩
  | .hbm, ⟨4, _⟩ => ⟨S16x16, .f32⟩
  | .hbm, ⟨5, _⟩ => ⟨S16x8, .f32⟩
  | .hbm, ⟨6, _⟩ => ⟨S16x8, .f32⟩
  | .hbm, ⟨7, _⟩ => ⟨S16x64, .f32⟩
  | .hbm, ⟨8, _⟩ => ⟨S64x16, .f32⟩
  | .hbm, ⟨9, _⟩ => ⟨S128x16, .f32⟩
  | .hbm, ⟨10, _⟩ => ⟨S16x80, .f32⟩
  | .hbm, ⟨11, _⟩ => ⟨S_, .i32⟩
  | .hbm, ⟨12, _⟩ => ⟨S_, .f32⟩
  | .hbm, ⟨13, _⟩ => ⟨S16x128, .f32⟩
  | .hbm, ⟨14, _⟩ => ⟨S12288x128, .f32⟩
  | .hbm, ⟨15, _⟩ => ⟨S12288x64, .f32⟩
  | .local _ .vmem, ⟨0, _⟩ => ⟨S1536x64, .f32⟩
  | .local _ .vmem, ⟨1, _⟩ => ⟨S1536x64, .f32⟩
  | .local _ .vmem, ⟨2, _⟩ => ⟨S1536x128, .f32⟩
  | .local _ .vmem, ⟨3, _⟩ => ⟨S1536x128, .f32⟩
  | .local _ .vmem, ⟨4, _⟩ => ⟨S64x16, .f32⟩
  | .local _ .vmem, ⟨5, _⟩ => ⟨S128x16, .f32⟩
  | .local _ .vmem, ⟨6, _⟩ => ⟨S16x16, .f32⟩
  | .local _ .vmem, ⟨7, _⟩ => ⟨S16x128, .f32⟩
  | .local _ .vmem, ⟨8, _⟩ => ⟨S1536x128, .f32⟩
  | .local _ .vmem, ⟨9, _⟩ => ⟨S1536x128, .f32⟩
  | .local _ .vmem, ⟨10, _⟩ => ⟨S256x128, .f32⟩
  | .local _ .vmem, ⟨11, _⟩ => ⟨S256x128, .f32⟩
  | .local _ .vmem, ⟨12, _⟩ => ⟨S12288x128, .f32⟩
  | .local _ .vmem, ⟨13, _⟩ => ⟨S256x64, .f32⟩
  | .local _ .vmem, ⟨14, _⟩ => ⟨S256x64, .f32⟩
  | _, _ => ⟨S12288x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1536x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1536x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1536x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![48], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S12288x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S192x16_S64x16_0_0 : S192x16.Slices ![0, 0] S64x16
  slices_S192x16_S128x16_64_0 : S192x16.Slices ![64, 0] S128x16
  concatenates_S16x8_S16x8_S16x64_S16x80_d1 : Shape.Concatenates [S16x8, S16x8, S16x64] S16x80 1
  pads_S16x80_S16x128_000_0480 : S16x80.Pads (![0, 0] : Fin 2 → Nat) ![0, 48] ![0, 0] S16x128
  h_S_ : 0 < S_.numel
  inb_S1536x64_S1536x64_0_0 : ∀ a, (![0, 0] : Fin 2 → Nat) a + S1536x64.size a ≤ S1536x64.size a
  h_S1536x64 : 0 < S1536x64.numel
  inb_S64x16_S64x16_0_0 : ∀ a, (![0, 0] : Fin 2 → Nat) a + S64x16.size a ≤ S64x16.size a
  h_S64x16 : 0 < S64x16.numel
  shapeCasts_S64x16_S64x16 : S64x16.ShapeCasts S64x16
  inb_S1536x128_S1536x128_0_0 : ∀ a, (![0, 0] : Fin 2 → Nat) a + S1536x128.size a ≤ S1536x128.size a
  h_S1536x128 : 0 < S1536x128.numel
  inb_S128x16_S128x16_0_0 : ∀ a, (![0, 0] : Fin 2 → Nat) a + S128x16.size a ≤ S128x16.size a
  h_S128x16 : 0 < S128x16.numel
  shapeCasts_S128x16_S128x16 : S128x16.ShapeCasts S128x16
  inb_S16x16_S16x16_0_0 : ∀ a, (![0, 0] : Fin 2 → Nat) a + S16x16.size a ≤ S16x16.size a
  h_S16x16 : 0 < S16x16.numel
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S12288x128_S12288x128_0_0 : ∀ a, (![0, 0] : Fin 2 → Nat) a + S12288x128.size a ≤ S12288x128.size a
  h_S12288x128 : 0 < S12288x128.numel
  shapeCasts_S12288x128_S12288x128 : S12288x128.ShapeCasts S12288x128
  slices_S256x128_o0_0_S256x8 : S256x128.Slices ![0, 0] S256x8
  slices_S12288x128_o0_8_S12288x8 : S12288x128.Slices ![0, 8] S12288x8
  slices_S12288x128_o0_16_S12288x64 : S12288x128.Slices ![0, 16] S12288x64
  reduces_S256x12288_S256 : S256x12288.Reduces [1] S256
  shapeCasts_S256_S256x1 : S256.ShapeCasts S256x1
  broadcasts_S256x1_S256x12288 : S256x1.Broadcasts S256x12288
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  dot_S1536x64_S64x16_S1536x16_1_0_0_1_n_n_wf : DotDims.WF S1536x64 S64x16 S1536x16 [1] [0] [0] [1] [] []
  dot_S1536x128_S128x16_S1536x16_1_0_0_1_n_n_wf : DotDims.WF S1536x128 S128x16 S1536x16 [1] [0] [0] [1] [] []
  dot_S1536x16_S16x16_S1536x16_1_0_0_1_n_n_wf : DotDims.WF S1536x16 S16x16 S1536x16 [1] [0] [0] [1] [] []
  dot_S1536x16_S16x128_S1536x128_1_0_0_1_n_n_wf : DotDims.WF S1536x16 S16x128 S1536x128 [1] [0] [0] [1] [] []
  dot_S256x8_S12288x8_S256x12288_1_1_0_0_n_n_wf : DotDims.WF S256x8 S12288x8 S256x12288 [1] [1] [0] [0] [] []
  dot_S256x12288_S12288x64_S256x64_1_0_0_1_n_n_wf : DotDims.WF S256x12288 S12288x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1536x64.size a ≤ S12288x64.size a
  hwx0_0 : ∀ i : grid0.Coords, EltTy.bits .f32 = 32 ∨ (Rect.block (s := S12288x64) S1536x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1536x128.size a ≤ S12288x128.size a
  hwx0_1 : ∀ i : grid0.Coords, EltTy.bits .f32 = 32 ∨ (Rect.block (s := S12288x128) S1536x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x16.size a ≤ S64x16.size a
  hwx0_2 : ∀ i : grid0.Coords, EltTy.bits .f32 = 32 ∨ (Rect.block (s := S64x16) S64x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x16.size a ≤ S128x16.size a
  hwx0_3 : ∀ i : grid0.Coords, EltTy.bits .f32 = 32 ∨ (Rect.block (s := S128x16) S128x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x16.size a ≤ S16x16.size a
  hwx0_4 : ∀ i : grid0.Coords, EltTy.bits .f32 = 32 ∨ (Rect.block (s := S16x16) S16x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x128.size a ≤ S16x128.size a
  hwx0_5 : ∀ i : grid0.Coords, EltTy.bits .f32 = 32 ∨ (Rect.block (s := S16x128) S16x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1536x128.size a ≤ S12288x128.size a
  hwx0_6 : ∀ i : grid0.Coords, EltTy.bits .f32 = 32 ∨ (Rect.block (s := S12288x128) S1536x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x128.size a ≤ S12288x128.size a
  hwx1_0 : ∀ i : grid1.Coords, EltTy.bits .f32 = 32 ∨ (Rect.block (s := S12288x128) S256x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S12288x128.size a ≤ S12288x128.size a
  hwx1_1 : ∀ i : grid1.Coords, EltTy.bits .f32 = 32 ∨ (Rect.block (s := S12288x128) S12288x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x64.size a ≤ S12288x64.size a
  hwx1_2 : ∀ i : grid1.Coords, EltTy.bits .f32 = 32 ∨ (Rect.block (s := S12288x64) S256x64.size (cc1_transform_2 i) (hinb1_2 i)).WholeWords (EltTy.packing .f32)

variable [Facts₀]

def dot_S1536x64_S64x16_S1536x16_1_0_0_1_n_n : DotDims S1536x64 S64x16 S1536x16 where
  lhsContracting := [1]
  rhsContracting := [0]
  lhsNonContracting := [0]
  rhsNonContracting := [1]
  lhsBatch := []
  rhsBatch := []
  wf := dot_S1536x64_S64x16_S1536x16_1_0_0_1_n_n_wf
def dot_S1536x128_S128x16_S1536x16_1_0_0_1_n_n : DotDims S1536x128 S128x16 S1536x16 where
  lhsContracting := [1]
  rhsContracting := [0]
  lhsNonContracting := [0]
  rhsNonContracting := [1]
  lhsBatch := []
  rhsBatch := []
  wf := dot_S1536x128_S128x16_S1536x16_1_0_0_1_n_n_wf
def dot_S1536x16_S16x16_S1536x16_1_0_0_1_n_n : DotDims S1536x16 S16x16 S1536x16 where
  lhsContracting := [1]
  rhsContracting := [0]
  lhsNonContracting := [0]
  rhsNonContracting := [1]
  lhsBatch := []
  rhsBatch := []
  wf := dot_S1536x16_S16x16_S1536x16_1_0_0_1_n_n_wf
def dot_S1536x16_S16x128_S1536x128_1_0_0_1_n_n : DotDims S1536x16 S16x128 S1536x128 where
  lhsContracting := [1]
  rhsContracting := [0]
  lhsNonContracting := [0]
  rhsNonContracting := [1]
  lhsBatch := []
  rhsBatch := []
  wf := dot_S1536x16_S16x128_S1536x128_1_0_0_1_n_n_wf
def dot_S256x8_S12288x8_S256x12288_1_1_0_0_n_n : DotDims S256x8 S12288x8 S256x12288 where
  lhsContracting := [1]
  rhsContracting := [1]
  lhsNonContracting := [0]
  rhsNonContracting := [0]
  lhsBatch := []
  rhsBatch := []
  wf := dot_S256x8_S12288x8_S256x12288_1_1_0_0_n_n_wf
def dot_S256x12288_S12288x64_S256x64_1_0_0_1_n_n : DotDims S256x12288 S12288x64 S256x64 where
  lhsContracting := [1]
  rhsContracting := [0]
  lhsNonContracting := [0]
  rhsNonContracting := [1]
  lhsBatch := []
  rhsBatch := []
  wf := dot_S256x12288_S12288x64_S256x64_1_0_0_1_n_n_wf

abbrev win0_0 : Pipeline.Window sig grid0 :=
  Pipeline.Window.ofSpec (Memref.whole main_arg0) S1536x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1536x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S16x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1536x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v4) S256x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S12288x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S256x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S12288x64 : Shape := ⟨2, ![12288, 64]⟩
abbrev S12288x128 : Shape := ⟨2, ![12288, 128]⟩
abbrev S12288x3 : Shape := ⟨2, ![12288, 3]⟩
abbrev S192x16 : Shape := ⟨2, ![192, 16]⟩
abbrev S16x16 : Shape := ⟨2, ![16, 16]⟩
abbrev S16x8 : Shape := ⟨2, ![16, 8]⟩
abbrev S16x64 : Shape := ⟨2, ![16, 64]⟩
abbrev S12288x192 : Shape := ⟨2, ![12288, 192]⟩
abbrev S12288x16 : Shape := ⟨2, ![12288, 16]⟩
abbrev S_ : Shape := ⟨0, ![]⟩
abbrev S12288x8 : Shape := ⟨2, ![12288, 8]⟩
abbrev S8x12288 : Shape := ⟨2, ![8, 12288]⟩
abbrev S12288x12288 : Shape := ⟨2, ![12288, 12288]⟩
abbrev S12288 : Shape := ⟨1, ![12288]⟩
abbrev S12288x1 : Shape := ⟨2, ![12288, 1]⟩

abbrev nBuf : Space → Nat
  | .hbm => 40
  | .vmem => 0
  | .smem => 0
  | _ => 0

abbrev bufTy : (tb : Table) → Fin (tcTables nBuf tb) → BufTy
  | .hbm, ⟨0, _⟩ => ⟨S12288x64, .f32⟩
  | .hbm, ⟨1, _⟩ => ⟨S12288x128, .f32⟩
  | .hbm, ⟨2, _⟩ => ⟨S12288x3, .f32⟩
  | .hbm, ⟨3, _⟩ => ⟨S192x16, .f32⟩
  | .hbm, ⟨4, _⟩ => ⟨S16x16, .f32⟩
  | .hbm, ⟨5, _⟩ => ⟨S16x8, .f32⟩
  | .hbm, ⟨6, _⟩ => ⟨S16x8, .f32⟩
  | .hbm, ⟨7, _⟩ => ⟨S16x64, .f32⟩
  | .hbm, ⟨8, _⟩ => ⟨S12288x192, .f32⟩
  | .hbm, ⟨9, _⟩ => ⟨S12288x16, .f32⟩
  | .hbm, ⟨10, _⟩ => ⟨S_, .f32⟩
  | .hbm, ⟨11, _⟩ => ⟨S12288x16, .f32⟩
  | .hbm, ⟨12, _⟩ => ⟨S12288x16, .f32⟩
  | .hbm, ⟨13, _⟩ => ⟨S12288x16, .f32⟩
  | .hbm, ⟨14, _⟩ => ⟨S_, .f32⟩
  | .hbm, ⟨15, _⟩ => ⟨S12288x16, .f32⟩
  | .hbm, ⟨16, _⟩ => ⟨S12288x16, .f32⟩
  | .hbm, ⟨17, _⟩ => ⟨S12288x8, .f32⟩
  | .hbm, ⟨18, _⟩ => ⟨S12288x8, .f32⟩
  | .hbm, ⟨19, _⟩ => ⟨S12288x64, .f32⟩
  | .hbm, ⟨20, _⟩ => ⟨S8x12288, .f32⟩
  | .hbm, ⟨21, _⟩ => ⟨S12288x12288, .f32⟩
  | .hbm, ⟨22, _⟩ => ⟨S_, .f32⟩
  | .hbm, ⟨23, _⟩ => ⟨S12288x12288, .f32⟩
  | .hbm, ⟨24, _⟩ => ⟨S12288x12288, .f32⟩
  | .hbm, ⟨25, _⟩ => ⟨S_, .f32⟩
  | .hbm, ⟨26, _⟩ => ⟨S12288, .f32⟩
  | .hbm, ⟨27, _⟩ => ⟨S_, .f32⟩
  | .hbm, ⟨28, _⟩ => ⟨S12288, .f32⟩
  | .hbm, ⟨29, _⟩ => ⟨S12288, .f32⟩
  | .hbm, ⟨30, _⟩ => ⟨S12288x1, .f32⟩
  | .hbm, ⟨31, _⟩ => ⟨S12288x12288, .f32⟩
  | .hbm, ⟨32, _⟩ => ⟨S12288x12288, .f32⟩
  | .hbm, ⟨33, _⟩ => ⟨S12288x12288, .f32⟩
  | .hbm, ⟨34, _⟩ => ⟨S_, .f32⟩
  | .hbm, ⟨35, _⟩ => ⟨S12288, .f32⟩
  | .hbm, ⟨36, _⟩ => ⟨S12288x1, .f32⟩
  | .hbm, ⟨37, _⟩ => ⟨S12288x12288, .f32⟩
  | .hbm, ⟨38, _⟩ => ⟨S12288x12288, .f32⟩
  | .hbm, ⟨39, _⟩ => ⟨S12288x64, .f32⟩
  | _, _ => ⟨S12288x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_cst : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_call1_cst : Ref sig .tc := ⟨.hbm, 14, rfl⟩
abbrev main_call1_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_cst_0 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩

abbrev nD : Nat := 1
abbrev τ : Topo := Topo.v7x

variable {F : FTy → Type} [FloatOps F]

class Facts₀ : Prop where
  concatenates_S12288x64_S12288x128_S12288x192_d1 : Shape.Concatenates [S12288x64, S12288x128] S12288x192 1
  bcast_S_S12288x16 : S_.BroadcastsInDim S12288x16 (![] : Fin 0 → Fin S12288x16.rank)
  transposes_S12288x8_S8x12288_1_0 : S12288x8.Transposes [1, 0] S8x12288
  bcast_S_S12288x12288 : S_.BroadcastsInDim S12288x12288 (![] : Fin 0 → Fin S12288x12288.rank)
  reducesTo_S12288x12288_S12288_d1 : S12288x12288.ReducesTo [1] S12288
  h_S_ : 0 < S_.numel
  bcast_S_S12288 : S_.BroadcastsInDim S12288 (![] : Fin 0 → Fin S12288.rank)
  bcast_S12288_S12288x1_0 : S12288.BroadcastsInDim S12288x1 (![0] : Fin 1 → Fin S12288x1.rank)
  bcast_S12288x1_S12288x12288_0_1 : S12288x1.BroadcastsInDim S12288x12288 (![0, 1] : Fin 2 → Fin S12288x12288.rank)
  dot_S12288x192_S192x16_S12288x16_1_0_0_1_n_n_wf : DotDims.WF S12288x192 S192x16 S12288x16 [1] [0] [0] [1] [] []
  dot_S12288x16_S16x16_S12288x16_1_0_0_1_n_n_wf : DotDims.WF S12288x16 S16x16 S12288x16 [1] [0] [0] [1] [] []
  dot_S12288x16_S16x8_S12288x8_1_0_0_1_n_n_wf : DotDims.WF S12288x16 S16x8 S12288x8 [1] [0] [0] [1] [] []
  dot_S12288x16_S16x64_S12288x64_1_0_0_1_n_n_wf : DotDims.WF S12288x16 S16x64 S12288x64 [1] [0] [0] [1] [] []
  dot_S12288x8_S8x12288_S12288x12288_1_0_0_1_n_n_wf : DotDims.WF S12288x8 S8x12288 S12288x12288 [1] [0] [0] [1] [] []
  dot_S12288x12288_S12288x64_S12288x64_1_0_0_1_n_n_wf : DotDims.WF S12288x12288 S12288x64 S12288x64 [1] [0] [0] [1] [] []

variable [Facts₀]

def dot_S12288x192_S192x16_S12288x16_1_0_0_1_n_n : DotDims S12288x192 S192x16 S12288x16 where
  lhsContracting := [1]
  rhsContracting := [0]
  lhsNonContracting := [0]
  rhsNonContracting := [1]
  lhsBatch := []
  rhsBatch := []
  wf := dot_S12288x192_S192x16_S12288x16_1_0_0_1_n_n_wf
def dot_S12288x16_S16x16_S12288x16_1_0_0_1_n_n : DotDims S12288x16 S16x16 S12288x16 where
  lhsContracting := [1]
  rhsContracting := [0]
  lhsNonContracting := [0]
  rhsNonContracting := [1]
  lhsBatch := []
  rhsBatch := []
  wf := dot_S12288x16_S16x16_S12288x16_1_0_0_1_n_n_wf
def dot_S12288x16_S16x8_S12288x8_1_0_0_1_n_n : DotDims S12288x16 S16x8 S12288x8 where
  lhsContracting := [1]
  rhsContracting := [0]
  lhsNonContracting := [0]
  rhsNonContracting := [1]
  lhsBatch := []
  rhsBatch := []
  wf := dot_S12288x16_S16x8_S12288x8_1_0_0_1_n_n_wf
def dot_S12288x16_S16x64_S12288x64_1_0_0_1_n_n : DotDims S12288x16 S16x64 S12288x64 where
  lhsContracting := [1]
  rhsContracting := [0]
  lhsNonContracting := [0]
  rhsNonContracting := [1]
  lhsBatch := []
  rhsBatch := []
  wf := dot_S12288x16_S16x64_S12288x64_1_0_0_1_n_n_wf
def dot_S12288x8_S8x12288_S12288x12288_1_0_0_1_n_n : DotDims S12288x8 S8x12288 S12288x12288 where
  lhsContracting := [1]
  rhsContracting := [0]
  lhsNonContracting := [0]
  rhsNonContracting := [1]
  lhsBatch := []
  rhsBatch := []
  wf := dot_S12288x8_S8x12288_S12288x12288_1_0_0_1_n_n_wf
def dot_S12288x12288_S12288x64_S12288x64_1_0_0_1_n_n : DotDims S12288x12288 S12288x64 S12288x64 where
  lhsContracting := [1]
  rhsContracting := [0]
  lhsNonContracting := [0]
  rhsNonContracting := [1]
  lhsBatch := []
  rhsBatch := []
  wf := dot_S12288x12288_S12288x64_S12288x64_1_0_0_1_n_n_wf

class Facts : Prop extends Facts₀ where

variable [Facts]
-- ==== Proof.WordTiledQkv.lean ====
/-
  The first launch (the packed projection), one grid point at a time.

  The grid has 8 points; point t stages rows 1536 t … 1536 t + 1535 of the two feature arrays, the four weight arrays
  whole, and an output block of 1536 rows of the packed array. The body loads the six input blocks whole, computes, and
  stores one 1536 × 128 value over the whole output block. Stated at a PARAMETER V: what the core's buffers hold when
  the launch is entered.

  Here: what each window's block is at a point; that an input window's staging buffer holds that block at every point
  (the weight windows are fetched once and their block never moves); what the body leaves in the output block; the
  body's Hoare triple; the bookkeeping record the pipeline rule takes, and the rule's obligation at every point.
-/
import proofs.«134647_j56599079027265_2_alg».proof.Proof.Gen.Kernel.Launch
import proofs.«134647_j56599079027265_2_alg».proof.Proof.Gen.Kernel.Skeleton
import proofs.«134647_j56599079027265_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Tiled

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off the window's array as the launch finds it. -/
def blkQ (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: its staging buffer holds its block at every point, whether the point fetched it or not (an
    unfetched window's block index has not moved), for any record whose array is V's and whose body leaves the block. -/
theorem foundQ0 {c : Dev nD} (dat : Dat τ (Elt F) Unit ℕ (UR sig nD τ) ℕ cfg0 c) (hA : dat.A 0 = V c (Pipeline.arrRef spec0 0))
    (hafter : ∀ t, dat.after 0 t = blkQ V c 0 t) (t : Fin cfg0.N) (d) : dat.before 0 t d = blkQ V c 0 t :=
  (dat.before_in_eq_fetched 0 rfl (fun _ => rfl) (fun _ _ _ => rfl) (fun t => by rw [hafter]; unfold Dat.blockOf blkQ; rw [hA]; try rfl) t d).trans
    (by unfold Dat.fetched Dat.blockOf blkQ; rw [hA]; try rfl)

/-- Input window 1: its staging buffer holds its block at every point, whether the point fetched it or not (an
    unfetched window's block index has not moved), for any record whose array is V's and whose body leaves the block. -/
theorem foundQ1 {c : Dev nD} (dat : Dat τ (Elt F) Unit ℕ (UR sig nD τ) ℕ cfg0 c) (hA : dat.A 1 = V c (Pipeline.arrRef spec0 1))
    (hafter : ∀ t, dat.after 1 t = blkQ V c 1 t) (t : Fin cfg0.N) (d) : dat.before 1 t d = blkQ V c 1 t :=
  (dat.before_in_eq_fetched 1 rfl (fun _ => rfl) (fun _ _ _ => rfl) (fun t => by rw [hafter]; unfold Dat.blockOf blkQ; rw [hA]; try rfl) t d).trans
    (by unfold Dat.fetched Dat.blockOf blkQ; rw [hA]; try rfl)

/-- Input window 2: its staging buffer holds its block at every point, whether the point fetched it or not (an
    unfetched window's block index has not moved), for any record whose array is V's and whose body leaves the block. -/
theorem foundQ2 {c : Dev nD} (dat : Dat τ (Elt F) Unit ℕ (UR sig nD τ) ℕ cfg0 c) (hA : dat.A 2 = V c (Pipeline.arrRef spec0 2))
    (hafter : ∀ t, dat.after 2 t = blkQ V c 2 t) (t : Fin cfg0.N) (d) : dat.before 2 t d = blkQ V c 2 t :=
  (dat.before_in_eq_fetched 2 rfl (fun _ => rfl) (fun _ _ _ => rfl) (fun t => by rw [hafter]; unfold Dat.blockOf blkQ; rw [hA]; try rfl) t d).trans
    (by unfold Dat.fetched Dat.blockOf blkQ; rw [hA]; try rfl)

/-- Input window 3: its staging buffer holds its block at every point, whether the point fetched it or not (an
    unfetched window's block index has not moved), for any record whose array is V's and whose body leaves the block. -/
theorem foundQ3 {c : Dev nD} (dat : Dat τ (Elt F) Unit ℕ (UR sig nD τ) ℕ cfg0 c) (hA : dat.A 3 = V c (Pipeline.arrRef spec0 3))
    (hafter : ∀ t, dat.after 3 t = blkQ V c 3 t) (t : Fin cfg0.N) (d) : dat.before 3 t d = blkQ V c 3 t :=
  (dat.before_in_eq_fetched 3 rfl (fun _ => rfl) (fun _ _ _ => rfl) (fun t => by rw [hafter]; unfold Dat.blockOf blkQ; rw [hA]; try rfl) t d).trans
    (by unfold Dat.fetched Dat.blockOf blkQ; rw [hA]; try rfl)

/-- Input window 4: its staging buffer holds its block at every point, whether the point fetched it or not (an
    unfetched window's block index has not moved), for any record whose array is V's and whose body leaves the block. -/
theorem foundQ4 {c : Dev nD} (dat : Dat τ (Elt F) Unit ℕ (UR sig nD τ) ℕ cfg0 c) (hA : dat.A 4 = V c (Pipeline.arrRef spec0 4))
    (hafter : ∀ t, dat.after 4 t = blkQ V c 4 t) (t : Fin cfg0.N) (d) : dat.before 4 t d = blkQ V c 4 t :=
  (dat.before_in_eq_fetched 4 rfl (fun _ => rfl) (fun _ _ _ => rfl) (fun t => by rw [hafter]; unfold Dat.blockOf blkQ; rw [hA]; try rfl) t d).trans
    (by unfold Dat.fetched Dat.blockOf blkQ; rw [hA]; try rfl)

/-- Input window 5: its staging buffer holds its block at every point, whether the point fetched it or not (an
    unfetched window's block index has not moved), for any record whose array is V's and whose body leaves the block. -/
theorem foundQ5 {c : Dev nD} (dat : Dat τ (Elt F) Unit ℕ (UR sig nD τ) ℕ cfg0 c) (hA : dat.A 5 = V c (Pipeline.arrRef spec0 5))
    (hafter : ∀ t, dat.after 5 t = blkQ V c 5 t) (t : Fin cfg0.N) (d) : dat.before 5 t d = blkQ V c 5 t :=
  (dat.before_in_eq_fetched 5 rfl (fun _ => rfl) (fun _ _ _ => rfl) (fun t => by rw [hafter]; unfold Dat.blockOf blkQ; rw [hA]; try rfl) t d).trans
    (by unfold Dat.fetched Dat.blockOf blkQ; rw [hA]; try rfl)

/-- The whole-block rectangles the body loads and stores through. -/
abbrev rX0 : Rect S1536x64 := Rect.unit (s := S1536x64) ![0, 0] S1536x64.size inb_S1536x64_S1536x64_0_0
abbrev rX1 : Rect S1536x128 := Rect.unit (s := S1536x128) ![0, 0] S1536x128.size inb_S1536x128_S1536x128_0_0
abbrev rWa : Rect S64x16 := Rect.unit (s := S64x16) ![0, 0] S64x16.size inb_S64x16_S64x16_0_0
abbrev rWb : Rect S128x16 := Rect.unit (s := S128x16) ![0, 0] S128x16.size inb_S128x16_S128x16_0_0
abbrev rW2 : Rect S16x16 := Rect.unit (s := S16x16) ![0, 0] S16x16.size inb_S16x16_S16x16_0_0
abbrev rWp : Rect S16x128 := Rect.unit (s := S16x128) ![0, 0] S16x128.size inb_S16x128_S16x128_0_0

/-- What the body leaves in the output block, from the six input blocks: its one store, of the body's arithmetic on
    the loaded blocks, over the whole block. -/
def leftQ (x0 : Vec F S1536x64 .f32) (x1 : Vec F S1536x128 .f32) (x2 : Vec F S64x16 .f32) (x3 : Vec F S128x16 .f32)
    (x4 : Vec F S16x16 .f32) (x5 : Vec F S16x128 .f32) : Vec F S1536x128 .f32 :=
  View.canon [⟨rX1, k0_pay1 (View.ld x0 rX0) (View.ld x2 rWa) (View.ld x1 rX1) (View.ld x3 rWb) (View.ld x4 rW2) (View.ld x5 rWp)⟩]

/-- The one store covers the block. -/
theorem coverQ (p0 : Vec F S1536x128 .f32) (y : S1536x128.Idx) :
    ∃ pc ∈ ([⟨rX1, p0⟩] : List (View.Piece (Elt F) S1536x128 .f32)), y ∈ pc.1.set :=
  View.cover_of_tiled [⟨rX1, p0⟩] S1536x128.size (by rfl) y

set_option maxHeartbeats 1000000 in
/-- The body on whole staging buffers, the six inputs' at read contents x0 … x5 and the output's at anything: it runs
    to its end leaving the inputs as they were and the output at leftQ of them. -/
theorem tripleQ (c : Dev nD) (E : Set ℕ) (i : grid0.Coords)
    (a1 : Memref sig .tc .vmem S1536x64 .f32) (h1 : a1.IsWhole) (a2 : Memref sig .tc .vmem S1536x128 .f32) (h2 : a2.IsWhole)
    (a3 : Memref sig .tc .vmem S64x16 .f32) (h3 : a3.IsWhole) (a4 : Memref sig .tc .vmem S128x16 .f32) (h4 : a4.IsWhole)
    (a5 : Memref sig .tc .vmem S16x16 .f32) (h5 : a5.IsWhole) (a6 : Memref sig .tc .vmem S16x128 .f32) (h6 : a6.IsWhole)
    (a7 : Memref sig .tc .vmem S1536x128 .f32) (h7 : a7.IsWhole)
    (x0 : Vec F S1536x64 .f32) (x1 : Vec F S1536x128 .f32) (x2 : Vec F S64x16 .f32) (x3 : Vec F S128x16 .f32)
    (x4 : Vec F S16x16 .f32) (x5 : Vec F S16x128 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ (∃ d, owns (c : Thread nD τ) a7 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare (leftQ x0 x1 x2 x3 x4 x5)) -∗ K ⟨⟩))
      ⊢ wp frame (wpE (defs₀ (F := F)) Variants.none c none) E (cc0_qkv_kernel i a1 h1 a2 h2 a3 h3 a4 h4 a5 h5 a6 h6 a7 h7) K := by
  simp only [cc0_qkv_kernel_eq_skeleton]; unfold cc0_qkv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (coverQ _)

/-- The pipeline rule's record for the first launch on core c: the arrays as the launch finds them; after the body at
    point t each input window's buffer still at its block and the output window's at leftQ of the six blocks; the
    invariant is only what the body never touches (the other scoped buffers, the generator register); nothing owed. -/
def datQ (c : Dev nD) : Dat τ (Elt F) Unit ℕ (UR sig nD τ) ℕ cfg0 c where
  A w := V c (Pipeline.arrRef spec0 w)
  after w t := match w with
    | ⟨0, _⟩ => blkQ V c 0 t
    | ⟨1, _⟩ => blkQ V c 1 t
    | ⟨2, _⟩ => blkQ V c 2 t
    | ⟨3, _⟩ => blkQ V c 3 t
    | ⟨4, _⟩ => blkQ V c 4 t
    | ⟨5, _⟩ => blkQ V c 5 t
    | ⟨6, _⟩ => leftQ (blkQ V c 0 t) (blkQ V c 1 t) (blkQ V c 2 t) (blkQ V c 3 t) (blkQ V c 4 t) (blkQ V c 5 t)
  Φ _ := Pipeline.ΦA spec0 c
  q _ := fullShare
  owed _ := 0

theorem datQ_A (c : Dev nD) (w : Fin cfg0.W) : (datQ V c).A w = V c (Pipeline.arrRef spec0 w) := by dsimp only [datQ]

theorem datQ_after0 (c : Dev nD) (t : Fin cfg0.N) : (datQ V c).after 0 t = blkQ V c 0 t := by dsimp only [datQ]
theorem datQ_after1 (c : Dev nD) (t : Fin cfg0.N) : (datQ V c).after 1 t = blkQ V c 1 t := by dsimp only [datQ]
theorem datQ_after2 (c : Dev nD) (t : Fin cfg0.N) : (datQ V c).after 2 t = blkQ V c 2 t := by dsimp only [datQ]
theorem datQ_after3 (c : Dev nD) (t : Fin cfg0.N) : (datQ V c).after 3 t = blkQ V c 3 t := by dsimp only [datQ]
theorem datQ_after4 (c : Dev nD) (t : Fin cfg0.N) : (datQ V c).after 4 t = blkQ V c 4 t := by dsimp only [datQ]
theorem datQ_after5 (c : Dev nD) (t : Fin cfg0.N) : (datQ V c).after 5 t = blkQ V c 5 t := by dsimp only [datQ]
theorem datQ_after6 (c : Dev nD) (t : Fin cfg0.N) : (datQ V c).after 6 t
    = leftQ (blkQ V c 0 t) (blkQ V c 1 t) (blkQ V c 2 t) (blkQ V c 3 t) (blkQ V c 4 t) (blkQ V c 5 t) := by dsimp only [datQ]

theorem datQ_before0 (c : Dev nD) (t : Fin cfg0.N) (d) : (datQ V c).before 0 t d = blkQ V c 0 t := foundQ0 V (datQ V c) (datQ_A V c 0) (datQ_after0 V c) t d
theorem datQ_before1 (c : Dev nD) (t : Fin cfg0.N) (d) : (datQ V c).before 1 t d = blkQ V c 1 t := foundQ1 V (datQ V c) (datQ_A V c 1) (datQ_after1 V c) t d
theorem datQ_before2 (c : Dev nD) (t : Fin cfg0.N) (d) : (datQ V c).before 2 t d = blkQ V c 2 t := foundQ2 V (datQ V c) (datQ_A V c 2) (datQ_after2 V c) t d
theorem datQ_before3 (c : Dev nD) (t : Fin cfg0.N) (d) : (datQ V c).before 3 t d = blkQ V c 3 t := foundQ3 V (datQ V c) (datQ_A V c 3) (datQ_after3 V c) t d
theorem datQ_before4 (c : Dev nD) (t : Fin cfg0.N) (d) : (datQ V c).before 4 t d = blkQ V c 4 t := foundQ4 V (datQ V c) (datQ_A V c 4) (datQ_after4 V c) t d
theorem datQ_before5 (c : Dev nD) (t : Fin cfg0.N) (d) : (datQ V c).before 5 t d = blkQ V c 5 t := foundQ5 V (datQ V c) (datQ_A V c 5) (datQ_after5 V c) t d

/-- What the body is handed at point t: the invariant, the core's dues, and each window's current staging buffer. -/
def preQ (c : Dev nD) (t : Fin cfg0.N) : sProp 𝕄 :=
  iprop((datQ V c).Φ t.castSucc ∗ (datQ V c).owesAt () t.castSucc
    ∗ (∃ d, owns (c : Thread nD τ) (st0_0 t) fullShare ((datQ V c).before 0 t d))
    ∗ (∃ d, owns (c : Thread nD τ) (st0_1 t) fullShare ((datQ V c).before 1 t d))
    ∗ (∃ d, owns (c : Thread nD τ) (st0_2 t) fullShare ((datQ V c).before 2 t d))
    ∗ (∃ d, owns (c : Thread nD τ) (st0_3 t) fullShare ((datQ V c).before 3 t d))
    ∗ (∃ d, owns (c : Thread nD τ) (st0_4 t) fullShare ((datQ V c).before 4 t d))
    ∗ (∃ d, owns (c : Thread nD τ) (st0_5 t) fullShare ((datQ V c).before 5 t d))
    ∗ (∃ d, owns (c : Thread nD τ) (st0_6 t) fullShare ((datQ V c).before 6 t d)))

/-- What it hands back. -/
def postQ (c : Dev nD) (t : Fin cfg0.N) : sProp 𝕄 :=
  iprop((datQ V c).Φ t.succ ∗ (datQ V c).owesAt () t.succ
    ∗ owns (c : Thread nD τ) (st0_0 t) fullShare ((datQ V c).after 0 t)
    ∗ owns (c : Thread nD τ) (st0_1 t) fullShare ((datQ V c).after 1 t)
    ∗ owns (c : Thread nD τ) (st0_2 t) fullShare ((datQ V c).after 2 t)
    ∗ owns (c : Thread nD τ) (st0_3 t) fullShare ((datQ V c).after 3 t)
    ∗ owns (c : Thread nD τ) (st0_4 t) fullShare ((datQ V c).after 4 t)
    ∗ owns (c : Thread nD τ) (st0_5 t) fullShare ((datQ V c).after 5 t)
    ∗ owns (c : Thread nD τ) (st0_6 t) fullShare ((datQ V c).after 6 t))

/-- The body at any point: the input buffers hold their blocks, so the triple applies; the invariant and the dues pass
    through untouched. -/
theorem bodyQ (c : Dev nD) (t : Fin cfg0.N) :
    preQ V c t ⊢ wp frame (wpE (defs₀ (F := F)) Variants.none c none) Set.univ (bodyAt0 t) (fun _ => postQ V c t) := by
  unfold preQ postQ bodyAt0
  simp only [datQ_before0, datQ_before1, datQ_before2, datQ_before3, datQ_before4, datQ_before5]
  rw [show (datQ V c).Φ t.succ = (datQ V c).Φ t.castSucc from rfl,
    show (datQ V c).owesAt () t.succ = (datQ V c).owesAt () t.castSucc from rfl,
    datQ_after0, datQ_after1, datQ_after2, datQ_after3, datQ_after4, datQ_after5, datQ_after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (tripleQ c Set.univ _ _ _ _ _ _ _ _ _ _ _ _ _ _ _ (blkQ V c 0 t) (blkQ V c 1 t) (blkQ V c 2 t) (blkQ V c 3 t) (blkQ V c 4 t) (blkQ V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline rule's obligation, at every point. -/
theorem obligationQ (c : Dev nD) : BodyObligation (datQ (F := F) V c) (defs₀ (F := F)) Variants.none () Set.univ := fun t => by
  rw [bigSep_W0, bigSep_W0]
  exact bodyQ V c t

end Cert.Kernel.Tiled

end
-- ==== Proof.WordTiledAttn.lean ====
/-
  The second launch (the attention), one grid point at a time.

  The grid has 48 points; point t stages rows 256 t … 256 t + 255 of the packed array as the queries' block, the
  WHOLE packed array a second time (keys and values; fetched once, its block never moves), and an output block of 256
  rows. Both input windows read ONE array, so each holds half of that array's share; neither writes it. The body
  loads the two input blocks whole, computes, and stores one 256 × 64 value over the whole output block. Stated at a
  PARAMETER V: what the core's buffers hold when the launch is entered.
-/
import proofs.«134647_j56599079027265_2_alg».proof.Proof.Gen.Kernel.Launch
import proofs.«134647_j56599079027265_2_alg».proof.Proof.Gen.Kernel.Skeleton
import proofs.«134647_j56599079027265_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Tiled

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off the window's array as the launch finds it. -/
def blkA (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0: its staging buffer holds its block at every point, fetched there or not. -/
theorem foundA0 {c : Dev nD} (dat : Dat τ (Elt F) Unit ℕ (UR sig nD τ) ℕ cfg1 c) (hA : dat.A 0 = V c (Pipeline.arrRef spec1 0))
    (hafter : ∀ t, dat.after 0 t = blkA V c 0 t) (t : Fin cfg1.N) (d) : dat.before 0 t d = blkA V c 0 t :=
  (dat.before_in_eq_fetched 0 rfl (fun _ => rfl) (fun _ _ _ => rfl) (fun t => by rw [hafter]; unfold Dat.blockOf blkA; rw [hA]; try rfl) t d).trans
    (by unfold Dat.fetched Dat.blockOf blkA; rw [hA]; try rfl)

/-- Input window 1: its staging buffer holds its block at every point, fetched there or not. -/
theorem foundA1 {c : Dev nD} (dat : Dat τ (Elt F) Unit ℕ (UR sig nD τ) ℕ cfg1 c) (hA : dat.A 1 = V c (Pipeline.arrRef spec1 1))
    (hafter : ∀ t, dat.after 1 t = blkA V c 1 t) (t : Fin cfg1.N) (d) : dat.before 1 t d = blkA V c 1 t :=
  (dat.before_in_eq_fetched 1 rfl (fun _ => rfl) (fun _ _ _ => rfl) (fun t => by rw [hafter]; unfold Dat.blockOf blkA; rw [hA]; try rfl) t d).trans
    (by unfold Dat.fetched Dat.blockOf blkA; rw [hA]; try rfl)

/-- The whole-block rectangles the body loads and stores through. -/
abbrev rQ : Rect S256x128 := Rect.unit (s := S256x128) ![0, 0] S256x128.size inb_S256x128_S256x128_0_0
abbrev rKV : Rect S12288x128 := Rect.unit (s := S12288x128) ![0, 0] S12288x128.size inb_S12288x128_S12288x128_0_0
abbrev rO : Rect S256x64 := Rect.unit (s := S256x64) ![0, 0] S256x64.size inb_S256x64_S256x64_0_0

/-- What the body leaves in the output block, from the two input blocks. -/
def leftA (x0 : Vec F S256x128 .f32) (x1 : Vec F S12288x128 .f32) : Vec F S256x64 .f32 :=
  View.canon [⟨rO, k1_pay1 (View.ld x0 rQ) (View.ld x1 rKV)⟩]

/-- The one store covers the block. -/
theorem coverA (p0 : Vec F S256x64 .f32) (y : S256x64.Idx) :
    ∃ pc ∈ ([⟨rO, p0⟩] : List (View.Piece (Elt F) S256x64 .f32)), y ∈ pc.1.set :=
  View.cover_of_tiled [⟨rO, p0⟩] S256x64.size (by rfl) y

set_option maxHeartbeats 1000000 in
/-- The body on whole staging buffers, the two inputs' at read contents x0, x1 and the output's at anything: it runs to
    its end leaving the inputs as they were and the output at leftA of them. -/
theorem tripleA (c : Dev nD) (E : Set ℕ) (i : grid1.Coords)
    (a1 : Memref sig .tc .vmem S256x128 .f32) (h1 : a1.IsWhole) (a2 : Memref sig .tc .vmem S12288x128 .f32) (h2 : a2.IsWhole)
    (a3 : Memref sig .tc .vmem S256x64 .f32) (h3 : a3.IsWhole)
    (x0 : Vec F S256x128 .f32) (x1 : Vec F S12288x128 .f32) (K : PUnit → sProp 𝕄) :
    iprop(owns (c : Thread nD τ) a1 fullShare x0 ∗ owns (c : Thread nD τ) a2 fullShare x1
        ∗ (∃ d, owns (c : Thread nD τ) a3 fullShare d)
        ∗ (iprop(owns (c : Thread nD τ) a1 fullShare x0 ∗ owns (c : Thread nD τ) a2 fullShare x1
            ∗ owns (c : Thread nD τ) a3 fullShare (leftA x0 x1)) -∗ K ⟨⟩))
      ⊢ wp frame (wpE (defs₀ (F := F)) Variants.none c none) E (cc1_attention_kernel i a1 h1 a2 h2 a3 h3) K := by
  simp only [cc1_attention_kernel_eq_skeleton]; unfold cc1_attention_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverA _)

/-- The pipeline rule's record for the second launch on core c: the arrays as the launch finds them; after the body at
    point t each input window's buffer still at its block and the output window's at leftA of the two blocks; the two
    input windows hold the two halves of their common array's share; nothing owed. -/
def datA (c : Dev nD) : Dat τ (Elt F) Unit ℕ (UR sig nD τ) ℕ cfg1 c where
  A w := V c (Pipeline.arrRef spec1 w)
  after w t := match w with
    | ⟨0, _⟩ => blkA V c 0 t
    | ⟨1, _⟩ => blkA V c 1 t
    | ⟨2, _⟩ => leftA (blkA V c 0 t) (blkA V c 1 t)
  Φ _ := Pipeline.ΦA spec1 c
  q w := match w with
    | ⟨0, _⟩ => fullShare.left
    | ⟨1, _⟩ => fullShare.right
    | ⟨2, _⟩ => fullShare
  owed _ := 0

theorem datA_A (c : Dev nD) (w : Fin cfg1.W) : (datA V c).A w = V c (Pipeline.arrRef spec1 w) := by dsimp only [datA]
theorem datA_after0 (c : Dev nD) (t : Fin cfg1.N) : (datA V c).after 0 t = blkA V c 0 t := by dsimp only [datA]
theorem datA_after1 (c : Dev nD) (t : Fin cfg1.N) : (datA V c).after 1 t = blkA V c 1 t := by dsimp only [datA]
theorem datA_after2 (c : Dev nD) (t : Fin cfg1.N) : (datA V c).after 2 t = leftA (blkA V c 0 t) (blkA V c 1 t) := by dsimp only [datA]
theorem datA_before0 (c : Dev nD) (t : Fin cfg1.N) (d) : (datA V c).before 0 t d = blkA V c 0 t := foundA0 V (datA V c) (datA_A V c 0) (datA_after0 V c) t d
theorem datA_before1 (c : Dev nD) (t : Fin cfg1.N) (d) : (datA V c).before 1 t d = blkA V c 1 t := foundA1 V (datA V c) (datA_A V c 1) (datA_after1 V c) t d

/-- The shares of the three windows' arrays: the two halves for the input windows, the full share for the output. -/
theorem datA_share0 (c : Dev nD) : (datA V c).share 0 = fullShare.left := by unfold Dat.share; rfl
theorem datA_share1 (c : Dev nD) : (datA V c).share 1 = fullShare.right := by unfold Dat.share; rfl
theorem datA_share2 (c : Dev nD) : (datA V c).share 2 = fullShare := by unfold Dat.share; rfl

/-- What the body is handed at point t, -/
def preA (c : Dev nD) (t : Fin cfg1.N) : sProp 𝕄 :=
  iprop((datA V c).Φ t.castSucc ∗ (datA V c).owesAt () t.castSucc
    ∗ (∃ d, owns (c : Thread nD τ) (st1_0 t) fullShare ((datA V c).before 0 t d))
    ∗ (∃ d, owns (c : Thread nD τ) (st1_1 t) fullShare ((datA V c).before 1 t d))
    ∗ (∃ d, owns (c : Thread nD τ) (st1_2 t) fullShare ((datA V c).before 2 t d)))

/-- and what it hands back. -/
def postA (c : Dev nD) (t : Fin cfg1.N) : sProp 𝕄 :=
  iprop((datA V c).Φ t.succ ∗ (datA V c).owesAt () t.succ
    ∗ owns (c : Thread nD τ) (st1_0 t) fullShare ((datA V c).after 0 t)
    ∗ owns (c : Thread nD τ) (st1_1 t) fullShare ((datA V c).after 1 t)
    ∗ owns (c : Thread nD τ) (st1_2 t) fullShare ((datA V c).after 2 t))

/-- The body at any point. -/
theorem bodyA (c : Dev nD) (t : Fin cfg1.N) :
    preA V c t ⊢ wp frame (wpE (defs₀ (F := F)) Variants.none c none) Set.univ (bodyAt1 t) (fun _ => postA V c t) := by
  unfold preA postA bodyAt1
  simp only [datA_before0, datA_before1]
  rw [show (datA V c).Φ t.succ = (datA V c).Φ t.castSucc from rfl,
    show (datA V c).owesAt () t.succ = (datA V c).owesAt () t.castSucc from rfl,
    datA_after0, datA_after1, datA_after2]
  iintro ⟨HΦ, Ho, ⟨%d0, H0⟩, ⟨%d1, H1⟩, ⟨%d2, H2⟩⟩
  iapply (tripleA c Set.univ _ _ _ _ _ _ _ (blkA V c 0 t) (blkA V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline rule's obligation, at every point. -/
theorem obligationA (c : Dev nD) : BodyObligation (datA (F := F) V c) (defs₀ (F := F)) Variants.none () Set.univ := fun t => by
  rw [bigSep_W1, bigSep_W1]
  exact bodyA V c t

end Cert.Kernel.Tiled

end
-- ==== Proof.WordTiledRun.lean ====
/-
  The whole run of the tiled program: two stretches of host lines, then the two launches.

  Between two items of @main core c holds every unscoped buffer whole, at contents that are a fold through @main:
  the launch memory; after each host stretch the stretch's effect; after the first launch the packed array at what its
  write-backs leave and everything else as entered; after the second launch the output array at what ITS write-backs
  leave and everything else as entered. Beside the buffers ride the core's generator register (at some state) and its
  dues (none). Each launch is entered by splitting its windows' arrays out of the buffers and left by putting them
  back; the second launch reads ONE array through two windows, so that array's share is halved on the way in and joined
  again on the way out (neither window writes it).

  The run's conclusion: every weakly fair execution terminates, nothing faults, and every unscoped buffer of every core
  ends at the last contents of the fold.
-/
import proofs.«134647_j56599079027265_2_alg».proof.Proof.WordTiledQkv
import proofs.«134647_j56599079027265_2_alg».proof.Proof.WordTiledAttn
import proofs.«134647_j56599079027265_2_alg».proof.Proof.Gen.Kernel.Regions

set_option maxRecDepth 16384

noncomputable section

namespace Cert.Kernel.Tiled

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- What the first launch is entered from: the launch memory after the two host stretches, read at the core's references. -/
abbrev entryQ : (c : Dev nD) → (b : Ref sig .tc) → Buf (Elt F) ((c : Thread nD τ).loc b) := fun c b => V2 m c b

/-- After the first launch: its arrays at what the pipeline leaves (inputs as entered, the packed array's write-backs
    folded), every other buffer as entered. -/
def exitQ (c : Dev nD) : Valuation τ sig (Elt F) :=
  Pipeline.withArrays spec0 c (V2 m c) fun w => (datQ (entryQ m) c).arrAt w cfg0.N

theorem exitQ_arr (c : Dev nD) (w : Fin cfg0.W) :
    exitQ m c (Proc.devRef .tc (Pipeline.arrRef spec0 w)) = (datQ (entryQ m) c).arrAt w cfg0.N := by
  unfold exitQ; exact Pipeline.withArrays_arr spec0 launch0.win.arr_inj c _ _ w

theorem exitQ_other (c : Dev nD) (b : Ref sig .tc) (hb : ∀ w, Pipeline.arrRef spec0 w ≠ b) :
    exitQ m c (Proc.devRef .tc b) = V2 m c (Proc.devRef .tc b) := by
  unfold exitQ; exact Pipeline.withArrays_of_ne spec0 c _ _ b hb

/-- What the second launch is entered from. -/
abbrev entryA : (c : Dev nD) → (b : Ref sig .tc) → Buf (Elt F) ((c : Thread nD τ).loc b) := fun c b => exitQ m c b

/-- After the second launch: the output array at what its write-backs leave, every other buffer as entered. -/
def exitA (c : Dev nD) : Valuation τ sig (Elt F) :=
  Function.update (exitQ m c) (Proc.devRef .tc main_v5) ((datA (entryA m) c).arrAt 2 cfg1.N)

theorem exitA_out (c : Dev nD) : exitA m c (Proc.devRef .tc main_v5) = (datA (entryA m) c).arrAt 2 cfg1.N := by
  unfold exitA; exact Function.update_self _ _ _

theorem exitA_other (c : Dev nD) (b : Ref sig .tc) (hb : b ≠ main_v5) : exitA m c (Proc.devRef .tc b) = exitQ m c (Proc.devRef .tc b) := by
  unfold exitA; exact Function.update_of_ne (StableHlo.devRef_ne_of_ne hb) _ _

/-! ## The records, and what rides beside the buffers -/

/-- Each launch's record at its own entry contents. -/
def recs : (p : Fin 2) → (c : Dev nD) → Dat τ (Elt F) Unit ℕ (UR sig nD τ) ℕ (Pipeline.pin (pcfgs (F := F)) adm p) c
  | ⟨0, _⟩ => fun c => datQ (entryQ m) c
  | ⟨1, _⟩ => fun c => datA (entryA m) c

abbrev noVariants : Variants := Variants.none
abbrev noPairs : GSem nD τ sig → Finset Unit := fun _ => ∅
abbrev noLevel : GSem nD τ sig → Unit → ℕ := fun _ _ => 0

/-- Beside the buffers: the generator register at some state, and nothing owed. -/
abbrev beside (c : Dev nD) : sProp 𝕄 := iprop((∃ g, prngReg c g) ∗ ∃ W, owes (c : Thread nD τ) (0 : CellTallies nD τ sig Unit) W)

/-- The last thread state without the dues. -/
abbrev atEnd (c : Dev nD) : sProp 𝕄 := iprop(StableHlo.held (c : Thread nD τ) (Pipeline.ucRefs τ sig) (exitA m c) ∗ ∃ g, prngReg c g)

/-! ## The first launch as a segment -/

set_option backward.isDefEq.respectTransparency.types false in
/-- The first launch: entered with every unscoped buffer at the contents after the host stretches, left with them at
    exitQ. Its seven arrays are distinct, so each is split out at the full share and put back. -/
def segQ : RegionSeg (pcfgs (F := F)) adm (recs m) () defs₀ noVariants noPairs noLevel 0 where
  win := launch0.win.to₀
  block_pos := launch0.block_pos
  stage_whole := launch0.stage_whole
  K := PEmpty
  osem k := k.elim
  ho := Pipeline.OwnSemFacts.none _
  hbody c := (obligationQ (entryQ m) c).loose
  hwaits := Pipeline.hwaits_of_owed_zero _ _ _ _ noPairs noLevel 0 fun _ _ => rfl
  pre c := iprop(StableHlo.held (c : Thread nD τ) (Pipeline.ucRefs τ sig) (V2 m c) ∗ beside c)
  post c := iprop(StableHlo.held (c : Thread nD τ) (Pipeline.ucRefs τ sig) (exitQ m c) ∗ beside c)
  X c := iprop(∃ g, prngReg c g)
  Y c := iprop(∃ g, prngReg c g)
  Z c := Pipeline.unscopedRest (Ix := Unit) (Name := ℕ) (U := UR sig nD τ) (Lvl := ℕ) spec0 c (entryQ m c)
  hentry c := by
    rw [Pipeline.ownSems0_none]
    have hcut := Pipeline.arrays_of_unscopedBufs (p := 0) (pcfgs (F := F)) adm (recs m) launch0.win launch0.arr_whole c
      ((recs m 0 c).share_full fun _ => rfl) (entryQ m c) fun _ => rfl
    rw [Pipeline.unscopedBufs_held] at hcut
    iintro ⟨⟨Hbufs, Hgen, Hdue⟩, -, -⟩
    ihave Hparts := hcut $$ Hbufs
    icases Hparts with ⟨Harr, Hrest⟩
    imodintro
    isplitl [Harr]; · iexact Harr
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr; · ipureintro; exact fun _ _ => Or.inl trivial
      iexact Hdue
    isplitl [Hgen]; · iexact Hgen
    iexact Hrest
  hin c := by
    rw [show (recs m 0 c).Φ 0 = Pipeline.ΦA spec0 c from rfl]; unfold Pipeline.ΦA
    iintro ⟨Hgen, -, Hscoped⟩
    isplitl [Hscoped]; · iexact Hscoped
    iexact Hgen
  hout c := by
    rw [Pipeline.ownSems0_none, show (recs m 0 c).Φ (Fin.last _) = Pipeline.ΦA spec0 c from rfl]; unfold Pipeline.ΦA
    iintro ⟨Hscoped, Hgen⟩
    isplitl [Hgen]; · iexact Hgen
    isplitr; · iempintro
    iexact Hscoped
  hexit c := by
    have hglue := Pipeline.unscopedBufs_of_arrays (p := 0) (pcfgs (F := F)) adm (Ix := Unit) (Name := ℕ) (U := UR sig nD τ) (Lvl := ℕ)
      launch0.win launch0.arr_whole c (recs m) ((recs m 0 c).share_full fun _ => rfl)
      (entryQ m c) (entryA m c) ((recs m 0 c).arrAt · cfg0.N) (fun w => (exitQ_arr m c w).symm)
      (fun b hb => exitQ_other m c b fun w e => hb (Finset.mem_image.mpr ⟨w, Finset.mem_univ _, e⟩))
    rw [Pipeline.unscopedBufs_held] at hglue
    iintro ⟨Harr, Hdue, Hgen, Hrest⟩
    imodintro
    isplitl [Harr Hrest]
    · iapply hglue; isplitl [Harr] <;> iassumption
    isplitl [Hgen]; · iexact Hgen
    unfold Pipeline.Dat.owesAt Pipeline.owesWithin
    icases Hdue with ⟨%W, -, Hdue⟩; iexists W; iexact Hdue

/-! ## The second launch as a segment -/

/-- The two buffers behind the second launch's three windows. -/
theorem behindA (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v4) ↦{fullShare} W main_v4) ∗ (((c : Thread nD τ).loc main_v5) ↦{fullShare} W main_v5)) := by
  unfold Pipeline.arrBufs
  exact bigSep_eq_bigSepL_of_eq [main_v4, main_v5] (by decide) (by decide) _

/-- The second launch's arrays, window by window: the packed array at its two half shares, the output array whole. -/
theorem arraysA (c : Dev nD) (G : (w : Fin cfg1.W) → Buf (Elt F) ((cfg1.win w).arr.view.loc (c : Thread nD τ))) :
    ((recs m 1 c).arrays G : sProp 𝕄)
      = iprop((((c : Thread nD τ).loc main_v4) ↦{fullShare.left} G 0) ∗ (((c : Thread nD τ).loc main_v4) ↦{fullShare.right} G 1)
          ∗ (((c : Thread nD τ).loc main_v5) ↦{fullShare} G 2)) := by
  show ((datA (entryA m) c).arrays G : sProp 𝕄) = _
  unfold Dat.arrays
  rw [bigSep_W1, datA_share0, datA_share1, datA_share2, (arr_whole1 0).set_eq_univ, (arr_whole1 2).set_eq_univ]

/-- An input window's array is never written: at every point it holds its entry contents. -/
theorem keptA0 (c : Dev nD) (n : ℕ) : (recs m 1 c).arrAt 0 n = exitQ m c (Proc.devRef .tc main_v4) :=
  ((datA (entryA m) c).arrAt_in 0 rfl n).trans (datA_A (entryA m) c 0)
theorem keptA1 (c : Dev nD) (n : ℕ) : (recs m 1 c).arrAt 1 n = exitQ m c (Proc.devRef .tc main_v4) :=
  ((datA (entryA m) c).arrAt_in 1 rfl n).trans (datA_A (entryA m) c 1)

/-- The buffers no window of the second launch touches hold the same contents before and after it. -/
theorem restA_same (c : Dev nD) :
    (Pipeline.unscopedRest (Ix := Unit) (Name := ℕ) (U := UR sig nD τ) (Lvl := ℕ) spec1 c (entryA m c) : sProp 𝕄)
      = Pipeline.unscopedRest (Ix := Unit) (Name := ℕ) (U := UR sig nD τ) (Lvl := ℕ) spec1 c (fun b => exitA m c b) := by
  unfold Pipeline.unscopedRest
  refine bigSep_congr fun b hb => ?_
  have hne : b ≠ main_v5 := fun e => by
    subst e
    exact (Finset.mem_sdiff.mp hb).2 (Finset.mem_image.mpr ⟨2, Finset.mem_univ _, rfl⟩)
  dsimp only
  rw [show exitA m c (Proc.devRef .tc b) = exitQ m c (Proc.devRef .tc b) from exitA_other m c b hne]

set_option backward.isDefEq.respectTransparency.types false in
/-- The second launch: entered with every unscoped buffer at exitQ, left with them at exitA. The packed array is read
    through two windows: its full share is halved for them on the way in and joined again on the way out. -/
def segA : RegionSeg (pcfgs (F := F)) adm (recs m) () defs₀ noVariants noPairs noLevel 1 where
  win := winFacts₀1
  block_pos := block_pos1
  stage_whole := stage_whole1
  K := PEmpty
  osem k := k.elim
  ho := Pipeline.OwnSemFacts.none _
  hbody c := (obligationA (entryA m) c).loose
  hwaits := Pipeline.hwaits_of_owed_zero _ _ _ _ noPairs noLevel 1 fun _ _ => rfl
  pre c := iprop(StableHlo.held (c : Thread nD τ) (Pipeline.ucRefs τ sig) (exitQ m c) ∗ beside c)
  post c := iprop(atEnd m c ∗ ∃ W, owes (c : Thread nD τ) (0 : CellTallies nD τ sig Unit) W)
  X c := iprop(∃ g, prngReg c g)
  Y c := iprop(∃ g, prngReg c g)
  Z c := Pipeline.unscopedRest (Ix := Unit) (Name := ℕ) (U := UR sig nD τ) (Lvl := ℕ) spec1 c (entryA m c)
  hentry c := by
    rw [Pipeline.ownSems0_none, arraysA m c, ← Pipeline.unscopedBufs_held c (exitQ m c),
      Pipeline.unscopedBufs_split₀ cfgs 1 winFacts₀1.arr_unscoped c (entryA m c),
      show Pipeline.arrBufs (Ix := Unit) (Name := ℕ) (U := UR sig nD τ) (Lvl := ℕ) (cfgs 1).spec c (entryA m c) = _ from behindA c (entryA m c)]
    iintro ⟨⟨⟨⟨Hpacked, Hout⟩, Hrest⟩, Hgen, Hdue⟩, -, -⟩
    ihave Hhalves := (pointsTo_share (PosShare.mem_left_op_right fullShare)).1 $$ Hpacked
    icases Hhalves with ⟨Hl, Hr⟩
    imodintro
    isplitl [Hl Hr Hout]
    · isplitl [Hl]; · iexact Hl
      isplitl [Hr]; · iexact Hr
      iexact Hout
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr; · ipureintro; exact fun _ _ => Or.inl trivial
      iexact Hdue
    isplitl [Hgen]; · iexact Hgen
    iexact Hrest
  hin c := by
    rw [show (recs m 1 c).Φ 0 = Pipeline.ΦA spec1 c from rfl]; unfold Pipeline.ΦA
    iintro ⟨Hgen, -, Hscoped⟩
    isplitl [Hscoped]; · iexact Hscoped
    iexact Hgen
  hout c := by
    rw [Pipeline.ownSems0_none, show (recs m 1 c).Φ (Fin.last _) = Pipeline.ΦA spec1 c from rfl]; unfold Pipeline.ΦA
    iintro ⟨Hscoped, Hgen⟩
    isplitl [Hgen]; · iexact Hgen
    isplitr; · iempintro
    iexact Hscoped
  hexit c := by
    rw [arraysA m c, keptA0 m c, keptA1 m c, restA_same m c]
    unfold atEnd
    rw [← Pipeline.unscopedBufs_held c (exitA m c), Pipeline.unscopedBufs_split₀ cfgs 1 winFacts₀1.arr_unscoped c (fun b => exitA m c b),
      show Pipeline.arrBufs (Ix := Unit) (Name := ℕ) (U := UR sig nD τ) (Lvl := ℕ) (cfgs 1).spec c (fun b => exitA m c b) = _ from behindA c (fun b => exitA m c b),
      show exitA m c (Proc.devRef .tc main_v4) = exitQ m c (Proc.devRef .tc main_v4) from exitA_other m c main_v4 (by decide),
      show exitA m c (Proc.devRef .tc main_v5) = (datA (entryA m) c).arrAt 2 cfg1.N from exitA_out m c]
    iintro ⟨⟨Hl, Hr, Hout⟩, Hdue, Hgen, Hrest⟩
    ihave Hpacked := (pointsTo_share (PosShare.mem_left_op_right fullShare)).2 $$ [Hl Hr]
    · isplitl [Hl]; · iexact Hl
      iexact Hr
    imodintro
    isplitl [Hpacked Hout Hrest Hgen]
    · isplitl [Hpacked Hout Hrest]
      · isplitl [Hpacked Hout]
        · isplitl [Hpacked]; · iexact Hpacked
          iexact Hout
        iexact Hrest
      iexact Hgen
    unfold Pipeline.Dat.owesAt Pipeline.owesWithin
    icases Hdue with ⟨%W, -, Hdue⟩; iexists W; iexact Hdue

/-! ## The run -/

/-- An unscoped reference of the core is among those the thread states hold. -/
theorem held_ref (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- @main's four items on every core: the two host stretches, then the two launches. -/
abbrev items (c : Dev nD) : List (Seg (pcfgs (F := F)) adm (recs m) () defs₀ noVariants noPairs noLevel) :=
  [.host (seg0 m noVariants noPairs noLevel (fun _ => beside)), .host (seg1 m noVariants noPairs noLevel (fun _ => beside)),
    .region (segQ m), .region (segA m)]

set_option backward.isDefEq.respectTransparency.types false in
/-- From any memory with zero counters, every weakly fair execution of @main terminates, nothing faulting, and on every
    core every unscoped buffer ends at exitA: the arguments as launched, the result at what the second launch's
    write-backs leave. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = exitA m c b) := by
  refine Pipeline.θ_run_regions_kit_dev (pcfgs (F := F)) adm (recs m) () cellOf_inj emb₁ defs₀ noVariants noPairs noLevel m ρ main
    (items m)
    (fun c Q => by
      rewrite [main_chain c, Seg.run_eq_chain,
        show (items m c).map Seg.prog = [
          StableHlo.seq hostOps0,
          StableHlo.seq hostOps0_1,
          Prog.lift (.customCall (Pipeline.entry 0) ()),
          Prog.lift (.customCall (Pipeline.entry 1) ()) ] from rfl]
      exact .rfl)
    (fun c => by simp only [items, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ beside c)) (Tₙ := atEnd m)
    (hch := fun c => ⟨.rfl, .rfl, .rfl, .rfl, .rfl⟩)
    (hinit := by
      refine Pipeline.initEach noPairs noLevel fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hbufs, -, Hdue, -, Hgen, -⟩, -⟩
      imodintro
      isplitl [Hbufs]; · iexact Hbufs
      isplitl [Hgen]; · iexists _; iexact Hgen
      iexists ∅; iexact Hdue)
    (QY := fun c s => ∀ b ∈ Pipeline.ucRefs τ sig, s.mem (((c : Thread nD τ)).1, b) = exitA m c b)
    (hfin := fun c s' => by
      iintro ⟨⟨Hbufs, -⟩, HSI⟩
      unfold StableHlo.held
      imodintro
      iapply (pointsTo_read_all (Pipeline.ucRefs τ sig) (fun b => (((c : Thread nD τ)).1, b)) (exitA m c) s')
      isplitl [Hbufs] <;> iassumption)
    (hQ := fun s h c => h c)

/-! ## The arguments end as launched -/

/-- A feature array or the second layer's weights: an input window of the first launch, untouched by the host lines. -/
theorem exitA_arg0 (c : Dev nD) : exitA m c (Proc.devRef .tc main_arg0) = m ((c : Thread nD τ).loc main_arg0) :=
  (exitA_other m c main_arg0 (by decide)).trans <| (exitQ_arr m c 0).trans <| ((datQ (entryQ m) c).arrAt_in 0 rfl _).trans <|
    (datQ_A (entryQ m) c 0).trans <| (V2_of m c main_arg0 (by decide)).trans <| (V1_of m c main_arg0 (by decide)).trans rfl
theorem exitA_arg1 (c : Dev nD) : exitA m c (Proc.devRef .tc main_arg1) = m ((c : Thread nD τ).loc main_arg1) :=
  (exitA_other m c main_arg1 (by decide)).trans <| (exitQ_arr m c 1).trans <| ((datQ (entryQ m) c).arrAt_in 1 rfl _).trans <|
    (datQ_A (entryQ m) c 1).trans <| (V2_of m c main_arg1 (by decide)).trans <| (V1_of m c main_arg1 (by decide)).trans rfl
theorem exitA_arg4 (c : Dev nD) : exitA m c (Proc.devRef .tc main_arg4) = m ((c : Thread nD τ).loc main_arg4) :=
  (exitA_other m c main_arg4 (by decide)).trans <| (exitQ_arr m c 4).trans <| ((datQ (entryQ m) c).arrAt_in 4 rfl _).trans <|
    (datQ_A (entryQ m) c 4).trans <| (V2_of m c main_arg4 (by decide)).trans <| (V1_of m c main_arg4 (by decide)).trans rfl
/-- The other arguments: no window of either launch, untouched by the host lines. -/
theorem exitA_arg2 (c : Dev nD) : exitA m c (Proc.devRef .tc main_arg2) = m ((c : Thread nD τ).loc main_arg2) :=
  (exitA_other m c main_arg2 (by decide)).trans <| (exitQ_other m c main_arg2 (by decide)).trans <|
    (V2_of m c main_arg2 (by decide)).trans <| (V1_of m c main_arg2 (by decide)).trans rfl
theorem exitA_arg3 (c : Dev nD) : exitA m c (Proc.devRef .tc main_arg3) = m ((c : Thread nD τ).loc main_arg3) :=
  (exitA_other m c main_arg3 (by decide)).trans <| (exitQ_other m c main_arg3 (by decide)).trans <|
    (V2_of m c main_arg3 (by decide)).trans <| (V1_of m c main_arg3 (by decide)).trans rfl
theorem exitA_arg5 (c : Dev nD) : exitA m c (Proc.devRef .tc main_arg5) = m ((c : Thread nD τ).loc main_arg5) :=
  (exitA_other m c main_arg5 (by decide)).trans <| (exitQ_other m c main_arg5 (by decide)).trans <|
    (V2_of m c main_arg5 (by decide)).trans <| (V1_of m c main_arg5 (by decide)).trans rfl
theorem exitA_arg6 (c : Dev nD) : exitA m c (Proc.devRef .tc main_arg6) = m ((c : Thread nD τ).loc main_arg6) :=
  (exitA_other m c main_arg6 (by decide)).trans <| (exitQ_other m c main_arg6 (by decide)).trans <|
    (V2_of m c main_arg6 (by decide)).trans <| (V1_of m c main_arg6 (by decide)).trans rfl
theorem exitA_arg7 (c : Dev nD) : exitA m c (Proc.devRef .tc main_arg7) = m ((c : Thread nD τ).loc main_arg7) :=
  (exitA_other m c main_arg7 (by decide)).trans <| (exitQ_other m c main_arg7 (by decide)).trans <|
    (V2_of m c main_arg7 (by decide)).trans <| (V1_of m c main_arg7 (by decide)).trans rfl

/-- The frame: every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (held_ref main_arg0 (by decide))).trans (exitA_arg0 m c), (h c _ (held_ref main_arg1 (by decide))).trans (exitA_arg1 m c),
      (h c _ (held_ref main_arg2 (by decide))).trans (exitA_arg2 m c), (h c _ (held_ref main_arg3 (by decide))).trans (exitA_arg3 m c),
      (h c _ (held_ref main_arg4 (by decide))).trans (exitA_arg4 m c), (h c _ (held_ref main_arg5 (by decide))).trans (exitA_arg5 m c),
      (h c _ (held_ref main_arg6 (by decide))).trans (exitA_arg6 m c), (h c _ (held_ref main_arg7 (by decide))).trans (exitA_arg7 m c)⟩)
    (run_all m ρ)

end Cert.Kernel.Tiled

end
-- ==== Proof.TiledQkv.lean ====
/-
  The first launch (the packed projection), one grid point at a time.

  The grid has 8 points; point t stages rows 1536 t … 1536 t + 1535 of the two feature arrays, the four weight arrays
  whole, and an output block of 1536 rows of the packed array. The body loads the six input blocks whole, computes, and
  stores one 1536 × 128 value over the whole output block. Stated at a PARAMETER V: what the core's buffers hold when
  the launch is entered.

  Here: what each window's block is at a point; that an input window's staging buffer holds that block at every point
  (the weight windows are fetched once and their block never moves); what the body leaves in the output block; the
  body's Hoare triple; the bookkeeping record the pipeline rule takes, and the rule's obligation at every point.
-/
import proofs.«134647_j56599079027265_2_alg».proof.Proof.Gen.KernelIdeal.Launch
import proofs.«134647_j56599079027265_2_alg».proof.Proof.Gen.KernelIdeal.Skeleton
import proofs.«134647_j56599079027265_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Tiled

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off the window's array as the launch finds it. -/
def blkQ (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: its staging buffer holds its block at every point, whether the point fetched it or not (an
    unfetched window's block index has not moved), for any record whose array is V's and whose body leaves the block. -/
theorem foundQ0 {c : Dev nD} (dat : Dat τ (Elt F) Unit ℕ (UR sig nD τ) ℕ cfg0 c) (hA : dat.A 0 = V c (Pipeline.arrRef spec0 0))
    (hafter : ∀ t, dat.after 0 t = blkQ V c 0 t) (t : Fin cfg0.N) (d) : dat.before 0 t d = blkQ V c 0 t :=
  (dat.before_in_eq_fetched 0 rfl (fun _ => rfl) (fun _ _ _ => rfl) (fun t => by rw [hafter]; unfold Dat.blockOf blkQ; rw [hA]; try rfl) t d).trans
    (by unfold Dat.fetched Dat.blockOf blkQ; rw [hA]; try rfl)

/-- Input window 1: its staging buffer holds its block at every point, whether the point fetched it or not (an
    unfetched window's block index has not moved), for any record whose array is V's and whose body leaves the block. -/
theorem foundQ1 {c : Dev nD} (dat : Dat τ (Elt F) Unit ℕ (UR sig nD τ) ℕ cfg0 c) (hA : dat.A 1 = V c (Pipeline.arrRef spec0 1))
    (hafter : ∀ t, dat.after 1 t = blkQ V c 1 t) (t : Fin cfg0.N) (d) : dat.before 1 t d = blkQ V c 1 t :=
  (dat.before_in_eq_fetched 1 rfl (fun _ => rfl) (fun _ _ _ => rfl) (fun t => by rw [hafter]; unfold Dat.blockOf blkQ; rw [hA]; try rfl) t d).trans
    (by unfold Dat.fetched Dat.blockOf blkQ; rw [hA]; try rfl)

/-- Input window 2: its staging buffer holds its block at every point, whether the point fetched it or not (an
    unfetched window's block index has not moved), for any record whose array is V's and whose body leaves the block. -/
theorem foundQ2 {c : Dev nD} (dat : Dat τ (Elt F) Unit ℕ (UR sig nD τ) ℕ cfg0 c) (hA : dat.A 2 = V c (Pipeline.arrRef spec0 2))
    (hafter : ∀ t, dat.after 2 t = blkQ V c 2 t) (t : Fin cfg0.N) (d) : dat.before 2 t d = blkQ V c 2 t :=
  (dat.before_in_eq_fetched 2 rfl (fun _ => rfl) (fun _ _ _ => rfl) (fun t => by rw [hafter]; unfold Dat.blockOf blkQ; rw [hA]; try rfl) t d).trans
    (by unfold Dat.fetched Dat.blockOf blkQ; rw [hA]; try rfl)

/-- Input window 3: its staging buffer holds its block at every point, whether the point fetched it or not (an
    unfetched window's block index has not moved), for any record whose array is V's and whose body leaves the block. -/
theorem foundQ3 {c : Dev nD} (dat : Dat τ (Elt F) Unit ℕ (UR sig nD τ) ℕ cfg0 c) (hA : dat.A 3 = V c (Pipeline.arrRef spec0 3))
    (hafter : ∀ t, dat.after 3 t = blkQ V c 3 t) (t : Fin cfg0.N) (d) : dat.before 3 t d = blkQ V c 3 t :=
  (dat.before_in_eq_fetched 3 rfl (fun _ => rfl) (fun _ _ _ => rfl) (fun t => by rw [hafter]; unfold Dat.blockOf blkQ; rw [hA]; try rfl) t d).trans
    (by unfold Dat.fetched Dat.blockOf blkQ; rw [hA]; try rfl)

/-- Input window 4: its staging buffer holds its block at every point, whether the point fetched it or not (an
    unfetched window's block index has not moved), for any record whose array is V's and whose body leaves the block. -/
theorem foundQ4 {c : Dev nD} (dat : Dat τ (Elt F) Unit ℕ (UR sig nD τ) ℕ cfg0 c) (hA : dat.A 4 = V c (Pipeline.arrRef spec0 4))
    (hafter : ∀ t, dat.after 4 t = blkQ V c 4 t) (t : Fin cfg0.N) (d) : dat.before 4 t d = blkQ V c 4 t :=
  (dat.before_in_eq_fetched 4 rfl (fun _ => rfl) (fun _ _ _ => rfl) (fun t => by rw [hafter]; unfold Dat.blockOf blkQ; rw [hA]; try rfl) t d).trans
    (by unfold Dat.fetched Dat.blockOf blkQ; rw [hA]; try rfl)

/-- Input window 5: its staging buffer holds its block at every point, whether the point fetched it or not (an
    unfetched window's block index has not moved), for any record whose array is V's and whose body leaves the block. -/
theorem foundQ5 {c : Dev nD} (dat : Dat τ (Elt F) Unit ℕ (UR sig nD τ) ℕ cfg0 c) (hA : dat.A 5 = V c (Pipeline.arrRef spec0 5))
    (hafter : ∀ t, dat.after 5 t = blkQ V c 5 t) (t : Fin cfg0.N) (d) : dat.before 5 t d = blkQ V c 5 t :=
  (dat.before_in_eq_fetched 5 rfl (fun _ => rfl) (fun _ _ _ => rfl) (fun t => by rw [hafter]; unfold Dat.blockOf blkQ; rw [hA]; try rfl) t d).trans
    (by unfold Dat.fetched Dat.blockOf blkQ; rw [hA]; try rfl)

/-- The whole-block rectangles the body loads and stores through. -/
abbrev rX0 : Rect S1536x64 := Rect.unit (s := S1536x64) ![0, 0] S1536x64.size inb_S1536x64_S1536x64_0_0
abbrev rX1 : Rect S1536x128 := Rect.unit (s := S1536x128) ![0, 0] S1536x128.size inb_S1536x128_S1536x128_0_0
abbrev rWa : Rect S64x16 := Rect.unit (s := S64x16) ![0, 0] S64x16.size inb_S64x16_S64x16_0_0
abbrev rWb : Rect S128x16 := Rect.unit (s := S128x16) ![0, 0] S128x16.size inb_S128x16_S128x16_0_0
abbrev rW2 : Rect S16x16 := Rect.unit (s := S16x16) ![0, 0] S16x16.size inb_S16x16_S16x16_0_0
abbrev rWp : Rect S16x128 := Rect.unit (s := S16x128) ![0, 0] S16x128.size inb_S16x128_S16x128_0_0

/-- What the body leaves in the output block, from the six input blocks: its one store, of the body's arithmetic on
    the loaded blocks, over the whole block. -/
def leftQ (x0 : Vec F S1536x64 .f32) (x1 : Vec F S1536x128 .f32) (x2 : Vec F S64x16 .f32) (x3 : Vec F S128x16 .f32)
    (x4 : Vec F S16x16 .f32) (x5 : Vec F S16x128 .f32) : Vec F S1536x128 .f32 :=
  View.canon [⟨rX1, k0_pay1 (View.ld x0 rX0) (View.ld x2 rWa) (View.ld x1 rX1) (View.ld x3 rWb) (View.ld x4 rW2) (View.ld x5 rWp)⟩]

/-- The one store covers the block. -/
theorem coverQ (p0 : Vec F S1536x128 .f32) (y : S1536x128.Idx) :
    ∃ pc ∈ ([⟨rX1, p0⟩] : List (View.Piece (Elt F) S1536x128 .f32)), y ∈ pc.1.set :=
  View.cover_of_tiled [⟨rX1, p0⟩] S1536x128.size (by rfl) y

set_option maxHeartbeats 1000000 in
/-- The body on whole staging buffers, the six inputs' at read contents x0 … x5 and the output's at anything: it runs
    to its end leaving the inputs as they were and the output at leftQ of them. -/
theorem tripleQ (c : Dev nD) (E : Set ℕ) (i : grid0.Coords)
    (a1 : Memref sig .tc .vmem S1536x64 .f32) (h1 : a1.IsWhole) (a2 : Memref sig .tc .vmem S1536x128 .f32) (h2 : a2.IsWhole)
    (a3 : Memref sig .tc .vmem S64x16 .f32) (h3 : a3.IsWhole) (a4 : Memref sig .tc .vmem S128x16 .f32) (h4 : a4.IsWhole)
    (a5 : Memref sig .tc .vmem S16x16 .f32) (h5 : a5.IsWhole) (a6 : Memref sig .tc .vmem S16x128 .f32) (h6 : a6.IsWhole)
    (a7 : Memref sig .tc .vmem S1536x128 .f32) (h7 : a7.IsWhole)
    (x0 : Vec F S1536x64 .f32) (x1 : Vec F S1536x128 .f32) (x2 : Vec F S64x16 .f32) (x3 : Vec F S128x16 .f32)
    (x4 : Vec F S16x16 .f32) (x5 : Vec F S16x128 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ (∃ d, owns (c : Thread nD τ) a7 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare (leftQ x0 x1 x2 x3 x4 x5)) -∗ K ⟨⟩))
      ⊢ wp frame (wpE (defs₀ (F := F)) Variants.none c none) E (cc0_qkv_kernel i a1 h1 a2 h2 a3 h3 a4 h4 a5 h5 a6 h6 a7 h7) K := by
  simp only [cc0_qkv_kernel_eq_skeleton]; unfold cc0_qkv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (coverQ _)

/-- The pipeline rule's record for the first launch on core c: the arrays as the launch finds them; after the body at
    point t each input window's buffer still at its block and the output window's at leftQ of the six blocks; the
    invariant is only what the body never touches (the other scoped buffers, the generator register); nothing owed. -/
def datQ (c : Dev nD) : Dat τ (Elt F) Unit ℕ (UR sig nD τ) ℕ cfg0 c where
  A w := V c (Pipeline.arrRef spec0 w)
  after w t := match w with
    | ⟨0, _⟩ => blkQ V c 0 t
    | ⟨1, _⟩ => blkQ V c 1 t
    | ⟨2, _⟩ => blkQ V c 2 t
    | ⟨3, _⟩ => blkQ V c 3 t
    | ⟨4, _⟩ => blkQ V c 4 t
    | ⟨5, _⟩ => blkQ V c 5 t
    | ⟨6, _⟩ => leftQ (blkQ V c 0 t) (blkQ V c 1 t) (blkQ V c 2 t) (blkQ V c 3 t) (blkQ V c 4 t) (blkQ V c 5 t)
  Φ _ := Pipeline.ΦA spec0 c
  q _ := fullShare
  owed _ := 0

theorem datQ_A (c : Dev nD) (w : Fin cfg0.W) : (datQ V c).A w = V c (Pipeline.arrRef spec0 w) := by dsimp only [datQ]

theorem datQ_after0 (c : Dev nD) (t : Fin cfg0.N) : (datQ V c).after 0 t = blkQ V c 0 t := by dsimp only [datQ]
theorem datQ_after1 (c : Dev nD) (t : Fin cfg0.N) : (datQ V c).after 1 t = blkQ V c 1 t := by dsimp only [datQ]
theorem datQ_after2 (c : Dev nD) (t : Fin cfg0.N) : (datQ V c).after 2 t = blkQ V c 2 t := by dsimp only [datQ]
theorem datQ_after3 (c : Dev nD) (t : Fin cfg0.N) : (datQ V c).after 3 t = blkQ V c 3 t := by dsimp only [datQ]
theorem datQ_after4 (c : Dev nD) (t : Fin cfg0.N) : (datQ V c).after 4 t = blkQ V c 4 t := by dsimp only [datQ]
theorem datQ_after5 (c : Dev nD) (t : Fin cfg0.N) : (datQ V c).after 5 t = blkQ V c 5 t := by dsimp only [datQ]
theorem datQ_after6 (c : Dev nD) (t : Fin cfg0.N) : (datQ V c).after 6 t
    = leftQ (blkQ V c 0 t) (blkQ V c 1 t) (blkQ V c 2 t) (blkQ V c 3 t) (blkQ V c 4 t) (blkQ V c 5 t) := by dsimp only [datQ]

theorem datQ_before0 (c : Dev nD) (t : Fin cfg0.N) (d) : (datQ V c).before 0 t d = blkQ V c 0 t := foundQ0 V (datQ V c) (datQ_A V c 0) (datQ_after0 V c) t d
theorem datQ_before1 (c : Dev nD) (t : Fin cfg0.N) (d) : (datQ V c).before 1 t d = blkQ V c 1 t := foundQ1 V (datQ V c) (datQ_A V c 1) (datQ_after1 V c) t d
theorem datQ_before2 (c : Dev nD) (t : Fin cfg0.N) (d) : (datQ V c).before 2 t d = blkQ V c 2 t := foundQ2 V (datQ V c) (datQ_A V c 2) (datQ_after2 V c) t d
theorem datQ_before3 (c : Dev nD) (t : Fin cfg0.N) (d) : (datQ V c).before 3 t d = blkQ V c 3 t := foundQ3 V (datQ V c) (datQ_A V c 3) (datQ_after3 V c) t d
theorem datQ_before4 (c : Dev nD) (t : Fin cfg0.N) (d) : (datQ V c).before 4 t d = blkQ V c 4 t := foundQ4 V (datQ V c) (datQ_A V c 4) (datQ_after4 V c) t d
theorem datQ_before5 (c : Dev nD) (t : Fin cfg0.N) (d) : (datQ V c).before 5 t d = blkQ V c 5 t := foundQ5 V (datQ V c) (datQ_A V c 5) (datQ_after5 V c) t d

/-- What the body is handed at point t: the invariant, the core's dues, and each window's current staging buffer. -/
def preQ (c : Dev nD) (t : Fin cfg0.N) : sProp 𝕄 :=
  iprop((datQ V c).Φ t.castSucc ∗ (datQ V c).owesAt () t.castSucc
    ∗ (∃ d, owns (c : Thread nD τ) (st0_0 t) fullShare ((datQ V c).before 0 t d))
    ∗ (∃ d, owns (c : Thread nD τ) (st0_1 t) fullShare ((datQ V c).before 1 t d))
    ∗ (∃ d, owns (c : Thread nD τ) (st0_2 t) fullShare ((datQ V c).before 2 t d))
    ∗ (∃ d, owns (c : Thread nD τ) (st0_3 t) fullShare ((datQ V c).before 3 t d))
    ∗ (∃ d, owns (c : Thread nD τ) (st0_4 t) fullShare ((datQ V c).before 4 t d))
    ∗ (∃ d, owns (c : Thread nD τ) (st0_5 t) fullShare ((datQ V c).before 5 t d))
    ∗ (∃ d, owns (c : Thread nD τ) (st0_6 t) fullShare ((datQ V c).before 6 t d)))

/-- What it hands back. -/
def postQ (c : Dev nD) (t : Fin cfg0.N) : sProp 𝕄 :=
  iprop((datQ V c).Φ t.succ ∗ (datQ V c).owesAt () t.succ
    ∗ owns (c : Thread nD τ) (st0_0 t) fullShare ((datQ V c).after 0 t)
    ∗ owns (c : Thread nD τ) (st0_1 t) fullShare ((datQ V c).after 1 t)
    ∗ owns (c : Thread nD τ) (st0_2 t) fullShare ((datQ V c).after 2 t)
    ∗ owns (c : Thread nD τ) (st0_3 t) fullShare ((datQ V c).after 3 t)
    ∗ owns (c : Thread nD τ) (st0_4 t) fullShare ((datQ V c).after 4 t)
    ∗ owns (c : Thread nD τ) (st0_5 t) fullShare ((datQ V c).after 5 t)
    ∗ owns (c : Thread nD τ) (st0_6 t) fullShare ((datQ V c).after 6 t))

/-- The body at any point: the input buffers hold their blocks, so the triple applies; the invariant and the dues pass
    through untouched. -/
theorem bodyQ (c : Dev nD) (t : Fin cfg0.N) :
    preQ V c t ⊢ wp frame (wpE (defs₀ (F := F)) Variants.none c none) Set.univ (bodyAt0 t) (fun _ => postQ V c t) := by
  unfold preQ postQ bodyAt0
  simp only [datQ_before0, datQ_before1, datQ_before2, datQ_before3, datQ_before4, datQ_before5]
  rw [show (datQ V c).Φ t.succ = (datQ V c).Φ t.castSucc from rfl,
    show (datQ V c).owesAt () t.succ = (datQ V c).owesAt () t.castSucc from rfl,
    datQ_after0, datQ_after1, datQ_after2, datQ_after3, datQ_after4, datQ_after5, datQ_after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (tripleQ c Set.univ _ _ _ _ _ _ _ _ _ _ _ _ _ _ _ (blkQ V c 0 t) (blkQ V c 1 t) (blkQ V c 2 t) (blkQ V c 3 t) (blkQ V c 4 t) (blkQ V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline rule's obligation, at every point. -/
theorem obligationQ (c : Dev nD) : BodyObligation (datQ (F := F) V c) (defs₀ (F := F)) Variants.none () Set.univ := fun t => by
  rw [bigSep_W0, bigSep_W0]
  exact bodyQ V c t

end Cert.KernelIdeal.Tiled

end
-- ==== Proof.TiledAttn.lean ====
/-
  The second launch (the attention), one grid point at a time.

  The grid has 48 points; point t stages rows 256 t … 256 t + 255 of the packed array as the queries' block, the
  WHOLE packed array a second time (keys and values; fetched once, its block never moves), and an output block of 256
  rows. Both input windows read ONE array, so each holds half of that array's share; neither writes it. The body
  loads the two input blocks whole, computes, and stores one 256 × 64 value over the whole output block. Stated at a
  PARAMETER V: what the core's buffers hold when the launch is entered.
-/
import proofs.«134647_j56599079027265_2_alg».proof.Proof.Gen.KernelIdeal.Launch
import proofs.«134647_j56599079027265_2_alg».proof.Proof.Gen.KernelIdeal.Skeleton
import proofs.«134647_j56599079027265_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Tiled

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off the window's array as the launch finds it. -/
def blkA (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0: its staging buffer holds its block at every point, fetched there or not. -/
theorem foundA0 {c : Dev nD} (dat : Dat τ (Elt F) Unit ℕ (UR sig nD τ) ℕ cfg1 c) (hA : dat.A 0 = V c (Pipeline.arrRef spec1 0))
    (hafter : ∀ t, dat.after 0 t = blkA V c 0 t) (t : Fin cfg1.N) (d) : dat.before 0 t d = blkA V c 0 t :=
  (dat.before_in_eq_fetched 0 rfl (fun _ => rfl) (fun _ _ _ => rfl) (fun t => by rw [hafter]; unfold Dat.blockOf blkA; rw [hA]; try rfl) t d).trans
    (by unfold Dat.fetched Dat.blockOf blkA; rw [hA]; try rfl)

/-- Input window 1: its staging buffer holds its block at every point, fetched there or not. -/
theorem foundA1 {c : Dev nD} (dat : Dat τ (Elt F) Unit ℕ (UR sig nD τ) ℕ cfg1 c) (hA : dat.A 1 = V c (Pipeline.arrRef spec1 1))
    (hafter : ∀ t, dat.after 1 t = blkA V c 1 t) (t : Fin cfg1.N) (d) : dat.before 1 t d = blkA V c 1 t :=
  (dat.before_in_eq_fetched 1 rfl (fun _ => rfl) (fun _ _ _ => rfl) (fun t => by rw [hafter]; unfold Dat.blockOf blkA; rw [hA]; try rfl) t d).trans
    (by unfold Dat.fetched Dat.blockOf blkA; rw [hA]; try rfl)

/-- The whole-block rectangles the body loads and stores through. -/
abbrev rQ : Rect S256x128 := Rect.unit (s := S256x128) ![0, 0] S256x128.size inb_S256x128_S256x128_0_0
abbrev rKV : Rect S12288x128 := Rect.unit (s := S12288x128) ![0, 0] S12288x128.size inb_S12288x128_S12288x128_0_0
abbrev rO : Rect S256x64 := Rect.unit (s := S256x64) ![0, 0] S256x64.size inb_S256x64_S256x64_0_0

/-- What the body leaves in the output block, from the two input blocks. -/
def leftA (x0 : Vec F S256x128 .f32) (x1 : Vec F S12288x128 .f32) : Vec F S256x64 .f32 :=
  View.canon [⟨rO, k1_pay1 (View.ld x0 rQ) (View.ld x1 rKV)⟩]

/-- The one store covers the block. -/
theorem coverA (p0 : Vec F S256x64 .f32) (y : S256x64.Idx) :
    ∃ pc ∈ ([⟨rO, p0⟩] : List (View.Piece (Elt F) S256x64 .f32)), y ∈ pc.1.set :=
  View.cover_of_tiled [⟨rO, p0⟩] S256x64.size (by rfl) y

set_option maxHeartbeats 1000000 in
/-- The body on whole staging buffers, the two inputs' at read contents x0, x1 and the output's at anything: it runs to
    its end leaving the inputs as they were and the output at leftA of them. -/
theorem tripleA (c : Dev nD) (E : Set ℕ) (i : grid1.Coords)
    (a1 : Memref sig .tc .vmem S256x128 .f32) (h1 : a1.IsWhole) (a2 : Memref sig .tc .vmem S12288x128 .f32) (h2 : a2.IsWhole)
    (a3 : Memref sig .tc .vmem S256x64 .f32) (h3 : a3.IsWhole)
    (x0 : Vec F S256x128 .f32) (x1 : Vec F S12288x128 .f32) (K : PUnit → sProp 𝕄) :
    iprop(owns (c : Thread nD τ) a1 fullShare x0 ∗ owns (c : Thread nD τ) a2 fullShare x1
        ∗ (∃ d, owns (c : Thread nD τ) a3 fullShare d)
        ∗ (iprop(owns (c : Thread nD τ) a1 fullShare x0 ∗ owns (c : Thread nD τ) a2 fullShare x1
            ∗ owns (c : Thread nD τ) a3 fullShare (leftA x0 x1)) -∗ K ⟨⟩))
      ⊢ wp frame (wpE (defs₀ (F := F)) Variants.none c none) E (cc1_attention_kernel i a1 h1 a2 h2 a3 h3) K := by
  simp only [cc1_attention_kernel_eq_skeleton]; unfold cc1_attention_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverA _)

/-- The pipeline rule's record for the second launch on core c: the arrays as the launch finds them; after the body at
    point t each input window's buffer still at its block and the output window's at leftA of the two blocks; the two
    input windows hold the two halves of their common array's share; nothing owed. -/
def datA (c : Dev nD) : Dat τ (Elt F) Unit ℕ (UR sig nD τ) ℕ cfg1 c where
  A w := V c (Pipeline.arrRef spec1 w)
  after w t := match w with
    | ⟨0, _⟩ => blkA V c 0 t
    | ⟨1, _⟩ => blkA V c 1 t
    | ⟨2, _⟩ => leftA (blkA V c 0 t) (blkA V c 1 t)
  Φ _ := Pipeline.ΦA spec1 c
  q w := match w with
    | ⟨0, _⟩ => fullShare.left
    | ⟨1, _⟩ => fullShare.right
    | ⟨2, _⟩ => fullShare
  owed _ := 0

theorem datA_A (c : Dev nD) (w : Fin cfg1.W) : (datA V c).A w = V c (Pipeline.arrRef spec1 w) := by dsimp only [datA]
theorem datA_after0 (c : Dev nD) (t : Fin cfg1.N) : (datA V c).after 0 t = blkA V c 0 t := by dsimp only [datA]
theorem datA_after1 (c : Dev nD) (t : Fin cfg1.N) : (datA V c).after 1 t = blkA V c 1 t := by dsimp only [datA]
theorem datA_after2 (c : Dev nD) (t : Fin cfg1.N) : (datA V c).after 2 t = leftA (blkA V c 0 t) (blkA V c 1 t) := by dsimp only [datA]
theorem datA_before0 (c : Dev nD) (t : Fin cfg1.N) (d) : (datA V c).before 0 t d = blkA V c 0 t := foundA0 V (datA V c) (datA_A V c 0) (datA_after0 V c) t d
theorem datA_before1 (c : Dev nD) (t : Fin cfg1.N) (d) : (datA V c).before 1 t d = blkA V c 1 t := foundA1 V (datA V c) (datA_A V c 1) (datA_after1 V c) t d

/-- The shares of the three windows' arrays: the two halves for the input windows, the full share for the output. -/
theorem datA_share0 (c : Dev nD) : (datA V c).share 0 = fullShare.left := by unfold Dat.share; rfl
theorem datA_share1 (c : Dev nD) : (datA V c).share 1 = fullShare.right := by unfold Dat.share; rfl
theorem datA_share2 (c : Dev nD) : (datA V c).share 2 = fullShare := by unfold Dat.share; rfl

/-- What the body is handed at point t, -/
def preA (c : Dev nD) (t : Fin cfg1.N) : sProp 𝕄 :=
  iprop((datA V c).Φ t.castSucc ∗ (datA V c).owesAt () t.castSucc
    ∗ (∃ d, owns (c : Thread nD τ) (st1_0 t) fullShare ((datA V c).before 0 t d))
    ∗ (∃ d, owns (c : Thread nD τ) (st1_1 t) fullShare ((datA V c).before 1 t d))
    ∗ (∃ d, owns (c : Thread nD τ) (st1_2 t) fullShare ((datA V c).before 2 t d)))

/-- and what it hands back. -/
def postA (c : Dev nD) (t : Fin cfg1.N) : sProp 𝕄 :=
  iprop((datA V c).Φ t.succ ∗ (datA V c).owesAt () t.succ
    ∗ owns (c : Thread nD τ) (st1_0 t) fullShare ((datA V c).after 0 t)
    ∗ owns (c : Thread nD τ) (st1_1 t) fullShare ((datA V c).after 1 t)
    ∗ owns (c : Thread nD τ) (st1_2 t) fullShare ((datA V c).after 2 t))

/-- The body at any point. -/
theorem bodyA (c : Dev nD) (t : Fin cfg1.N) :
    preA V c t ⊢ wp frame (wpE (defs₀ (F := F)) Variants.none c none) Set.univ (bodyAt1 t) (fun _ => postA V c t) := by
  unfold preA postA bodyAt1
  simp only [datA_before0, datA_before1]
  rw [show (datA V c).Φ t.succ = (datA V c).Φ t.castSucc from rfl,
    show (datA V c).owesAt () t.succ = (datA V c).owesAt () t.castSucc from rfl,
    datA_after0, datA_after1, datA_after2]
  iintro ⟨HΦ, Ho, ⟨%d0, H0⟩, ⟨%d1, H1⟩, ⟨%d2, H2⟩⟩
  iapply (tripleA c Set.univ _ _ _ _ _ _ _ (blkA V c 0 t) (blkA V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline rule's obligation, at every point. -/
theorem obligationA (c : Dev nD) : BodyObligation (datA (F := F) V c) (defs₀ (F := F)) Variants.none () Set.univ := fun t => by
  rw [bigSep_W1, bigSep_W1]
  exact bodyA V c t

end Cert.KernelIdeal.Tiled

end
-- ==== Proof.TiledRun.lean ====
/-
  The whole run of the tiled program: two stretches of host lines, then the two launches.

  Between two items of @main core c holds every unscoped buffer whole, at contents that are a fold through @main:
  the launch memory; after each host stretch the stretch's effect; after the first launch the packed array at what its
  write-backs leave and everything else as entered; after the second launch the output array at what ITS write-backs
  leave and everything else as entered. Beside the buffers ride the core's generator register (at some state) and its
  dues (none). Each launch is entered by splitting its windows' arrays out of the buffers and left by putting them
  back; the second launch reads ONE array through two windows, so that array's share is halved on the way in and joined
  again on the way out (neither window writes it).

  The run's conclusion: every weakly fair execution terminates, nothing faults, and every unscoped buffer of every core
  ends at the last contents of the fold.
-/
import proofs.«134647_j56599079027265_2_alg».proof.Proof.TiledQkv
import proofs.«134647_j56599079027265_2_alg».proof.Proof.TiledAttn
import proofs.«134647_j56599079027265_2_alg».proof.Proof.Gen.KernelIdeal.Regions

set_option maxRecDepth 16384

noncomputable section

namespace Cert.KernelIdeal.Tiled

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- What the first launch is entered from: the launch memory after the two host stretches, read at the core's references. -/
abbrev entryQ : (c : Dev nD) → (b : Ref sig .tc) → Buf (Elt F) ((c : Thread nD τ).loc b) := fun c b => V2 m c b

/-- After the first launch: its arrays at what the pipeline leaves (inputs as entered, the packed array's write-backs
    folded), every other buffer as entered. -/
def exitQ (c : Dev nD) : Valuation τ sig (Elt F) :=
  Pipeline.withArrays spec0 c (V2 m c) fun w => (datQ (entryQ m) c).arrAt w cfg0.N

theorem exitQ_arr (c : Dev nD) (w : Fin cfg0.W) :
    exitQ m c (Proc.devRef .tc (Pipeline.arrRef spec0 w)) = (datQ (entryQ m) c).arrAt w cfg0.N := by
  unfold exitQ; exact Pipeline.withArrays_arr spec0 launch0.win.arr_inj c _ _ w

theorem exitQ_other (c : Dev nD) (b : Ref sig .tc) (hb : ∀ w, Pipeline.arrRef spec0 w ≠ b) :
    exitQ m c (Proc.devRef .tc b) = V2 m c (Proc.devRef .tc b) := by
  unfold exitQ; exact Pipeline.withArrays_of_ne spec0 c _ _ b hb

/-- What the second launch is entered from. -/
abbrev entryA : (c : Dev nD) → (b : Ref sig .tc) → Buf (Elt F) ((c : Thread nD τ).loc b) := fun c b => exitQ m c b

/-- After the second launch: the output array at what its write-backs leave, every other buffer as entered. -/
def exitA (c : Dev nD) : Valuation τ sig (Elt F) :=
  Function.update (exitQ m c) (Proc.devRef .tc main_v5) ((datA (entryA m) c).arrAt 2 cfg1.N)

theorem exitA_out (c : Dev nD) : exitA m c (Proc.devRef .tc main_v5) = (datA (entryA m) c).arrAt 2 cfg1.N := by
  unfold exitA; exact Function.update_self _ _ _

theorem exitA_other (c : Dev nD) (b : Ref sig .tc) (hb : b ≠ main_v5) : exitA m c (Proc.devRef .tc b) = exitQ m c (Proc.devRef .tc b) := by
  unfold exitA; exact Function.update_of_ne (StableHlo.devRef_ne_of_ne hb) _ _

/-! ## The records, and what rides beside the buffers -/

/-- Each launch's record at its own entry contents. -/
def recs : (p : Fin 2) → (c : Dev nD) → Dat τ (Elt F) Unit ℕ (UR sig nD τ) ℕ (Pipeline.pin (pcfgs (F := F)) adm p) c
  | ⟨0, _⟩ => fun c => datQ (entryQ m) c
  | ⟨1, _⟩ => fun c => datA (entryA m) c

abbrev noVariants : Variants := Variants.none
abbrev noPairs : GSem nD τ sig → Finset Unit := fun _ => ∅
abbrev noLevel : GSem nD τ sig → Unit → ℕ := fun _ _ => 0

/-- Beside the buffers: the generator register at some state, and nothing owed. -/
abbrev beside (c : Dev nD) : sProp 𝕄 := iprop((∃ g, prngReg c g) ∗ ∃ W, owes (c : Thread nD τ) (0 : CellTallies nD τ sig Unit) W)

/-- The last thread state without the dues. -/
abbrev atEnd (c : Dev nD) : sProp 𝕄 := iprop(StableHlo.held (c : Thread nD τ) (Pipeline.ucRefs τ sig) (exitA m c) ∗ ∃ g, prngReg c g)

/-! ## The first launch as a segment -/

set_option backward.isDefEq.respectTransparency.types false in
/-- The first launch: entered with every unscoped buffer at the contents after the host stretches, left with them at
    exitQ. Its seven arrays are distinct, so each is split out at the full share and put back. -/
def segQ : RegionSeg (pcfgs (F := F)) adm (recs m) () defs₀ noVariants noPairs noLevel 0 where
  win := launch0.win.to₀
  block_pos := launch0.block_pos
  stage_whole := launch0.stage_whole
  K := PEmpty
  osem k := k.elim
  ho := Pipeline.OwnSemFacts.none _
  hbody c := (obligationQ (entryQ m) c).loose
  hwaits := Pipeline.hwaits_of_owed_zero _ _ _ _ noPairs noLevel 0 fun _ _ => rfl
  pre c := iprop(StableHlo.held (c : Thread nD τ) (Pipeline.ucRefs τ sig) (V2 m c) ∗ beside c)
  post c := iprop(StableHlo.held (c : Thread nD τ) (Pipeline.ucRefs τ sig) (exitQ m c) ∗ beside c)
  X c := iprop(∃ g, prngReg c g)
  Y c := iprop(∃ g, prngReg c g)
  Z c := Pipeline.unscopedRest (Ix := Unit) (Name := ℕ) (U := UR sig nD τ) (Lvl := ℕ) spec0 c (entryQ m c)
  hentry c := by
    rw [Pipeline.ownSems0_none]
    have hcut := Pipeline.arrays_of_unscopedBufs (p := 0) (pcfgs (F := F)) adm (recs m) launch0.win launch0.arr_whole c
      ((recs m 0 c).share_full fun _ => rfl) (entryQ m c) fun _ => rfl
    rw [Pipeline.unscopedBufs_held] at hcut
    iintro ⟨⟨Hbufs, Hgen, Hdue⟩, -, -⟩
    ihave Hparts := hcut $$ Hbufs
    icases Hparts with ⟨Harr, Hrest⟩
    imodintro
    isplitl [Harr]; · iexact Harr
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr; · ipureintro; exact fun _ _ => Or.inl trivial
      iexact Hdue
    isplitl [Hgen]; · iexact Hgen
    iexact Hrest
  hin c := by
    rw [show (recs m 0 c).Φ 0 = Pipeline.ΦA spec0 c from rfl]; unfold Pipeline.ΦA
    iintro ⟨Hgen, -, Hscoped⟩
    isplitl [Hscoped]; · iexact Hscoped
    iexact Hgen
  hout c := by
    rw [Pipeline.ownSems0_none, show (recs m 0 c).Φ (Fin.last _) = Pipeline.ΦA spec0 c from rfl]; unfold Pipeline.ΦA
    iintro ⟨Hscoped, Hgen⟩
    isplitl [Hgen]; · iexact Hgen
    isplitr; · iempintro
    iexact Hscoped
  hexit c := by
    have hglue := Pipeline.unscopedBufs_of_arrays (p := 0) (pcfgs (F := F)) adm (Ix := Unit) (Name := ℕ) (U := UR sig nD τ) (Lvl := ℕ)
      launch0.win launch0.arr_whole c (recs m) ((recs m 0 c).share_full fun _ => rfl)
      (entryQ m c) (entryA m c) ((recs m 0 c).arrAt · cfg0.N) (fun w => (exitQ_arr m c w).symm)
      (fun b hb => exitQ_other m c b fun w e => hb (Finset.mem_image.mpr ⟨w, Finset.mem_univ _, e⟩))
    rw [Pipeline.unscopedBufs_held] at hglue
    iintro ⟨Harr, Hdue, Hgen, Hrest⟩
    imodintro
    isplitl [Harr Hrest]
    · iapply hglue; isplitl [Harr] <;> iassumption
    isplitl [Hgen]; · iexact Hgen
    unfold Pipeline.Dat.owesAt Pipeline.owesWithin
    icases Hdue with ⟨%W, -, Hdue⟩; iexists W; iexact Hdue

/-! ## The second launch as a segment -/

/-- The two buffers behind the second launch's three windows. -/
theorem behindA (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v4) ↦{fullShare} W main_v4) ∗ (((c : Thread nD τ).loc main_v5) ↦{fullShare} W main_v5)) := by
  unfold Pipeline.arrBufs
  exact bigSep_eq_bigSepL_of_eq [main_v4, main_v5] (by decide) (by decide) _

/-- The second launch's arrays, window by window: the packed array at its two half shares, the output array whole. -/
theorem arraysA (c : Dev nD) (G : (w : Fin cfg1.W) → Buf (Elt F) ((cfg1.win w).arr.view.loc (c : Thread nD τ))) :
    ((recs m 1 c).arrays G : sProp 𝕄)
      = iprop((((c : Thread nD τ).loc main_v4) ↦{fullShare.left} G 0) ∗ (((c : Thread nD τ).loc main_v4) ↦{fullShare.right} G 1)
          ∗ (((c : Thread nD τ).loc main_v5) ↦{fullShare} G 2)) := by
  show ((datA (entryA m) c).arrays G : sProp 𝕄) = _
  unfold Dat.arrays
  rw [bigSep_W1, datA_share0, datA_share1, datA_share2, (arr_whole1 0).set_eq_univ, (arr_whole1 2).set_eq_univ]

/-- An input window's array is never written: at every point it holds its entry contents. -/
theorem keptA0 (c : Dev nD) (n : ℕ) : (recs m 1 c).arrAt 0 n = exitQ m c (Proc.devRef .tc main_v4) :=
  ((datA (entryA m) c).arrAt_in 0 rfl n).trans (datA_A (entryA m) c 0)
theorem keptA1 (c : Dev nD) (n : ℕ) : (recs m 1 c).arrAt 1 n = exitQ m c (Proc.devRef .tc main_v4) :=
  ((datA (entryA m) c).arrAt_in 1 rfl n).trans (datA_A (entryA m) c 1)

/-- The buffers no window of the second launch touches hold the same contents before and after it. -/
theorem restA_same (c : Dev nD) :
    (Pipeline.unscopedRest (Ix := Unit) (Name := ℕ) (U := UR sig nD τ) (Lvl := ℕ) spec1 c (entryA m c) : sProp 𝕄)
      = Pipeline.unscopedRest (Ix := Unit) (Name := ℕ) (U := UR sig nD τ) (Lvl := ℕ) spec1 c (fun b => exitA m c b) := by
  unfold Pipeline.unscopedRest
  refine bigSep_congr fun b hb => ?_
  have hne : b ≠ main_v5 := fun e => by
    subst e
    exact (Finset.mem_sdiff.mp hb).2 (Finset.mem_image.mpr ⟨2, Finset.mem_univ _, rfl⟩)
  dsimp only
  rw [show exitA m c (Proc.devRef .tc b) = exitQ m c (Proc.devRef .tc b) from exitA_other m c b hne]

set_option backward.isDefEq.respectTransparency.types false in
/-- The second launch: entered with every unscoped buffer at exitQ, left with them at exitA. The packed array is read
    through two windows: its full share is halved for them on the way in and joined again on the way out. -/
def segA : RegionSeg (pcfgs (F := F)) adm (recs m) () defs₀ noVariants noPairs noLevel 1 where
  win := winFacts₀1
  block_pos := block_pos1
  stage_whole := stage_whole1
  K := PEmpty
  osem k := k.elim
  ho := Pipeline.OwnSemFacts.none _
  hbody c := (obligationA (entryA m) c).loose
  hwaits := Pipeline.hwaits_of_owed_zero _ _ _ _ noPairs noLevel 1 fun _ _ => rfl
  pre c := iprop(StableHlo.held (c : Thread nD τ) (Pipeline.ucRefs τ sig) (exitQ m c) ∗ beside c)
  post c := iprop(atEnd m c ∗ ∃ W, owes (c : Thread nD τ) (0 : CellTallies nD τ sig Unit) W)
  X c := iprop(∃ g, prngReg c g)
  Y c := iprop(∃ g, prngReg c g)
  Z c := Pipeline.unscopedRest (Ix := Unit) (Name := ℕ) (U := UR sig nD τ) (Lvl := ℕ) spec1 c (entryA m c)
  hentry c := by
    rw [Pipeline.ownSems0_none, arraysA m c, ← Pipeline.unscopedBufs_held c (exitQ m c),
      Pipeline.unscopedBufs_split₀ cfgs 1 winFacts₀1.arr_unscoped c (entryA m c),
      show Pipeline.arrBufs (Ix := Unit) (Name := ℕ) (U := UR sig nD τ) (Lvl := ℕ) (cfgs 1).spec c (entryA m c) = _ from behindA c (entryA m c)]
    iintro ⟨⟨⟨⟨Hpacked, Hout⟩, Hrest⟩, Hgen, Hdue⟩, -, -⟩
    ihave Hhalves := (pointsTo_share (PosShare.mem_left_op_right fullShare)).1 $$ Hpacked
    icases Hhalves with ⟨Hl, Hr⟩
    imodintro
    isplitl [Hl Hr Hout]
    · isplitl [Hl]; · iexact Hl
      isplitl [Hr]; · iexact Hr
      iexact Hout
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%W, Hdue⟩; iexists W; isplitr; · ipureintro; exact fun _ _ => Or.inl trivial
      iexact Hdue
    isplitl [Hgen]; · iexact Hgen
    iexact Hrest
  hin c := by
    rw [show (recs m 1 c).Φ 0 = Pipeline.ΦA spec1 c from rfl]; unfold Pipeline.ΦA
    iintro ⟨Hgen, -, Hscoped⟩
    isplitl [Hscoped]; · iexact Hscoped
    iexact Hgen
  hout c := by
    rw [Pipeline.ownSems0_none, show (recs m 1 c).Φ (Fin.last _) = Pipeline.ΦA spec1 c from rfl]; unfold Pipeline.ΦA
    iintro ⟨Hscoped, Hgen⟩
    isplitl [Hgen]; · iexact Hgen
    isplitr; · iempintro
    iexact Hscoped
  hexit c := by
    rw [arraysA m c, keptA0 m c, keptA1 m c, restA_same m c]
    unfold atEnd
    rw [← Pipeline.unscopedBufs_held c (exitA m c), Pipeline.unscopedBufs_split₀ cfgs 1 winFacts₀1.arr_unscoped c (fun b => exitA m c b),
      show Pipeline.arrBufs (Ix := Unit) (Name := ℕ) (U := UR sig nD τ) (Lvl := ℕ) (cfgs 1).spec c (fun b => exitA m c b) = _ from behindA c (fun b => exitA m c b),
      show exitA m c (Proc.devRef .tc main_v4) = exitQ m c (Proc.devRef .tc main_v4) from exitA_other m c main_v4 (by decide),
      show exitA m c (Proc.devRef .tc main_v5) = (datA (entryA m) c).arrAt 2 cfg1.N from exitA_out m c]
    iintro ⟨⟨Hl, Hr, Hout⟩, Hdue, Hgen, Hrest⟩
    ihave Hpacked := (pointsTo_share (PosShare.mem_left_op_right fullShare)).2 $$ [Hl Hr]
    · isplitl [Hl]; · iexact Hl
      iexact Hr
    imodintro
    isplitl [Hpacked Hout Hrest Hgen]
    · isplitl [Hpacked Hout Hrest]
      · isplitl [Hpacked Hout]
        · isplitl [Hpacked]; · iexact Hpacked
          iexact Hout
        iexact Hrest
      iexact Hgen
    unfold Pipeline.Dat.owesAt Pipeline.owesWithin
    icases Hdue with ⟨%W, -, Hdue⟩; iexists W; iexact Hdue

/-! ## The run -/

/-- An unscoped reference of the core is among those the thread states hold. -/
theorem held_ref (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- @main's four items on every core: the two host stretches, then the two launches. -/
abbrev items (c : Dev nD) : List (Seg (pcfgs (F := F)) adm (recs m) () defs₀ noVariants noPairs noLevel) :=
  [.host (seg0 m noVariants noPairs noLevel (fun _ => beside)), .host (seg1 m noVariants noPairs noLevel (fun _ => beside)),
    .region (segQ m), .region (segA m)]

set_option backward.isDefEq.respectTransparency.types false in
/-- From any memory with zero counters, every weakly fair execution of @main terminates, nothing faulting, and on every
    core every unscoped buffer ends at exitA: the arguments as launched, the result at what the second launch's
    write-backs leave. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = exitA m c b) := by
  refine Pipeline.θ_run_regions_kit_dev (pcfgs (F := F)) adm (recs m) () cellOf_inj emb₁ defs₀ noVariants noPairs noLevel m ρ main
    (items m)
    (fun c Q => by
      rewrite [main_chain c, Seg.run_eq_chain,
        show (items m c).map Seg.prog = [
          StableHlo.seq hostOps0,
          StableHlo.seq hostOps0_1,
          Prog.lift (.customCall (Pipeline.entry 0) ()),
          Prog.lift (.customCall (Pipeline.entry 1) ()) ] from rfl]
      exact .rfl)
    (fun c => by simp only [items, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ beside c)) (Tₙ := atEnd m)
    (hch := fun c => ⟨.rfl, .rfl, .rfl, .rfl, .rfl⟩)
    (hinit := by
      refine Pipeline.initEach noPairs noLevel fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hbufs, -, Hdue, -, Hgen, -⟩, -⟩
      imodintro
      isplitl [Hbufs]; · iexact Hbufs
      isplitl [Hgen]; · iexists _; iexact Hgen
      iexists ∅; iexact Hdue)
    (QY := fun c s => ∀ b ∈ Pipeline.ucRefs τ sig, s.mem (((c : Thread nD τ)).1, b) = exitA m c b)
    (hfin := fun c s' => by
      iintro ⟨⟨Hbufs, -⟩, HSI⟩
      unfold StableHlo.held
      imodintro
      iapply (pointsTo_read_all (Pipeline.ucRefs τ sig) (fun b => (((c : Thread nD τ)).1, b)) (exitA m c) s')
      isplitl [Hbufs] <;> iassumption)
    (hQ := fun s h c => h c)

/-! ## The arguments end as launched -/

/-- A feature array or the second layer's weights: an input window of the first launch, untouched by the host lines. -/
theorem exitA_arg0 (c : Dev nD) : exitA m c (Proc.devRef .tc main_arg0) = m ((c : Thread nD τ).loc main_arg0) :=
  (exitA_other m c main_arg0 (by decide)).trans <| (exitQ_arr m c 0).trans <| ((datQ (entryQ m) c).arrAt_in 0 rfl _).trans <|
    (datQ_A (entryQ m) c 0).trans <| (V2_of m c main_arg0 (by decide)).trans <| (V1_of m c main_arg0 (by decide)).trans rfl
theorem exitA_arg1 (c : Dev nD) : exitA m c (Proc.devRef .tc main_arg1) = m ((c : Thread nD τ).loc main_arg1) :=
  (exitA_other m c main_arg1 (by decide)).trans <| (exitQ_arr m c 1).trans <| ((datQ (entryQ m) c).arrAt_in 1 rfl _).trans <|
    (datQ_A (entryQ m) c 1).trans <| (V2_of m c main_arg1 (by decide)).trans <| (V1_of m c main_arg1 (by decide)).trans rfl
theorem exitA_arg4 (c : Dev nD) : exitA m c (Proc.devRef .tc main_arg4) = m ((c : Thread nD τ).loc main_arg4) :=
  (exitA_other m c main_arg4 (by decide)).trans <| (exitQ_arr m c 4).trans <| ((datQ (entryQ m) c).arrAt_in 4 rfl _).trans <|
    (datQ_A (entryQ m) c 4).trans <| (V2_of m c main_arg4 (by decide)).trans <| (V1_of m c main_arg4 (by decide)).trans rfl
/-- The other arguments: no window of either launch, untouched by the host lines. -/
theorem exitA_arg2 (c : Dev nD) : exitA m c (Proc.devRef .tc main_arg2) = m ((c : Thread nD τ).loc main_arg2) :=
  (exitA_other m c main_arg2 (by decide)).trans <| (exitQ_other m c main_arg2 (by decide)).trans <|
    (V2_of m c main_arg2 (by decide)).trans <| (V1_of m c main_arg2 (by decide)).trans rfl
theorem exitA_arg3 (c : Dev nD) : exitA m c (Proc.devRef .tc main_arg3) = m ((c : Thread nD τ).loc main_arg3) :=
  (exitA_other m c main_arg3 (by decide)).trans <| (exitQ_other m c main_arg3 (by decide)).trans <|
    (V2_of m c main_arg3 (by decide)).trans <| (V1_of m c main_arg3 (by decide)).trans rfl
theorem exitA_arg5 (c : Dev nD) : exitA m c (Proc.devRef .tc main_arg5) = m ((c : Thread nD τ).loc main_arg5) :=
  (exitA_other m c main_arg5 (by decide)).trans <| (exitQ_other m c main_arg5 (by decide)).trans <|
    (V2_of m c main_arg5 (by decide)).trans <| (V1_of m c main_arg5 (by decide)).trans rfl
theorem exitA_arg6 (c : Dev nD) : exitA m c (Proc.devRef .tc main_arg6) = m ((c : Thread nD τ).loc main_arg6) :=
  (exitA_other m c main_arg6 (by decide)).trans <| (exitQ_other m c main_arg6 (by decide)).trans <|
    (V2_of m c main_arg6 (by decide)).trans <| (V1_of m c main_arg6 (by decide)).trans rfl
theorem exitA_arg7 (c : Dev nD) : exitA m c (Proc.devRef .tc main_arg7) = m ((c : Thread nD τ).loc main_arg7) :=
  (exitA_other m c main_arg7 (by decide)).trans <| (exitQ_other m c main_arg7 (by decide)).trans <|
    (V2_of m c main_arg7 (by decide)).trans <| (V1_of m c main_arg7 (by decide)).trans rfl

/-- The frame: every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (held_ref main_arg0 (by decide))).trans (exitA_arg0 m c), (h c _ (held_ref main_arg1 (by decide))).trans (exitA_arg1 m c),
      (h c _ (held_ref main_arg2 (by decide))).trans (exitA_arg2 m c), (h c _ (held_ref main_arg3 (by decide))).trans (exitA_arg3 m c),
      (h c _ (held_ref main_arg4 (by decide))).trans (exitA_arg4 m c), (h c _ (held_ref main_arg5 (by decide))).trans (exitA_arg5 m c),
      (h c _ (held_ref main_arg6 (by decide))).trans (exitA_arg6 m c), (h c _ (held_ref main_arg7 (by decide))).trans (exitA_arg7 m c)⟩)
    (run_all m ρ)

end Cert.KernelIdeal.Tiled

end
-- ==== Proof.Spec.lean ====
/-
  The function both programs compute, entry by entry, on the extended reals.

  A point cloud of 12288 rows carries a 64-wide and a 128-wide feature row. A two-layer bias-free perceptron with the
  positive part after each layer maps the joined 192-wide row to 16 numbers; three linear maps send those to a query
  (8 numbers), a key (8 numbers) and a value (64 numbers). Every row then attends to every row: the scores are the
  query-key inner products times one fixed scale, each row of scores is passed through the softmax (subtract the row
  maximum, exponentiate, divide by the row sum), and the result is the softmax-weighted sum of the values.

  Written here in the shape in which the tiled program evaluates it: the 192-term sum of the first layer as a 64-term
  sum plus a 128-term sum, and query, key and value as columns 0..7, 8..15, 16..79 of ONE 128-wide projection whose
  weight matrix is the three weight matrices side by side followed by zero columns.
-/
import Idealize.ShloMosaic.PureOps.Ideal
import Idealize.ShloMosaic.Lib.ValueIdx

noncomputable section

open scoped BigOperators

namespace Cert.Fusion

open Idealize.ShloMosaic Idealize.ShloMosaic.ValueIdx

/-- The positive part. -/
def relu (x : EReal) : EReal := max x 0

/-- The scale of the scores, as the float word both programs carry. -/
def scale : EReal := Ideal.ofBits .f32 0x3EB504F3#32

/-- The value a row maximum starts from: the word of minus infinity. -/
def maxSeed : EReal := Ideal.ofBits .f32 0xFF800000#32

/-- Row `a` of the first block of the first layer's weights, and row `b` of the second block, as rows of the
    192-row matrix. -/
def rowA (a : Fin 64) : Fin 192 := ⟨a.val, by have := a.isLt; omega⟩
def rowB (b : Fin 128) : Fin 192 := ⟨64 + b.val, by have := b.isLt; omega⟩

/-- The columns of the packed projection that hold the query, the key and the value. -/
def colQ (a : Fin 8) : Fin 128 := ⟨a.val, by have := a.isLt; omega⟩
def colK (a : Fin 8) : Fin 128 := ⟨8 + a.val, by have := a.isLt; omega⟩
def colV (d : Fin 64) : Fin 128 := ⟨16 + d.val, by have := d.isLt; omega⟩

/-- One row of the packed projection: from the row's two feature pieces `xa`, `xb`, the first layer's weights in two
    blocks `wa`, `wb`, the second layer's `w2` and the packed weights `wp`, the entry at column `q`. -/
def qkvRow (xa : Fin 64 → EReal) (xb : Fin 128 → EReal) (wa : Fin 64 → Fin 16 → EReal) (wb : Fin 128 → Fin 16 → EReal)
    (w2 : Fin 16 → Fin 16 → EReal) (wp : Fin 16 → Fin 128 → EReal) (q : Fin 128) : EReal :=
  ∑ k : Fin 16, relu (∑ l : Fin 16, relu ((∑ a : Fin 64, xa a * wa a l) + ∑ b : Fin 128, xb b * wb b l) * w2 l k) * wp k q

/-- One row of the attention: from the row's query `qr`, all keys `km` and all values `vm`, the entry at column `d`. -/
def attnRow {n : ℕ} (qr : Fin 8 → EReal) (km : Fin n → Fin 8 → EReal) (vm : Fin n → Fin 64 → EReal) (d : Fin 64) : EReal :=
  ∑ j : Fin n,
    Ideal.div
      (Ideal.exp ((∑ a : Fin 8, qr a * km j a) * scale
        - (Finset.univ : Finset (Fin n)).fold max maxSeed (fun j' => (∑ a : Fin 8, qr a * km j' a) * scale)))
      (∑ j'' : Fin n, Ideal.exp ((∑ a : Fin 8, qr a * km j'' a) * scale
        - (Finset.univ : Finset (Fin n)).fold max maxSeed (fun j' => (∑ a : Fin 8, qr a * km j' a) * scale)))
    * vm j d

/-- The packed weights: the query's, the key's and the value's weight matrices side by side, then zero columns. -/
def packW (wq wk : (⟨2, ![16, 8]⟩ : Shape).Idx → EReal) (wv : (⟨2, ![16, 64]⟩ : Shape).Idx → EReal)
    (k : Fin 16) (c : Fin 128) : EReal :=
  if h : c.val < 8 then wq (ix2 k ⟨c.val, h⟩)
  else if h2 : c.val < 16 then wk (ix2 k ⟨c.val - 8, by omega⟩)
  else if h3 : c.val < 80 then wv (ix2 k ⟨c.val - 16, by omega⟩)
  else 0

/-- The whole packed projection, all 12288 rows. -/
def qkvAll (x0 : (⟨2, ![12288, 64]⟩ : Shape).Idx → EReal) (x1 : (⟨2, ![12288, 128]⟩ : Shape).Idx → EReal)
    (w1 : (⟨2, ![192, 16]⟩ : Shape).Idx → EReal) (w2 : (⟨2, ![16, 16]⟩ : Shape).Idx → EReal)
    (wq wk : (⟨2, ![16, 8]⟩ : Shape).Idx → EReal) (wv : (⟨2, ![16, 64]⟩ : Shape).Idx → EReal)
    (r : Fin 12288) (c : Fin 128) : EReal :=
  qkvRow (fun a => x0 (ix2 r a)) (fun b => x1 (ix2 r b)) (fun a l => w1 (ix2 (rowA a) l)) (fun b l => w1 (ix2 (rowB b) l))
    (fun l k => w2 (ix2 l k)) (packW wq wk wv) c

/-- The attention over a whole packed array `P` (12288 rows of 128): row `r`'s query against every row's key and value. -/
def attnAll (P : Fin 12288 → Fin 128 → EReal) (r : Fin 12288) (d : Fin 64) : EReal :=
  attnRow (fun a => P r (colQ a)) (fun j a => P j (colK a)) (fun j d' => P j (colV d')) d

/-- THE RESULT: entry `(r, d)` of the output as a function of the seven arrays that matter (the coordinates array is
    not read). -/
def result (x0 : (⟨2, ![12288, 64]⟩ : Shape).Idx → EReal) (x1 : (⟨2, ![12288, 128]⟩ : Shape).Idx → EReal)
    (w1 : (⟨2, ![192, 16]⟩ : Shape).Idx → EReal) (w2 : (⟨2, ![16, 16]⟩ : Shape).Idx → EReal)
    (wq wk : (⟨2, ![16, 8]⟩ : Shape).Idx → EReal) (wv : (⟨2, ![16, 64]⟩ : Shape).Idx → EReal) :
    (⟨2, ![12288, 64]⟩ : Shape).Idx → EReal :=
  fun j => attnAll (qkvAll x0 x1 w1 w2 wq wk wv) (j 0) (j 1)

end Cert.Fusion

end
-- ==== Proof.LibMatmulPlain.lean ====
/-
  A plain matrix product read at an index, over the extended reals.

  For the dimension numbers of an [M, K] by [K, N] product with no batch axis (the left operand contracted on its
  second axis, the right operand on its first), the matrix unit's product at the entry (p, q) is the accumulator's
  entry plus the sum over k < K of A (p, k) * B (k, q); into a zero accumulator it is that sum alone. The extents
  M, K, N are arbitrary, and so are the operands' float formats (a change of format is the identity here).
-/
import Idealize.ShloMosaic.PureOps.Ideal.Laws
import Idealize.ShloMosaic.Lib.ValueIdx

noncomputable section

open scoped BigOperators

namespace Idealize.ShloMosaic.MatmulPlain

open Idealize.ShloMosaic Idealize.ShloMosaic.ValueIdx

variable {M K N : Nat}

/-- The contraction of a plain product has one axis, -/
theorem contr_rank : (DotDims.plain M K N).contr.rank = 1 := rfl
/-- of extent K. -/
theorem contr_size : (DotDims.plain M K N).contr.size ⟨0, by rw [contr_rank]; exact Nat.one_pos⟩ = K := rfl

/-- The left operand is read at row `j 0` and at the contraction position as its column. -/
theorem lhsIdx_eq (j : (⟨2, ![M, N]⟩ : Shape).Idx) (k : Fin K) :
    (DotDims.plain M K N).lhsIdx j ((contrEquiv1 (DotDims.plain M K N) K contr_rank contr_size).symm k) = ix2 (j 0) k := by
  funext a
  apply Fin.ext
  match a with
  | ⟨0, _⟩ => rfl
  | ⟨1, _⟩ =>
    refine ((DotDims.plain M K N).lhsIdx_val_of_single (cl := 1) rfl j _).trans ?_
    exact contrEquiv1_symm_val (DotDims.plain M K N) K contr_rank contr_size k

/-- The right operand is read at the contraction position as its row and at column `j 1`. -/
theorem rhsIdx_eq (j : (⟨2, ![M, N]⟩ : Shape).Idx) (k : Fin K) :
    (DotDims.plain M K N).rhsIdx j ((contrEquiv1 (DotDims.plain M K N) K contr_rank contr_size).symm k) = ix2 k (j 1) := by
  funext a
  apply Fin.ext
  match a with
  | ⟨0, _⟩ =>
    refine ((DotDims.plain M K N).rhsIdx_val_of_single (cr := 0) rfl j _).trans ?_
    exact contrEquiv1_symm_val (DotDims.plain M K N) K contr_rank contr_size k
  | ⟨1, _⟩ => rfl

/-- A plain product into any accumulator, at an entry: the accumulator's entry plus the row-by-column sum. -/
theorem matmul_apply {φ₁ φ₂ : FTy} (prec : Option ContractPrecision) (A : FVec Ideal ⟨2, ![M, K]⟩ φ₁)
    (B : FVec Ideal ⟨2, ![K, N]⟩ φ₂) (acc : FVec Ideal ⟨2, ![M, N]⟩ .f32) (j : (⟨2, ![M, N]⟩ : Shape).Idx) :
    matmul (DotDims.plain M K N) prec A B acc j = acc j + ∑ k : Fin K, A (ix2 (j 0) k) * B (ix2 k (j 1)) := by
  refine (Ideal.matmul_apply (DotDims.plain M K N) prec A B acc j).trans ?_
  congr 1
  rw [← Equiv.sum_comp (contrEquiv1 (DotDims.plain M K N) K contr_rank contr_size).symm]
  exact Finset.sum_congr rfl fun k _ => by rw [lhsIdx_eq, rhsIdx_eq]; rfl

/-- Into the zero accumulator: the row-by-column sum alone. -/
theorem matmul_zero_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    matmul (DotDims.plain M K N) prec A B (constant (F := Ideal) ⟨2, ![M, N]⟩ .f32 0x00000000#32) j
      = ∑ k : Fin K, A (ix2 (j 0) k) * B (ix2 k (j 1)) := by
  rw [matmul_apply]
  show Ideal.ofBits .f32 0x00000000#32 + _ = _
  rw [Ideal.ofBits_zero_f32, zero_add]

end Idealize.ShloMosaic.MatmulPlain

end
-- ==== Proof.PayQkv.lean ====
/-
  The first kernel body's arithmetic, read at one entry, on the extended reals.

  The body multiplies the row's 64-wide piece and its 128-wide piece by the two blocks of the first layer's weights,
  adds the two products, takes the positive part, multiplies by the second layer's weights, takes the positive part
  again, and multiplies by the packed projection weights. Each matrix product into a zero accumulator is, at an entry,
  the row-by-column sum; the positive part is the maximum with the constant zero; the casts of a shape to itself change
  nothing. Composed from the outside in this is exactly the packed projection's row formula of the specification.
-/
import proofs.«134647_j56599079027265_2_alg».proof.Proof.Gen.KernelIdeal.Skeleton
import proofs.«134647_j56599079027265_2_alg».proof.Proof.Spec
import proofs.«134647_j56599079027265_2_alg».proof.Proof.LibMatmulPlain
import Idealize.ShloMosaic.Lib.Pipeline.Value

noncomputable section

open scoped BigOperators

namespace Cert.Fusion.Pay

open Cert.KernelIdeal Cert.KernelIdeal.Gen Idealize.ShloMosaic Idealize.ShloMosaic.ValueIdx Cert.Fusion

/-- The [1536, 64] by [64, 16] product into zeros, at an entry: the 64-term row-by-column sum. -/
theorem mm_1536_64_16 (A : FVec Ideal S1536x64 .f32) (B : FVec Ideal S64x16 .f32) (p : Fin 1536) (l : Fin 16) :
    matmul dot_S1536x64_S64x16_S1536x16_1_0_0_1_n_n none A B (constant (F := Ideal) S1536x16 .f32 0x00000000#32) (ix2 p l)
      = ∑ a : Fin 64, A (ix2 p a) * B (ix2 a l) :=
  MatmulPlain.matmul_zero_apply none A B (ix2 p l)

/-- The [1536, 128] by [128, 16] product into zeros, at an entry: the 128-term row-by-column sum. -/
theorem mm_1536_128_16 (A : FVec Ideal S1536x128 .f32) (B : FVec Ideal S128x16 .f32) (p : Fin 1536) (l : Fin 16) :
    matmul dot_S1536x128_S128x16_S1536x16_1_0_0_1_n_n none A B (constant (F := Ideal) S1536x16 .f32 0x00000000#32) (ix2 p l)
      = ∑ b : Fin 128, A (ix2 p b) * B (ix2 b l) :=
  MatmulPlain.matmul_zero_apply none A B (ix2 p l)

/-- The [1536, 16] by [16, 16] product into zeros, at an entry: the 16-term row-by-column sum. -/
theorem mm_1536_16_16 (A : FVec Ideal S1536x16 .f32) (B : FVec Ideal S16x16 .f32) (p : Fin 1536) (k : Fin 16) :
    matmul dot_S1536x16_S16x16_S1536x16_1_0_0_1_n_n none A B (constant (F := Ideal) S1536x16 .f32 0x00000000#32) (ix2 p k)
      = ∑ l : Fin 16, A (ix2 p l) * B (ix2 l k) :=
  MatmulPlain.matmul_zero_apply none A B (ix2 p k)

/-- The [1536, 16] by [16, 128] product into zeros, at an entry: the 16-term row-by-column sum. -/
theorem mm_1536_16_128 (A : FVec Ideal S1536x16 .f32) (B : FVec Ideal S16x128 .f32) (p : Fin 1536) (q : Fin 128) :
    matmul dot_S1536x16_S16x128_S1536x128_1_0_0_1_n_n none A B (constant (F := Ideal) S1536x128 .f32 0x00000000#32) (ix2 p q)
      = ∑ k : Fin 16, A (ix2 p k) * B (ix2 k q) :=
  MatmulPlain.matmul_zero_apply none A B (ix2 p q)

/-- The maximum with the broadcast zero word, at an entry, is the positive part. -/
theorem relu_apply (X : FVec Ideal S1536x16 .f32) (j : S1536x16.Idx) :
    maximumf X (broadcast S1536x16 (Scalar.ofBits (F := Ideal) .f32 0x00000000#32)) j = relu (X j) := by
  show max (X j) (Ideal.ofBits .f32 0x00000000#32) = max (X j) 0
  rw [Ideal.ofBits_zero_f32]

/-- The first body's arithmetic at the entry (p, q) is the packed projection's row formula on row p of the two
    feature pieces. -/
theorem qkv_payload_apply (v0 : Vec Ideal S1536x64 .f32) (v1 : Vec Ideal S64x16 .f32) (v4 : Vec Ideal S1536x128 .f32)
    (v5 : Vec Ideal S128x16 .f32) (v11 : Vec Ideal S16x16 .f32) (v15 : Vec Ideal S16x128 .f32) (p : Fin 1536) (q : Fin 128) :
    k0_pay1 (F := Ideal) v0 v1 v4 v5 v11 v15 (ix2 p q)
      = qkvRow (fun a => v0 (ix2 p a)) (fun b => v4 (ix2 p b)) (fun a l => v1 (ix2 a l)) (fun b l => v5 (ix2 b l))
          (fun l k => v11 (ix2 l k)) (fun k c => v15 (ix2 k c)) q := by
  unfold k0_pay1 qkvRow
  simp only [shapeCast_self]
  refine (mm_1536_16_128 _ _ p q).trans ?_
  refine Finset.sum_congr rfl fun k _ => congrArg (fun x => x * v15 (ix2 k q)) ?_
  refine (relu_apply _ (ix2 p k)).trans (congrArg relu ?_)
  refine (mm_1536_16_16 _ _ p k).trans ?_
  refine Finset.sum_congr rfl fun l _ => congrArg (fun x => x * v11 (ix2 l k)) ?_
  refine (relu_apply _ (ix2 p l)).trans (congrArg relu ?_)
  show _ + _ = _
  exact congrArg₂ (· + ·) (mm_1536_64_16 _ _ p l) (mm_1536_128_16 _ _ p l)

end Cert.Fusion.Pay

end
-- ==== Proof.ArrQkv.lean ====
/-
  From the blocks of the first launch to its whole output array, on the extended reals.

  The grid has 8 points. Point t stages rows 1536 t … 1536 t + 1535 of the two feature arrays and the four weight
  arrays whole, and writes back rows 1536 t … 1536 t + 1535 of the output array. What it writes back is the body's
  arithmetic on the staged blocks, which at row p, column q of the block is the packed projection's row formula on row
  p of the two feature blocks; row p of a feature block is row 1536 t + p of its array and a weight block is its array,
  so the written block is block t of ONE function of the arrays: entry (r, q) is the row formula on row r of the
  feature arrays at column q. Every row r lies in the block of point r / 1536, so the 8 blocks fill the array and the
  array ends holding that function.
-/
import proofs.«134647_j56599079027265_2_alg».proof.Proof.TiledQkv
import proofs.«134647_j56599079027265_2_alg».proof.Proof.PayQkv
import proofs.«134647_j56599079027265_2_alg».proof.Proof.Spec
import Idealize.ShloMosaic.Lib.Pipeline.Value
import Idealize.ShloMosaic.Lib.ValueIdx

noncomputable section

open scoped BigOperators

namespace Cert.Fusion.ArrQkv

open Cert.KernelIdeal Cert.KernelIdeal.Gen Cert.KernelIdeal.Tiled Idealize.ShloMosaic Idealize.ShloMosaic.TcCoe Idealize.ShloMosaic.ValueIdx Cert.Fusion
open Idealize.SL.Sem
open Idealize.ShloMosaic.Pipeline (Dat)

variable (V : (c : Dev nD) → (b : Ref sig .tc) → Buf (Elt Ideal) ((c : Thread nD τ).loc b))

/-- The store's rectangle and the loads' rectangles start at the origin. -/
theorem zero_offsets : (![0, 0] : Fin 2 → Nat) = fun _ => 0 := funext fun a => by fin_cases a <;> rfl

/-- The printed index maps over the grid's 8 points: the two feature windows and the output window sit at block row t,
    block column 0; the four weight windows never move. -/
theorem block_indices : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0) :=
  (by decide +kernel : ∀ t : Fin grid0.N, _)

/-- The packed array the first launch leaves, entry by entry. -/
def packedOf (c : Dev nD) : Buf (Elt Ideal) ((cfg0.win 6).arr.view.loc (c.tc : Thread nD τ)) :=
  fun j => qkvRow (fun a => V c main_arg0 (ix2 (j 0) a)) (fun b => V c main_arg1 (ix2 (j 0) b)) (fun a l => V c main_v0 (ix2 a l))
    (fun b l => V c main_v1 (ix2 b l)) (fun l k => V c main_arg4 (ix2 l k)) (fun k q => V c main_v3 (ix2 k q)) (j 1)

/-! ## Each input block as entries of its array -/

/-- Block t of the 64-wide feature array: row p of the block is row 1536 t + p of the array. -/
theorem blk0_apply (c : Dev nD) (t : Fin cfg0.N) (p : Fin 1536) (a : Fin 64) (r : Fin 12288) (hr : r.val = t.val * 1536 + p.val) :
    blkQ V c 0 t (ix2 p a) = V c main_arg0 (ix2 r a) := by
  obtain ⟨⟨e0, e1⟩, -⟩ := block_indices t
  unfold blkQ
  show V c main_arg0 (((cfg0.win 0).blk t).view.emb (ix2 p a)) = V c main_arg0 (ix2 r a)
  refine congrArg (V c main_arg0) (funext fun ax => Fin.ext ?_)
  match ax with
  | ⟨0, _⟩ => show win0_0.index t (0 : Fin 2) * 1536 + 1 * p.val = r.val; omega
  | ⟨1, _⟩ => show win0_0.index t (1 : Fin 2) * 64 + 1 * a.val = a.val; omega

/-- Block t of the 128-wide feature array: row p of the block is row 1536 t + p of the array. -/
theorem blk1_apply (c : Dev nD) (t : Fin cfg0.N) (p : Fin 1536) (b : Fin 128) (r : Fin 12288) (hr : r.val = t.val * 1536 + p.val) :
    blkQ V c 1 t (ix2 p b) = V c main_arg1 (ix2 r b) := by
  obtain ⟨-, ⟨e0, e1⟩, -⟩ := block_indices t
  unfold blkQ
  show V c main_arg1 (((cfg0.win 1).blk t).view.emb (ix2 p b)) = V c main_arg1 (ix2 r b)
  refine congrArg (V c main_arg1) (funext fun ax => Fin.ext ?_)
  match ax with
  | ⟨0, _⟩ => show win0_1.index t (0 : Fin 2) * 1536 + 1 * p.val = r.val; omega
  | ⟨1, _⟩ => show win0_1.index t (1 : Fin 2) * 128 + 1 * b.val = b.val; omega

/-- The first block of the first layer's weights is staged whole at every point. -/
theorem blk2_apply (c : Dev nD) (t : Fin cfg0.N) (a : Fin 64) (l : Fin 16) :
    blkQ V c 2 t (ix2 a l) = V c main_v0 (ix2 a l) := by
  obtain ⟨-, -, ⟨e0, e1⟩, -⟩ := block_indices t
  unfold blkQ
  show V c main_v0 (((cfg0.win 2).blk t).view.emb (ix2 a l)) = V c main_v0 (ix2 a l)
  refine congrArg (V c main_v0) (funext fun ax => Fin.ext ?_)
  match ax with
  | ⟨0, _⟩ => show win0_2.index t (0 : Fin 2) * 64 + 1 * a.val = a.val; omega
  | ⟨1, _⟩ => show win0_2.index t (1 : Fin 2) * 16 + 1 * l.val = l.val; omega

/-- The second block of the first layer's weights is staged whole at every point. -/
theorem blk3_apply (c : Dev nD) (t : Fin cfg0.N) (b : Fin 128) (l : Fin 16) :
    blkQ V c 3 t (ix2 b l) = V c main_v1 (ix2 b l) := by
  obtain ⟨-, -, -, ⟨e0, e1⟩, -⟩ := block_indices t
  unfold blkQ
  show V c main_v1 (((cfg0.win 3).blk t).view.emb (ix2 b l)) = V c main_v1 (ix2 b l)
  refine congrArg (V c main_v1) (funext fun ax => Fin.ext ?_)
  match ax with
  | ⟨0, _⟩ => show win0_3.index t (0 : Fin 2) * 128 + 1 * b.val = b.val; omega
  | ⟨1, _⟩ => show win0_3.index t (1 : Fin 2) * 16 + 1 * l.val = l.val; omega

/-- The second layer's weights are staged whole at every point. -/
theorem blk4_apply (c : Dev nD) (t : Fin cfg0.N) (l : Fin 16) (k : Fin 16) :
    blkQ V c 4 t (ix2 l k) = V c main_arg4 (ix2 l k) := by
  obtain ⟨-, -, -, -, ⟨e0, e1⟩, -⟩ := block_indices t
  unfold blkQ
  show V c main_arg4 (((cfg0.win 4).blk t).view.emb (ix2 l k)) = V c main_arg4 (ix2 l k)
  refine congrArg (V c main_arg4) (funext fun ax => Fin.ext ?_)
  match ax with
  | ⟨0, _⟩ => show win0_4.index t (0 : Fin 2) * 16 + 1 * l.val = l.val; omega
  | ⟨1, _⟩ => show win0_4.index t (1 : Fin 2) * 16 + 1 * k.val = k.val; omega

/-- The packed projection weights are staged whole at every point. -/
theorem blk5_apply (c : Dev nD) (t : Fin cfg0.N) (k : Fin 16) (q : Fin 128) :
    blkQ V c 5 t (ix2 k q) = V c main_v3 (ix2 k q) := by
  obtain ⟨-, -, -, -, -, ⟨e0, e1⟩, -⟩ := block_indices t
  unfold blkQ
  show V c main_v3 (((cfg0.win 5).blk t).view.emb (ix2 k q)) = V c main_v3 (ix2 k q)
  refine congrArg (V c main_v3) (funext fun ax => Fin.ext ?_)
  match ax with
  | ⟨0, _⟩ => show win0_5.index t (0 : Fin 2) * 16 + 1 * k.val = k.val; omega
  | ⟨1, _⟩ => show win0_5.index t (1 : Fin 2) * 128 + 1 * q.val = q.val; omega

/-! ## What a point writes back -/

/-- The row formula depends only on its seven arguments. -/
theorem qkvRow_congr {xa xa' : Fin 64 → EReal} {xb xb' : Fin 128 → EReal} {wa wa' : Fin 64 → Fin 16 → EReal}
    {wb wb' : Fin 128 → Fin 16 → EReal} {w2 w2' : Fin 16 → Fin 16 → EReal} {wp wp' : Fin 16 → Fin 128 → EReal} {q q' : Fin 128}
    (h1 : xa = xa') (h2 : xb = xb') (h3 : wa = wa') (h4 : wb = wb') (h5 : w2 = w2') (h6 : wp = wp') (h7 : q = q') :
    qkvRow xa xb wa wb w2 wp q = qkvRow xa' xb' wa' wb' w2' wp' q' := by
  subst h1 h2 h3 h4 h5 h6 h7; rfl

/-- The row formula on the six blocks at point t, row p, column q, is the packed array's entry at row 1536 t + p,
    column q. -/
theorem packed_block (c : Dev nD) (t : Fin cfg0.N) (p : Fin 1536) (q : Fin 128) (j : S12288x128.Idx)
    (h0 : (j 0).val = t.val * 1536 + p.val) (h1 : (j 1).val = q.val) :
    qkvRow (fun a => blkQ V c 0 t (ix2 p a)) (fun b => blkQ V c 1 t (ix2 p b)) (fun a l => blkQ V c 2 t (ix2 a l))
        (fun b l => blkQ V c 3 t (ix2 b l)) (fun l k => blkQ V c 4 t (ix2 l k)) (fun k q' => blkQ V c 5 t (ix2 k q')) q
      = packedOf V c j :=
  qkvRow_congr (funext fun a => blk0_apply V c t p a (j 0) h0) (funext fun b => blk1_apply V c t p b (j 0) h0)
    (funext fun a => funext fun l => blk2_apply V c t a l) (funext fun b => funext fun l => blk3_apply V c t b l)
    (funext fun l => funext fun k => blk4_apply V c t l k) (funext fun k => funext fun q' => blk5_apply V c t k q')
    (Fin.ext h1.symm)

/-- What point t writes back is block t of the packed array. -/
theorem flushed_eq (c : Dev nD) (t : Fin cfg0.N) :
    (datQ (F := Ideal) V c).flushed 6 t = ((cfg0.win 6).blk t).view.read (Elt Ideal) (packedOf V c) := by
  show (cfg0.win 6).cut (grid0.coords t) ((datQ V c).after 6 t) = _
  rw [datQ_after6]
  unfold leftQ
  rw [View.canon_unit_zero zero_offsets]
  simp only [View.ld_unit_zero (S := S1536x64) zero_offsets, View.ld_unit_zero (S := S1536x128) zero_offsets,
    View.ld_unit_zero (S := S64x16) zero_offsets, View.ld_unit_zero (S := S128x16) zero_offsets,
    View.ld_unit_zero (S := S16x16) zero_offsets, View.ld_unit_zero (S := S16x128) zero_offsets]
  obtain ⟨-, -, -, -, -, -, e0, e1⟩ := block_indices t
  refine funext fun (y : S1536x128.Idx) => ?_
  obtain ⟨p, q, rfl⟩ : ∃ (p : Fin 1536) (q : Fin 128), y = ix2 p q := ⟨y 0, y 1, eq_ix2 y⟩
  show k0_pay1 (F := Ideal) (blkQ V c 0 t) (blkQ V c 2 t) (blkQ V c 1 t) (blkQ V c 3 t) (blkQ V c 4 t) (blkQ V c 5 t) (ix2 p q)
    = packedOf V c (((cfg0.win 6).blk t).view.emb (ix2 p q))
  refine (Pay.qkv_payload_apply _ _ _ _ _ _ p q).trans ?_
  refine packed_block V c t p q _ ?_ ?_
  · show win0_6.index t (0 : Fin 2) * 1536 + 1 * p.val = t.val * 1536 + p.val; omega
  · show win0_6.index t (1 : Fin 2) * 128 + 1 * q.val = q.val; omega

/-! ## The blocks tile the array -/

/-- An index of the array is in point t's block iff each coordinate is in the block's range on its axis. -/
theorem mem_block (t : Fin cfg0.N) (i : S12288x128.Idx) :
    i ∈ ((cfg0.win 6).blk t).view.set ↔ ∀ a : Fin 2, win0_6.index t a * S1536x128.size a ≤ (i a).val
      ∧ (i a).val < win0_6.index t a * S1536x128.size a + S1536x128.size a := by
  show i ∈ ((View.whole main_v4).slice (win0_6.rect t)).set ↔ _
  rw [View.set_slice_whole, Rect.mem_set_unit]
  exact Iff.rfl

/-- Row r of the array is in the block of point r / 1536. -/
theorem covered (i : S12288x128.Idx) :
    ∃ t : Fin cfg0.N, (cfg0.win 6).flush t = true ∧ i ∈ ((cfg0.win 6).blk t).view.set := by
  have hN : cfg0.N = 8 := N_0
  have hi0 : (i 0).val < 12288 := (i 0).isLt
  have hi1 : (i 1).val < 128 := (i 1).isLt
  have ht : (i 0).val / 1536 < cfg0.N := by rw [hN]; omega
  obtain ⟨-, -, -, -, -, -, e0, e1⟩ := block_indices ⟨(i 0).val / 1536, ht⟩
  refine ⟨⟨(i 0).val / 1536, ht⟩, flush0_6 _, ?_⟩
  rw [mem_block]
  intro a
  match a with
  | ⟨0, _⟩ =>
    show win0_6.index ⟨(i 0).val / 1536, ht⟩ (0 : Fin 2) * 1536 ≤ (i 0).val
      ∧ (i 0).val < win0_6.index ⟨(i 0).val / 1536, ht⟩ (0 : Fin 2) * 1536 + 1536
    rw [e0]; show (i 0).val / 1536 * 1536 ≤ (i 0).val ∧ (i 0).val < (i 0).val / 1536 * 1536 + 1536; omega
  | ⟨1, _⟩ =>
    show win0_6.index ⟨(i 0).val / 1536, ht⟩ (1 : Fin 2) * 128 ≤ (i 1).val
      ∧ (i 1).val < win0_6.index ⟨(i 0).val / 1536, ht⟩ (1 : Fin 2) * 128 + 128
    rw [e1]; omega

/-! ## The array -/

/-- After the first launch the output array holds the packed projection, entry by entry. -/
theorem qkv_array (c : Dev nD) : (datQ (F := Ideal) V c).arrAt 6 cfg0.N = packedOf V c :=
  (datQ V c).arrAt_eq_of_cover 6 (packedOf V c) (fun t _ => flushed_eq V c t) (fun i => covered i)

end Cert.Fusion.ArrQkv

end
-- ==== Proof.LibMatmulT.lean ====
/-
  A matrix times a transposed matrix, read at an index.

  With the dimension numbers "contract axis 1 of the left operand against axis 1 of the right operand, no batch axis",
  the product of an [M, K] matrix `A` and an [N, K] matrix `B` is `A · Bᵀ`: its entry at `(a, b)` is
  `Σ_c A[a, c] · B[b, c]`. Stated at the ideal values for a kernel's matrix unit accumulating into zeros (only the
  sum is left) and into any accumulator (the accumulator's entry plus the sum), for arbitrary extents.
-/
import Idealize.ShloMosaic.PureOps.Ideal
import Idealize.ShloMosaic.PureOps.Ideal.Laws
import Idealize.ShloMosaic.Lib.ValueIdx

noncomputable section

namespace Idealize.ShloMosaic.MatmulT

open Idealize.ShloMosaic Idealize.ShloMosaic.ValueIdx

variable {M K N : ℕ} {φ₁ φ₂ : FTy}

/-- The left operand of `A · Bᵀ` is read at `(a, c)` and the right one at `(b, c)`, for the contraction position `c`. -/
theorem idx_apply (w : DotDims.WF ⟨2, ![M, K]⟩ ⟨2, ![N, K]⟩ ⟨2, ![M, N]⟩ [1] [1] [0] [0] [] []) (a : Fin M) (b : Fin N) (c : Fin K) :
    (⟨[1], [1], [0], [0], [], [], w⟩ : DotDims ⟨2, ![M, K]⟩ ⟨2, ![N, K]⟩ ⟨2, ![M, N]⟩).lhsIdx (ix2 a b)
        ((contrEquiv1 (⟨[1], [1], [0], [0], [], [], w⟩ : DotDims ⟨2, ![M, K]⟩ ⟨2, ![N, K]⟩ ⟨2, ![M, N]⟩) K rfl rfl).symm c) = ix2 a c
    ∧ (⟨[1], [1], [0], [0], [], [], w⟩ : DotDims ⟨2, ![M, K]⟩ ⟨2, ![N, K]⟩ ⟨2, ![M, N]⟩).rhsIdx (ix2 a b)
        ((contrEquiv1 (⟨[1], [1], [0], [0], [], [], w⟩ : DotDims ⟨2, ![M, K]⟩ ⟨2, ![N, K]⟩ ⟨2, ![M, N]⟩) K rfl rfl).symm c) = ix2 b c := by
  have c2 := contrEquiv1_symm_val
    (⟨[1], [1], [0], [0], [], [], w⟩ : DotDims ⟨2, ![M, K]⟩ ⟨2, ![N, K]⟩ ⟨2, ![M, N]⟩) K rfl rfl c
  constructor
  · funext ax; apply Fin.ext
    match ax with
    | ⟨0, _⟩ => simp [DotDims.lhsIdx]; rfl
    | ⟨1, _⟩ => simp [DotDims.lhsIdx]; exact c2
  · funext ax; apply Fin.ext
    match ax with
    | ⟨0, _⟩ => simp [DotDims.rhsIdx]; rfl
    | ⟨1, _⟩ => simp [DotDims.rhsIdx]; exact c2

/-- `A · Bᵀ` accumulated into `acc`, at `(a, b)`: the accumulator's entry plus `Σ_c A[a, c] · B[b, c]`. -/
theorem matmul_apply (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂)
    (acc : FVec Ideal ⟨2, ![M, N]⟩ .f32) (a : Fin M) (b : Fin N) :
    FloatOps.matmul (⟨[1], [1], [0], [0], [], [], w⟩ : DotDims ⟨2, ![M, K]⟩ ⟨2, ![N, K]⟩ ⟨2, ![M, N]⟩) prec A B acc (ix2 a b)
      = acc (ix2 a b) + ∑ c : Fin K, A (ix2 a c) * B (ix2 b c) := by
  rw [Ideal.matmul_apply,
    ← Equiv.sum_comp (contrEquiv1 (⟨[1], [1], [0], [0], [], [], w⟩ : DotDims ⟨2, ![M, K]⟩ ⟨2, ![N, K]⟩ ⟨2, ![M, N]⟩) K rfl rfl).symm]
  refine congrArg (acc (ix2 a b) + ·) (Finset.sum_congr rfl fun c _ => ?_)
  rw [(idx_apply w a b c).1, (idx_apply w a b c).2]

/-- `A · Bᵀ` into the zero accumulator, at `(a, b)`: `Σ_c A[a, c] · B[b, c]`. -/
theorem matmul_zero_apply (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂) (a : Fin M) (b : Fin N) :
    FloatOps.matmul (⟨[1], [1], [0], [0], [], [], w⟩ : DotDims ⟨2, ![M, K]⟩ ⟨2, ![N, K]⟩ ⟨2, ![M, N]⟩) prec A B
        (constant ⟨2, ![M, N]⟩ .f32 0x00000000#32) (ix2 a b)
      = ∑ c : Fin K, A (ix2 a c) * B (ix2 b c) := by
  rw [matmul_apply]
  show Ideal.ofBits .f32 0x00000000#32 + _ = _
  rw [Ideal.ofBits_zero_f32, zero_add]

end Idealize.ShloMosaic.MatmulT

end
-- ==== Proof.LibRowReduce.lean ====
/-
  A matrix reduced along one axis, read at an index, at the ideal values.

  For an `[a, b]` matrix `src`: the reduction by `max` along the columns (axis 1) is, at row `i`, the fold of `max`
  from the accumulator's value over `src (i, k)`, `k < b`; the reduction by `+` along the columns is, at row `i`,
  `Σ_k src (i, k)`; and the reduction by `+` along the rows (axis 0) is, at column `j`, `Σ_i src (i, j)`. Arbitrary
  extents and any float format. (The library states these over the reduced shape's own index `h.lift j k`; here the
  index is spelt by its two coordinates.)
-/
import Idealize.ShloMosaic.PureOps.Ideal.Laws
import Idealize.ShloMosaic.Lib.ValueIdx

noncomputable section

namespace Idealize.ShloMosaic.RowReduce

open Idealize.ShloMosaic Idealize.ShloMosaic.ValueIdx

variable {a b : ℕ} {φ : FTy}

/-- The row maxima: at row `i`, the fold of `max` over the row's entries from the accumulator's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  refine congrArg (Finset.fold max (Ideal.ofBits φ acc) · (Finset.univ : Finset (Fin b))) (funext fun k => ?_)
  exact congrArg src (funext fun c => Fin.ext (by match c with | ⟨0, _⟩ => rfl | ⟨1, _⟩ => rfl))

/-- The row sums: at row `i`, the sum of the row's entries. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => ?_
  exact congrArg src (funext fun c => Fin.ext (by match c with | ⟨0, _⟩ => rfl | ⟨1, _⟩ => rfl))

/-- The column sums: at column `j`, the sum of the column's entries. -/
theorem colSum_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ i : Fin a, src (ix2 i j) := by
  refine (Ideal.multiReduction_add_single src acc h hφ hacc (ix1 j)).trans ?_
  refine Finset.sum_congr rfl fun i _ => ?_
  exact congrArg src (funext fun c => Fin.ext (by match c with | ⟨0, _⟩ => rfl | ⟨1, _⟩ => rfl))

end Idealize.ShloMosaic.RowReduce

end
-- ==== Proof.LibKeepdims.lean ====
/-
  The column forms a sum that keeps its reduced axis goes through, read at an index.

  A row sum that keeps the reduced axis as a unit axis (`keepdims`) leaves a vector of length `a`, casts it to the
  column `[a, 1]`, and broadcasts the column across `b` lanes to `[a, b]`. Read at an index: the column at `(i, u)` is
  the vector at `i`, and the broadcast at `(i, j)` is the column at `(i, 0)`, for arbitrary extents and any element
  type. (The leading-unit-axis casts and the row broadcast `[1, b] → [a, b]` are the library's.)
-/
import Idealize.ShloMosaic.Lib.Pipeline.Value
import Idealize.ShloMosaic.Lib.ValueIdx

namespace Idealize.ShloMosaic.Keepdims

open Idealize.ShloMosaic Idealize.ShloMosaic.ValueIdx

variable {α : Type}

/-- A vector of length `a` cast to the column `[a, 1]` reads, at `(i, u)`, the vector at `i`: the two indices have
    the same row-major position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`: the row coordinate is
    kept (also when `a = 1`, where it can only be `0`), the unit axis is read at `0`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.Keepdims
-- ==== Proof.PayAttn.lean ====
/-
  The second kernel body's arithmetic, read at one entry, on the extended reals.

  The body cuts the query out of columns 0..7 of its 256-row block, the key and the value out of columns 8..15 and
  16..79 of the whole packed array, forms the scores query · keyᵀ times one fixed scale, subtracts each row's maximum,
  exponentiates, divides by the row's sum, and multiplies the weights by the values. Read at an entry: a cut is the
  source at the shifted column; a product is a row-by-column (or row-by-row) sum; a row maximum or row sum kept as a
  column and spread across the lanes is, at every lane, that row's maximum or sum; the two changes of format are the
  identity on the extended reals. Composed from the outside in this is the attention row formula of the specification.
-/
import proofs.«134647_j56599079027265_2_alg».proof.Proof.Gen.KernelIdeal.Skeleton
import proofs.«134647_j56599079027265_2_alg».proof.Proof.Spec
import proofs.«134647_j56599079027265_2_alg».proof.Proof.LibMatmulPlain
import proofs.«134647_j56599079027265_2_alg».proof.Proof.LibMatmulT
import proofs.«134647_j56599079027265_2_alg».proof.Proof.LibRowReduce
import proofs.«134647_j56599079027265_2_alg».proof.Proof.LibKeepdims
import Idealize.ShloMosaic.Lib.Pipeline.Value
import Idealize.ShloMosaic.Lib.ValueLayout

noncomputable section

open scoped BigOperators

namespace Cert.Fusion.Pay

open Cert.KernelIdeal Cert.KernelIdeal.Gen Idealize.ShloMosaic Idealize.ShloMosaic.ValueIdx Cert.Fusion

/-! ## The three cuts of the packed array -/

/-- The query: columns 0..7, so column a of the cut is column a of the source. -/
theorem sliceQ_apply (X : FVec Ideal S256x128 .f32) (h : S256x128.Slices ![0, 0] S256x8) (p : Fin 256) (a : Fin 8) :
    extractStridedSlice S256x8 ![0, 0] X h (ix2 p a) = X (ix2 p (colQ a)) :=
  slice2_axis1_apply 0 X h p a (colQ a) (Nat.zero_add _).symm

/-- The key: columns 8..15, so column a of the cut is column 8 + a of the source. -/
theorem sliceK_apply (X : FVec Ideal S12288x128 .f32) (h : S12288x128.Slices ![0, 8] S12288x8) (j : Fin 12288) (a : Fin 8) :
    extractStridedSlice S12288x8 ![0, 8] X h (ix2 j a) = X (ix2 j (colK a)) :=
  slice2_axis1_apply 8 X h j a (colK a) rfl

/-- The value: columns 16..79, so column d of the cut is column 16 + d of the source. -/
theorem sliceV_apply (X : FVec Ideal S12288x128 .f32) (h : S12288x128.Slices ![0, 16] S12288x64) (j : Fin 12288) (d : Fin 64) :
    extractStridedSlice S12288x64 ![0, 16] X h (ix2 j d) = X (ix2 j (colV d)) :=
  slice2_axis1_apply 16 X h j d (colV d) rfl

/-! ## The two products -/

/-- Query times transposed key into zeros, at (p, j): the 8-term sum over the shared feature axis. -/
theorem mmT_256_8_12288 (A : FVec Ideal S256x8 .f32) (B : FVec Ideal S12288x8 .f32) (p : Fin 256) (j : Fin 12288) :
    matmul dot_S256x8_S12288x8_S256x12288_1_1_0_0_n_n (some .fp32) A B (constant (F := Ideal) S256x12288 .f32 0x00000000#32) (ix2 p j)
      = ∑ a : Fin 8, A (ix2 p a) * B (ix2 j a) :=
  MatmulT.matmul_zero_apply _ (some .fp32) A B p j

/-- Weights times values into zeros, at (p, d): the 12288-term row-by-column sum. -/
theorem mm_256_12288_64 (A : FVec Ideal S256x12288 .bf16) (B : FVec Ideal S12288x64 .bf16) (p : Fin 256) (d : Fin 64) :
    matmul dot_S256x12288_S12288x64_S256x64_1_0_0_1_n_n none A B (constant (F := Ideal) S256x64 .f32 0x00000000#32) (ix2 p d)
      = ∑ j : Fin 12288, A (ix2 p j) * B (ix2 j d) :=
  MatmulPlain.matmul_zero_apply none A B (ix2 p d)

/-! ## The row maximum and the row sum, kept as a column and spread across the lanes -/

/-- At every lane of row p: the maximum over row p, started from the word of minus infinity. -/
theorem rowMax_keep_apply (X : FVec Ideal S256x12288 .f32) (hr : S256x12288.Reduces [1] S256) (hφ : FKind.Formats FTy.f32)
    (hacc : (0xFF800000#32 : BitVec FTy.f32.bits) = FKind.maximumf.neutral .f32 hφ)
    (hc : S256.ShapeCasts S256x1) (hb : S256x1.Broadcasts S256x12288) (p : Fin 256) (j : Fin 12288) :
    broadcastTo S256x12288 (shapeCast S256x1 (multiReduction .maximumf [1] S256 X 0xFF800000#32 hr hφ hacc) hc) hb (ix2 p j)
      = (Finset.univ : Finset (Fin 12288)).fold max maxSeed (fun k => X (ix2 p k)) := by
  refine (Keepdims.broadcastTo_a1_ab_apply _ hb p j).trans ?_
  refine (Keepdims.shapeCast_a_a1_apply _ hc p 0).trans ?_
  exact RowReduce.rowMax_apply X _ hr hφ hacc p

/-- At every lane of row p: the sum over row p. -/
theorem rowSum_keep_apply (X : FVec Ideal S256x12288 .f32) (hr : S256x12288.Reduces [1] S256) (hφ : FKind.Formats FTy.f32)
    (hacc : (0x00000000#32 : BitVec FTy.f32.bits) = FKind.add.neutral .f32 hφ)
    (hc : S256.ShapeCasts S256x1) (hb : S256x1.Broadcasts S256x12288) (p : Fin 256) (j : Fin 12288) :
    broadcastTo S256x12288 (shapeCast S256x1 (multiReduction .add [1] S256 X 0x00000000#32 hr hφ hacc) hc) hb (ix2 p j)
      = ∑ k : Fin 12288, X (ix2 p k) := by
  refine (Keepdims.broadcastTo_a1_ab_apply _ hb p j).trans ?_
  refine (Keepdims.shapeCast_a_a1_apply _ hc p 0).trans ?_
  exact RowReduce.rowSum_apply X _ hr hφ hacc p

/-! ## The scores and their softmax -/

/-- The scaled scores at (p, j): the query-key inner product of rows p and j, times the scale. -/
theorem scores_apply (v0 : FVec Ideal S256x128 .f32) (v2 : FVec Ideal S12288x128 .f32)
    (hq : S256x128.Slices ![0, 0] S256x8) (hk : S12288x128.Slices ![0, 8] S12288x8) (p : Fin 256) (j : Fin 12288) :
    mulf (matmul dot_S256x8_S12288x8_S256x12288_1_1_0_0_n_n (some .fp32) (extractStridedSlice S256x8 ![0, 0] v0 hq)
          (extractStridedSlice S12288x8 ![0, 8] v2 hk) (constant (F := Ideal) S256x12288 .f32 0x00000000#32))
        (broadcast S256x12288 (Scalar.ofBits (F := Ideal) .f32 0x3EB504F3#32)) (ix2 p j)
      = (∑ a : Fin 8, v0 (ix2 p (colQ a)) * v2 (ix2 j (colK a))) * scale := by
  show _ * Ideal.ofBits .f32 0x3EB504F3#32 = _ * scale
  refine congrArg (fun x => x * scale) ?_
  refine (mmT_256_8_12288 _ _ p j).trans ?_
  exact Finset.sum_congr rfl fun a _ => congrArg₂ (fun x y => x * y) (sliceQ_apply v0 hq p a) (sliceK_apply v2 hk j a)

/-- The softmax of a score matrix whose row p is f, at (p, j): the exponential of the entry less the row maximum,
    over the row's sum of such exponentials. -/
theorem softmax_apply (X : FVec Ideal S256x12288 .f32) (f : Fin 12288 → EReal) (p : Fin 256) (hf : ∀ k, X (ix2 p k) = f k)
    (hr : S256x12288.Reduces [1] S256) (hφ : FKind.Formats FTy.f32)
    (hmax : (0xFF800000#32 : BitVec FTy.f32.bits) = FKind.maximumf.neutral .f32 hφ)
    (hadd : (0x00000000#32 : BitVec FTy.f32.bits) = FKind.add.neutral .f32 hφ)
    (hc : S256.ShapeCasts S256x1) (hb : S256x1.Broadcasts S256x12288) (j : Fin 12288) :
    divf (exp (subf X (broadcastTo S256x12288 (shapeCast S256x1 (multiReduction .maximumf [1] S256 X 0xFF800000#32 hr hφ hmax) hc) hb)))
        (broadcastTo S256x12288 (shapeCast S256x1 (multiReduction .add [1] S256
          (exp (subf X (broadcastTo S256x12288 (shapeCast S256x1 (multiReduction .maximumf [1] S256 X 0xFF800000#32 hr hφ hmax) hc) hb)))
          0x00000000#32 hr hφ hadd) hc) hb) (ix2 p j)
      = Ideal.div (Ideal.exp (f j - (Finset.univ : Finset (Fin 12288)).fold max maxSeed f))
          (∑ k : Fin 12288, Ideal.exp (f k - (Finset.univ : Finset (Fin 12288)).fold max maxSeed f)) := by
  obtain rfl : (fun k => X (ix2 p k)) = f := funext hf
  have hE : ∀ k : Fin 12288,
      exp (subf X (broadcastTo S256x12288 (shapeCast S256x1 (multiReduction .maximumf [1] S256 X 0xFF800000#32 hr hφ hmax) hc) hb)) (ix2 p k)
        = Ideal.exp (X (ix2 p k) - (Finset.univ : Finset (Fin 12288)).fold max maxSeed (fun k' => X (ix2 p k'))) := fun k =>
    congrArg (fun m => Ideal.exp (X (ix2 p k) - m)) (rowMax_keep_apply X hr hφ hmax hc hb p k)
  show Ideal.div _ _ = _
  refine congrArg₂ Ideal.div (hE j) ?_
  refine (rowSum_keep_apply _ hr hφ hadd hc hb p j).trans ?_
  exact Finset.sum_congr rfl fun k _ => hE k

/-! ## The body -/

/-- The second body's arithmetic at the entry (p, d) is the attention row formula: row p's query against every row's
    key and value. -/
theorem attn_payload_apply (v0 : Vec Ideal S256x128 .f32) (v2 : Vec Ideal S12288x128 .f32) (p : Fin 256) (d : Fin 64) :
    k1_pay1 (F := Ideal) v0 v2 (ix2 p d)
      = attnRow (fun a => v0 (ix2 p (colQ a))) (fun j a => v2 (ix2 j (colK a))) (fun j d' => v2 (ix2 j (colV d'))) d := by
  unfold k1_pay1 attnRow
  simp only [shapeCast_self]
  refine (mm_256_12288_64 _ _ p d).trans ?_
  refine Finset.sum_congr rfl fun j _ => ?_
  have hV := sliceV_apply v2 slices_S12288x128_o0_16_S12288x64 j d
  have hS := softmax_apply _ (fun k => (∑ a : Fin 8, v0 (ix2 p (colQ a)) * v2 (ix2 k (colK a))) * scale) p
    (fun k => scores_apply v0 v2 slices_S256x128_o0_0_S256x8 slices_S12288x128_o0_8_S12288x8 p k)
    reduces_S256x12288_S256 (.inl rfl) rfl rfl shapeCasts_S256_S256x1 broadcasts_S256x1_S256x12288 j
  exact congrArg₂ (fun (x y : EReal) => x * y) hS hV

end Cert.Fusion.Pay

end
-- ==== Proof.ArrAttn.lean ====
/-
  The array the second launch leaves, entry by entry.

  The 12288 output rows are produced 256 at a time: grid point t works on rows 256 t … 256 t + 255. Its first input
  block is those rows of the packed array, its second input block is the whole packed array, and what it writes back
  is the attention formula of its 256 query rows against all 12288 key and value rows. Every one of these blocks is a
  restriction of ONE function of the packed array — row r of the result depends on row r's query columns and on all
  rows' key and value columns — and the 48 blocks tile the 12288 rows, so the array ends holding that function.
-/
import proofs.«134647_j56599079027265_2_alg».proof.Proof.TiledAttn
import proofs.«134647_j56599079027265_2_alg».proof.Proof.PayAttn
import proofs.«134647_j56599079027265_2_alg».proof.Proof.Spec
import Idealize.ShloMosaic.Lib.Pipeline.Value
import Idealize.ShloMosaic.Lib.ValueIdx

noncomputable section

open scoped BigOperators

namespace Cert.Fusion.ArrAttn

open Cert.KernelIdeal Cert.KernelIdeal.Gen Cert.KernelIdeal.Tiled Idealize.ShloMosaic Idealize.ShloMosaic.TcCoe
  Idealize.ShloMosaic.ValueIdx Cert.Fusion
open Idealize.ShloMosaic.Pipeline (Dat)

variable (V : (c : Dev nD) → (b : Ref sig .tc) → Buf (Elt Ideal) ((c : Thread nD τ).loc b))

/-- The whole-block rectangles start at the origin. -/
theorem zeroOff : (![0, 0] : Fin 2 → Nat) = fun _ => 0 := funext fun a => by fin_cases a <;> rfl

/-- Where the three windows' blocks sit at grid point t: the query block and the output block at block row t, block
    column 0; the key-and-value block at the origin, whatever t is. -/
theorem blockIndex : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The array the second launch leaves, entry by entry: row r's query against every row's key and value. -/
def attendedOf (c : Dev nD) : Buf (Elt Ideal) ((cfg1.win 2).arr.view.loc (c.tc : Thread nD τ)) :=
  fun j => attnRow (fun a => V c main_v4 (ix2 (j 0) (colQ a))) (fun r a => V c main_v4 (ix2 r (colK a)))
    (fun r d' => V c main_v4 (ix2 r (colV d'))) (j 1)

/-- One entry of one block's result, for ANY two input blocks that agree with a packed array P where they are read:
    the first block's row p with P's row r, the second block with all of P. It is the attention formula of P's row r. -/
theorem point_apply (P : S12288x128.Idx → EReal) (x0 : Vec Ideal S256x128 .f32) (x1 : Vec Ideal S12288x128 .f32)
    (r : Fin 12288) (p : Fin 256) (d : Fin 64)
    (h0 : ∀ q : Fin 128, x0 (ix2 p q) = P (ix2 r q)) (h1 : ∀ (j : Fin 12288) (q : Fin 128), x1 (ix2 j q) = P (ix2 j q)) :
    k1_pay1 (F := Ideal) x0 x1 (ix2 p d)
      = attnRow (fun a => P (ix2 r (colQ a))) (fun j a => P (ix2 j (colK a))) (fun j d' => P (ix2 j (colV d'))) d := by
  rw [Pay.attn_payload_apply]
  simp only [h0, h1]

/-- The query block at point t: its row p is row 256 t + p of the packed array. -/
theorem queryBlock_apply (c : Dev nD) (t : Fin cfg1.N) (p : Fin 256) (q : Fin 128) (r : Fin 12288)
    (hr : r.val = 256 * t.val + p.val) :
    (blkA V c 0 t : Vec Ideal S256x128 .f32) (ix2 p q) = (V c main_v4 : S12288x128.Idx → EReal) (ix2 r q) := by
  obtain ⟨e0, e1, -⟩ := blockIndex t
  unfold blkA
  rw [View.read_apply]
  show V c main_v4 (((cfg1.win 0).blk t).view.emb (ix2 p q)) = V c main_v4 (ix2 r q)
  refine congrArg (V c main_v4) ?_
  funext a
  apply Fin.ext
  match a with
  | ⟨0, _⟩ => show win1_0.index t (0 : Fin 2) * 256 + 1 * p.val = r.val; rw [e0, hr]; omega
  | ⟨1, _⟩ => show win1_0.index t (1 : Fin 2) * 128 + 1 * q.val = q.val; rw [e1]; omega

/-- The key-and-value block at any point is the whole packed array. -/
theorem wholeBlock_apply (c : Dev nD) (t : Fin cfg1.N) (j : Fin 12288) (q : Fin 128) :
    (blkA V c 1 t : Vec Ideal S12288x128 .f32) (ix2 j q) = (V c main_v4 : S12288x128.Idx → EReal) (ix2 j q) := by
  obtain ⟨-, -, e0, e1, -⟩ := blockIndex t
  unfold blkA
  rw [View.read_apply]
  show V c main_v4 (((cfg1.win 1).blk t).view.emb (ix2 j q)) = V c main_v4 (ix2 j q)
  refine congrArg (V c main_v4) ?_
  funext a
  apply Fin.ext
  match a with
  | ⟨0, _⟩ => show win1_1.index t (0 : Fin 2) * 12288 + 1 * j.val = j.val; rw [e0]; omega
  | ⟨1, _⟩ => show win1_1.index t (1 : Fin 2) * 128 + 1 * q.val = q.val; rw [e1]; omega

/-- Entry (p, d) of the output block at point t is entry (256 t + p, d) of the output array. -/
theorem outBlock_emb (t : Fin cfg1.N) (p : Fin 256) (d : Fin 64) (r : Fin 12288) (hr : r.val = 256 * t.val + p.val) :
    ((cfg1.win 2).blk t).view.emb (ix2 p d) = (ix2 r d : S12288x64.Idx) := by
  obtain ⟨-, -, -, -, e0, e1⟩ := blockIndex t
  funext a
  apply Fin.ext
  match a with
  | ⟨0, _⟩ => show win1_2.index t (0 : Fin 2) * 256 + 1 * p.val = r.val; rw [e0, hr]; omega
  | ⟨1, _⟩ => show win1_2.index t (1 : Fin 2) * 64 + 1 * d.val = d.val; rw [e1]; omega

/-- What point t writes back is block t of `attendedOf`: rows 256 t … 256 t + 255 of the attention of the packed
    array as the launch finds it. -/
theorem flushed_eq (c : Dev nD) (t : Fin cfg1.N) :
    (datA (F := Ideal) V c).flushed 2 t = ((cfg1.win 2).blk t).view.read (Elt Ideal) (attendedOf V c) := by
  show (cfg1.win 2).cut (grid1.coords t) ((datA V c).after 2 t) = _
  rw [datA_after2]
  unfold leftA
  rw [View.canon_unit_zero zeroOff]
  simp only [View.ld_unit_zero (S := S256x128) zeroOff, View.ld_unit_zero (S := S12288x128) zeroOff]
  funext y
  obtain ⟨p, d, rfl⟩ : ∃ (p : Fin 256) (d : Fin 64), y = ix2 p d := ⟨y 0, y 1, eq_ix2 y⟩
  have hN : cfg1.N = 48 := N_1
  have ht : t.val < 48 := hN ▸ t.isLt
  have hr : 256 * t.val + p.val < 12288 := by have := p.isLt; omega
  rw [View.read_apply, outBlock_emb t p d ⟨256 * t.val + p.val, hr⟩ rfl]
  refine (point_apply (V c main_v4) _ _ ⟨256 * t.val + p.val, hr⟩ p d
    (fun q => queryBlock_apply V c t p q _ rfl) (fun j q => wholeBlock_apply V c t j q)).trans ?_
  rfl

/-- An entry of the output array lies in point t's block iff each coordinate lies in the block's range on its axis. -/
theorem mem_outBlock (t : Fin cfg1.N) (i : S12288x64.Idx) :
    i ∈ ((cfg1.win 2).blk t).view.set ↔ ∀ a : Fin 2, win1_2.index t a * S256x64.size a ≤ (i a).val
      ∧ (i a).val < win1_2.index t a * S256x64.size a + S256x64.size a := by
  show i ∈ ((View.whole main_v5).slice (win1_2.rect t)).set ↔ _
  rw [View.set_slice_whole, Rect.mem_set_unit]
  exact Iff.rfl

/-- The 48 output blocks tile the array: entry (r, d) lies in the block of point r / 256, which writes back. -/
theorem covered (i : S12288x64.Idx) :
    ∃ t : Fin cfg1.N, (cfg1.win 2).flush t = true ∧ i ∈ ((cfg1.win 2).blk t).view.set := by
  have hN : cfg1.N = 48 := N_1
  have hi0 : (i 0).val < 12288 := (i 0).isLt
  have hi1 : (i 1).val < 64 := (i 1).isLt
  let t : Fin cfg1.N := ⟨(i 0).val / 256, by rw [hN]; omega⟩
  obtain ⟨-, -, -, -, e0, e1⟩ := blockIndex t
  have e0' : win1_2.index t (0 : Fin 2) = (i 0).val / 256 := e0
  refine ⟨t, flush1_2 t, ?_⟩
  rw [mem_outBlock]
  intro a
  match a with
  | ⟨0, _⟩ =>
    show win1_2.index t (0 : Fin 2) * 256 ≤ (i 0).val ∧ (i 0).val < win1_2.index t (0 : Fin 2) * 256 + 256
    rw [e0']; omega
  | ⟨1, _⟩ =>
    show win1_2.index t (1 : Fin 2) * 64 ≤ (i 1).val ∧ (i 1).val < win1_2.index t (1 : Fin 2) * 64 + 64
    rw [e1]; omega

/-- The output array after the second launch is `attendedOf` of the packed array as the launch finds it. -/
theorem attn_array (c : Dev nD) : (datA (F := Ideal) V c).arrAt 2 cfg1.N = attendedOf V c :=
  (datA V c).arrAt_eq_of_cover 2 (attendedOf V c) (fun t _ => flushed_eq V c t) covered

/-- The same entry as the specification spells it: the attention over the packed array's rows. -/
theorem attendedOf_eq_attnAll (c : Dev nD) (r : Fin 12288) (d : Fin 64) :
    attendedOf V c (ix2 r d) = attnAll (fun r' q => V c main_v4 (ix2 r' q)) r d := rfl

end Cert.Fusion.ArrAttn

end
-- ==== Proof.HostPrep.lean ====
/-
  The three small arrays the tiled program forms before its first tile computation, each read at one entry: the
  two row blocks of the first layer's weight matrix, and the packed projection weights (query, key and value weights
  side by side, widened with zero columns to 128).
-/
import proofs.«134647_j56599079027265_2_alg».proof.KernelIdeal
import proofs.«134647_j56599079027265_2_alg».proof.Proof.Spec
import Idealize.ShloMosaic.Lib.Pipeline.Value
import Idealize.ShloMosaic.Lib.KernelVsHost

noncomputable section

namespace Cert.Fusion.HostPrep

open Cert.KernelIdeal Idealize.ShloMosaic Idealize.ShloMosaic.ValueIdx Cert.Fusion

/-- The integer word 0, converted to a real, is the real 0. -/
theorem zero_word : sitofp (F := Ideal) .f32 (constantI S_ 32 0#32) = fun _ => (0 : EReal) := by
  funext i
  show (((0#32 : BitVec 32).toInt : ℝ) : EReal) = 0
  simp

variable [Cert.KernelIdeal.Facts]
open Cert.KernelIdeal.Facts₀ Cert.KernelIdeal.Facts

/-- Rows 0..63 of the 192-row matrix: entry `(a, l)` of the block is entry `(a, l)` of the matrix. -/
theorem sliceA_apply (w : FVec Ideal S192x16 .f32) (a : Fin 64) (l : Fin 16) :
    extractStridedSlice S64x16 ![0, 0] w slices_S192x16_S64x16_0_0 (ix2 a l) = w (ix2 (rowA a) l) :=
  extractStridedSlice_apply ![0, 0] w slices_S192x16_S64x16_0_0 (ix2 a l) (ix2 (rowA a) l)
    (fun ax => by
      match ax with
      | ⟨0, _⟩ => show a.val = 0 + a.val; omega
      | ⟨1, _⟩ => show l.val = 0 + l.val; omega)

/-- Rows 64..191 of the 192-row matrix: entry `(b, l)` of the block is entry `(64 + b, l)` of the matrix. -/
theorem sliceB_apply (w : FVec Ideal S192x16 .f32) (b : Fin 128) (l : Fin 16) :
    extractStridedSlice S128x16 ![64, 0] w slices_S192x16_S128x16_64_0 (ix2 b l) = w (ix2 (rowB b) l) :=
  extractStridedSlice_apply ![64, 0] w slices_S192x16_S128x16_64_0 (ix2 b l) (ix2 (rowB b) l)
    (fun ax => by
      match ax with
      | ⟨0, _⟩ => show 64 + b.val = 64 + b.val; rfl
      | ⟨1, _⟩ => show l.val = 0 + l.val; omega)

/-- The packed weights read at `(k, c)`: a column below 80 lies inside the joined matrix, and the joined matrix
    reads the query's, the key's or the value's weights according to which of the three column ranges holds `c`;
    a column from 80 on is padding, which is the converted zero. -/
theorem packed_apply (wq wk : FVec Ideal S16x8 .f32) (wv : FVec Ideal S16x64 .f32) (k : Fin 16) (c : Fin 128) :
    pad S16x128 ![0, 0] ![0, 48] ![0, 0]
        (concatenate S16x80 1 [⟨S16x8, wq⟩, ⟨S16x8, wk⟩, ⟨S16x64, wv⟩] concatenates_S16x8_S16x8_S16x64_S16x80_d1)
        (sitofp (F := Ideal) .f32 (constantI S_ 32 0#32)) pads_S16x80_S16x128_000_0480 h_S_ (ix2 k c)
      = packW wq wk wv k c := by
  unfold packW
  by_cases h80 : c.val < 80
  · -- inside the joined matrix: the pad reads it at the same entry
    refine (pad_apply_of_inside ![0, 0] ![0, 48] ![0, 0] _ _ pads_S16x80_S16x128_000_0480 h_S_ (ix2 k c)
      (ix2 k (⟨c.val, h80⟩ : Fin 80)) (fun ax => by
        match ax with
        | ⟨0, _⟩ => show k.val = 0 + k.val * (0 + 1); omega
        | ⟨1, _⟩ => show c.val = 0 + c.val * (0 + 1); omega)).trans ?_
    by_cases h8 : c.val < 8
    · rw [dif_pos h8]
      exact concatenate_apply_piece 1 [⟨S16x8, wq⟩, ⟨S16x8, wk⟩, ⟨S16x64, wv⟩]
        concatenates_S16x8_S16x8_S16x64_S16x80_d1 (ix2 k (⟨c.val, h80⟩ : Fin 80))
        0 (by show (0 : ℕ) < 3; omega) S16x8 wq rfl rfl 0 rfl (ix2 k (⟨c.val, h8⟩ : Fin 8))
        (fun ax hax => by
          match ax with
          | ⟨0, _⟩ => rfl
          | ⟨1, _⟩ => exact absurd rfl hax)
        (by show 0 + c.val = c.val; omega)
    · rw [dif_neg h8]
      by_cases h16 : c.val < 16
      · rw [dif_pos h16]
        exact concatenate_apply_piece 1 [⟨S16x8, wq⟩, ⟨S16x8, wk⟩, ⟨S16x64, wv⟩]
          concatenates_S16x8_S16x8_S16x64_S16x80_d1 (ix2 k (⟨c.val, h80⟩ : Fin 80))
          1 (by show (1 : ℕ) < 3; omega) S16x8 wk rfl rfl 8 rfl (ix2 k (⟨c.val - 8, by omega⟩ : Fin 8))
          (fun ax hax => by
            match ax with
            | ⟨0, _⟩ => rfl
            | ⟨1, _⟩ => exact absurd rfl hax)
          (by show 8 + (c.val - 8) = c.val; omega)
      · rw [dif_neg h16, dif_pos h80]
        exact concatenate_apply_piece 1 [⟨S16x8, wq⟩, ⟨S16x8, wk⟩, ⟨S16x64, wv⟩]
          concatenates_S16x8_S16x8_S16x64_S16x80_d1 (ix2 k (⟨c.val, h80⟩ : Fin 80))
          2 (by show (2 : ℕ) < 3; omega) S16x64 wv rfl rfl 16 rfl (ix2 k (⟨c.val - 16, by omega⟩ : Fin 64))
          (fun ax hax => by
            match ax with
            | ⟨0, _⟩ => rfl
            | ⟨1, _⟩ => exact absurd rfl hax)
          (by show 16 + (c.val - 16) = c.val; omega)
  · -- a padding column: the pad reads its padding value, the converted zero
    rw [dif_neg (by omega : ¬c.val < 8), dif_neg (by omega : ¬c.val < 16), dif_neg h80]
    have hout : ¬((0 : ℕ) ≤ c.val ∧ (c.val - 0) % (0 + 1) = 0 ∧ (c.val - 0) / (0 + 1) < 80) := fun hin =>
      h80 (by have h3 := hin.2.2; simpa using h3)
    refine (pad_apply_of_not_inside (s := S16x80) (t := S16x128) ![0, 0] ![0, 48] ![0, 0] _ _ pads_S16x80_S16x128_000_0480 h_S_ (ix2 k c) 1
      hout).trans ?_
    exact congrFun zero_word _

end Cert.Fusion.HostPrep

end
-- ==== Proof.HostVals.lean ====
/-
  What the small arrays hold when the first tile computation starts.

  Before its first tile computation the tiled program cuts the first layer's 192-row weight matrix into its first 64
  rows and its last 128 rows, joins the query's, the key's and the value's weight matrices side by side and widens the
  result with zero columns to 128 columns. Nothing else is written: the two feature arrays and the second layer's
  weights are still the arrays the program was started with. Entry by entry, the three new arrays are the two row
  blocks and the packed weights of the specification.
-/
import proofs.«134647_j56599079027265_2_alg».proof.Proof.Gen.KernelIdeal.Regions
import proofs.«134647_j56599079027265_2_alg».proof.Proof.HostPrep
import proofs.«134647_j56599079027265_2_alg».proof.Proof.Spec
import Idealize.ShloMosaic.Lib.StableHlo.Run

noncomputable section

namespace Cert.Fusion.HostVals

open Cert.KernelIdeal Cert.KernelIdeal.Gen Idealize.ShloMosaic Idealize.ShloMosaic.TcCoe Idealize.ShloMosaic.ValueIdx
  Idealize.ShloMosaic.StableHlo Idealize.SL.Sem Cert.Fusion

variable (m : (ℓ : Loc nD τ sig) → Buf (Elt Ideal) ℓ) (c : Dev nD)

/-- The first feature array is as the program was started with. -/
theorem entry_arg0 : V2 (F := Ideal) m c main_arg0 = m ((c : Thread nD τ).loc main_arg0) :=
  (V2_of m c main_arg0 (by decide)).trans <| (V1_of m c main_arg0 (by decide)).trans rfl

/-- The second feature array is as the program was started with. -/
theorem entry_arg1 : V2 (F := Ideal) m c main_arg1 = m ((c : Thread nD τ).loc main_arg1) :=
  (V2_of m c main_arg1 (by decide)).trans <| (V1_of m c main_arg1 (by decide)).trans rfl

/-- The second layer's weights are as the program was started with. -/
theorem entry_arg4 : V2 (F := Ideal) m c main_arg4 = m ((c : Thread nD τ).loc main_arg4) :=
  (V2_of m c main_arg4 (by decide)).trans <| (V1_of m c main_arg4 (by decide)).trans rfl

/-- The first row block of the first layer's weights: entry `(a, l)` is the matrix's entry at row `a`. -/
theorem entry_v0 (a : Fin 64) (l : Fin 16) :
    V2 (F := Ideal) m c main_v0 (ix2 a l) = m ((c : Thread nD τ).loc main_arg3) (ix2 (rowA a) l) := by
  have e : (V2 (F := Ideal) m c main_v0 : S64x16.Idx → EReal)
      = extractStridedSlice S64x16 ![0, 0] (m ((c : Thread nD τ).loc main_arg3)) slices_S192x16_S64x16_0_0 := by
    dsimp only [V2, V1, V0, hostOps0, hostOps0_1]
    after_results
  rw [e]
  exact HostPrep.sliceA_apply _ a l

/-- The second row block of the first layer's weights: entry `(b, l)` is the matrix's entry at row `64 + b`. -/
theorem entry_v1 (b : Fin 128) (l : Fin 16) :
    V2 (F := Ideal) m c main_v1 (ix2 b l) = m ((c : Thread nD τ).loc main_arg3) (ix2 (rowB b) l) := by
  have e : (V2 (F := Ideal) m c main_v1 : S128x16.Idx → EReal)
      = extractStridedSlice S128x16 ![64, 0] (m ((c : Thread nD τ).loc main_arg3)) slices_S192x16_S128x16_64_0 := by
    dsimp only [V2, V1, V0, hostOps0, hostOps0_1]
    after_results
  rw [e]
  exact HostPrep.sliceB_apply _ b l

/-- The widened joined weights are the packed weights of the specification. -/
theorem entry_v3 (k : Fin 16) (q : Fin 128) :
    V2 (F := Ideal) m c main_v3 (ix2 k q)
      = packW (m ((c : Thread nD τ).loc main_arg5)) (m ((c : Thread nD τ).loc main_arg6)) (m ((c : Thread nD τ).loc main_arg7)) k q := by
  have e : (V2 (F := Ideal) m c main_v3 : S16x128.Idx → EReal)
      = pad S16x128 ![0, 0] ![0, 48] ![0, 0]
          (concatenate S16x80 1 [⟨S16x8, m ((c : Thread nD τ).loc main_arg5)⟩, ⟨S16x8, m ((c : Thread nD τ).loc main_arg6)⟩,
            ⟨S16x64, m ((c : Thread nD τ).loc main_arg7)⟩] concatenates_S16x8_S16x8_S16x64_S16x80_d1)
          (sitofp (F := Ideal) .f32 (constantI S_ 32 0#32)) pads_S16x80_S16x128_000_0480 h_S_ := by
    dsimp only [V2, V1, V0, hostOps0, hostOps0_1]
    after_results
    rfl
  rw [e]
  exact HostPrep.packed_apply _ _ _ k q

end Cert.Fusion.HostVals

end
-- ==== Proof.Bridge.lean ====
/-
  The tiled program's result is the specification.

  The second launch leaves, in the output array, each row's attention over the packed array it was entered with; that
  packed array is what the first launch left: each row's packed projection of the two feature arrays and of the four
  small arrays the host lines prepared; and those four are the two row blocks of the first layer's weights, the second
  layer's weights, and the three projection weights side by side followed by zero columns. Composed: the output array
  is the specification's function of the seven argument arrays.
-/
import proofs.«134647_j56599079027265_2_alg».proof.Proof.TiledRun
import proofs.«134647_j56599079027265_2_alg».proof.Proof.ArrQkv
import proofs.«134647_j56599079027265_2_alg».proof.Proof.ArrAttn
import proofs.«134647_j56599079027265_2_alg».proof.Proof.HostVals
import proofs.«134647_j56599079027265_2_alg».proof.Proof.Spec

noncomputable section

namespace Cert.Fusion.Bridge

open Cert.KernelIdeal Cert.KernelIdeal.Gen Cert.KernelIdeal.Tiled
open Idealize.ShloMosaic Idealize.ShloMosaic.TcCoe Idealize.ShloMosaic.ValueIdx Idealize.SL.Sem Cert.Fusion

variable (m : (ℓ : Loc nD τ sig) → Buf (Elt Ideal) ℓ) (c : Dev nD)

/-- The packed array the second launch is entered with, entry by entry: the specification's packed projection of the
    argument arrays. -/
theorem packed_entry (r : Fin 12288) (q : Fin 128) :
    entryA (F := Ideal) m c main_v4 (ix2 r q)
      = qkvAll (m ((c : Thread nD τ).loc main_arg0)) (m ((c : Thread nD τ).loc main_arg1)) (m ((c : Thread nD τ).loc main_arg3))
          (m ((c : Thread nD τ).loc main_arg4)) (m ((c : Thread nD τ).loc main_arg5)) (m ((c : Thread nD τ).loc main_arg6))
          (m ((c : Thread nD τ).loc main_arg7)) r q := by
  have h : entryA (F := Ideal) m c main_v4 = ArrQkv.packedOf (entryQ (F := Ideal) m) c :=
    (exitQ_arr (F := Ideal) m c 6).trans (ArrQkv.qkv_array (entryQ (F := Ideal) m) c)
  rw [h]
  unfold ArrQkv.packedOf qkvAll
  simp only [HostVals.entry_arg0 m c, HostVals.entry_arg1 m c, HostVals.entry_arg4 m c, HostVals.entry_v0 m c,
    HostVals.entry_v1 m c, HostVals.entry_v3 m c]
  rfl

/-- The output array at the end of the run is the specification's result of the argument arrays. -/
theorem kernel_result :
    exitA (F := Ideal) m c (Proc.devRef .tc main_v5)
      = result (m ((c : Thread nD τ).loc main_arg0)) (m ((c : Thread nD τ).loc main_arg1)) (m ((c : Thread nD τ).loc main_arg3))
          (m ((c : Thread nD τ).loc main_arg4)) (m ((c : Thread nD τ).loc main_arg5)) (m ((c : Thread nD τ).loc main_arg6))
          (m ((c : Thread nD τ).loc main_arg7)) := by
  rw [exitA_out (F := Ideal) m c, ArrAttn.attn_array (entryA (F := Ideal) m) c]
  funext j
  unfold ArrAttn.attendedOf result attnAll
  simp only [packed_entry m c]
  refine congrArg (fun f => attnRow f _ _ _) (funext fun a => ?_)
  exact packed_entry m c _ _

end Cert.Fusion.Bridge

end
-- ==== Proof.LibConcatCols.lean ====
/-
  Two matrices with the same number of rows joined side by side, read at an entry.
-/
import Idealize.ShloMosaic.Lib.Pipeline.Value
import Idealize.ShloMosaic.Lib.ValueIdx

noncomputable section

namespace Idealize.ShloMosaic.ConcatCols

open Idealize.ShloMosaic Idealize.ShloMosaic.ValueIdx

variable {α : Type}

/-- An `[n, a]` matrix and an `[n, b]` matrix joined along the columns into `[n, a + b]` read, at `(p, q)`, the
    first at `(p, q)` when `q` is one of the first `a` columns and the second at `(p, q − a)` otherwise: the
    case split of `Fin (a + b)` into its two ranges. Arbitrary extents and element type. -/
theorem concat_cols_apply {n a b : ℕ} (x₁ : (⟨2, ![n, a]⟩ : Shape).Idx → α) (x₂ : (⟨2, ![n, b]⟩ : Shape).Idx → α)
    (h : Shape.Concatenates [(⟨2, ![n, a]⟩ : Shape), (⟨2, ![n, b]⟩ : Shape)] (⟨2, ![n, a + b]⟩ : Shape) 1)
    (p : Fin n) (q : Fin (a + b)) :
    concatenate (⟨2, ![n, a + b]⟩ : Shape) 1 [⟨(⟨2, ![n, a]⟩ : Shape), x₁⟩, ⟨(⟨2, ![n, b]⟩ : Shape), x₂⟩] h (ix2 p q)
      = Fin.addCases (motive := fun _ => α) (fun k => x₁ (ix2 p k)) (fun k => x₂ (ix2 p k)) q := by
  refine Fin.addCases (fun k => ?_) (fun k => ?_) q
  · rw [Fin.addCases_left]
    exact concatenate_pair_apply_left 1 x₁ x₂ h (ix2 p (Fin.castAdd b k)) rfl (ix2 p k)
      (fun ax => by match ax with | ⟨0, _⟩ => rfl | ⟨1, _⟩ => rfl)
  · rw [Fin.addCases_right]
    exact concatenate_pair_apply_right 1 x₁ x₂ h (ix2 p (Fin.natAdd a k)) rfl rfl (ix2 p k)
      (fun ax hax => by match ax with | ⟨0, _⟩ => rfl | ⟨1, _⟩ => exact absurd rfl hax)
      (by show k.val + a = a + k.val; exact Nat.add_comm _ _)

end Idealize.ShloMosaic.ConcatCols

end
-- ==== Proof.RefSide.lean ====
/-
  The plain program computes the specification.

  The plain program joins the two feature arrays side by side, runs the two-layer perceptron on the joined rows,
  projects to queries, keys and values with three separate matrices, and applies the softmax attention over all rows.
  Entry by entry this is the function `result` of the specification. Two regroupings are all the algebra there is:
  a 192-term sum over the joined row splits into the 64-term sum over the first piece plus the 128-term sum over the
  second, and a column of one of the three projection matrices is a column of the packed matrix. Both hold in any
  additive commutative monoid, so nothing is assumed about the entries.
-/
import proofs.«134647_j56599079027265_2_alg».proof.Proof.Gen.ReferenceIdeal.Read
import proofs.«134647_j56599079027265_2_alg».proof.Proof.Spec
import proofs.«134647_j56599079027265_2_alg».proof.Proof.LibConcatCols

noncomputable section

open scoped BigOperators

namespace Cert.Fusion.RefSide

open Cert.ReferenceIdeal Cert.ReferenceIdeal.Gen Cert.ReferenceIdeal.Read Idealize.ShloMosaic Idealize.ShloMosaic.ValueIdx

/-! ## The packed weights, column by column -/

/-- The query columns of the packed matrix are the query's weights. -/
theorem packW_colQ (wq wk : (⟨2, ![16, 8]⟩ : Shape).Idx → EReal) (wv : (⟨2, ![16, 64]⟩ : Shape).Idx → EReal)
    (k : Fin 16) (a : Fin 8) : packW wq wk wv k (colQ a) = wq (ix2 k a) := by
  unfold packW colQ
  rw [dif_pos (show a.val < 8 from a.isLt)]

/-- The key columns of the packed matrix are the key's weights. -/
theorem packW_colK (wq wk : (⟨2, ![16, 8]⟩ : Shape).Idx → EReal) (wv : (⟨2, ![16, 64]⟩ : Shape).Idx → EReal)
    (k : Fin 16) (a : Fin 8) : packW wq wk wv k (colK a) = wk (ix2 k a) := by
  unfold packW colK
  have ha := a.isLt
  rw [dif_neg (show ¬ (8 + a.val < 8) by omega), dif_pos (show 8 + a.val < 16 by omega)]
  exact congrArg (fun t => wk (ix2 k t)) (Fin.ext (by show 8 + a.val - 8 = a.val; omega))

/-- The value columns of the packed matrix are the value's weights. -/
theorem packW_colV (wq wk : (⟨2, ![16, 8]⟩ : Shape).Idx → EReal) (wv : (⟨2, ![16, 64]⟩ : Shape).Idx → EReal)
    (k : Fin 16) (d : Fin 64) : packW wq wk wv k (colV d) = wv (ix2 k d) := by
  unfold packW colV
  have hd := d.isLt
  rw [dif_neg (show ¬ (16 + d.val < 8) by omega), dif_neg (show ¬ (16 + d.val < 16) by omega),
    dif_pos (show 16 + d.val < 80 by omega)]
  exact congrArg (fun t => wv (ix2 k t)) (Fin.ext (by show 16 + d.val - 16 = d.val; omega))

/-! ## The perceptron -/

/-- The joined row at column `u`: the first piece on the first 64 columns, the second piece after them. -/
theorem cat_apply (x0 : (⟨S12288x64, .f32⟩ : BufTy).Contents (Elt Ideal)) (x1 : (⟨S12288x128, .f32⟩ : BufTy).Contents (Elt Ideal))
    (r : Fin 12288) (u : Fin (64 + 128)) :
    val_main_v0 (F := Ideal) x0 x1 (ix2 r u)
      = Fin.addCases (motive := fun _ => EReal) (fun a => x0 (ix2 r a)) (fun b => x1 (ix2 r b)) u :=
  ConcatCols.concat_cols_apply (n := 12288) (a := 64) (b := 128) x0 x1 concatenates_S12288x64_S12288x128_S12288x192_d1 r u

/-- The first layer before the positive part: the sum over the joined row is the sum over the first piece plus the
    sum over the second. -/
theorem layer1_apply (x0 : (⟨S12288x64, .f32⟩ : BufTy).Contents (Elt Ideal)) (x1 : (⟨S12288x128, .f32⟩ : BufTy).Contents (Elt Ideal))
    (x3 : (⟨S192x16, .f32⟩ : BufTy).Contents (Elt Ideal)) (r : Fin 12288) (l : Fin 16) :
    val_main_v1 (F := Ideal) x0 x1 x3 (ix2 r l)
      = (∑ a : Fin 64, x0 (ix2 r a) * x3 (ix2 (rowA a) l)) + ∑ b : Fin 128, x1 (ix2 r b) * x3 (ix2 (rowB b) l) := by
  refine (val_main_v1_apply x0 x1 x3 (ix2 r l)).trans ?_
  have e : ∀ k : Fin (64 + 128),
      val_main_v0 (F := Ideal) x0 x1 (lidx_main_v1 (ix2 r l) k) * x3 (ridx_main_v1 (ix2 r l) k)
        = Fin.addCases (motive := fun _ => EReal) (fun a => x0 (ix2 r a)) (fun b => x1 (ix2 r b)) k * x3 (ix2 k l) := by
    intro k
    have hl : lidx_main_v1 (ix2 r l) k = ix2 r k :=
      funext fun a => Fin.ext (by match a with | ⟨0, _⟩ => rfl | ⟨1, _⟩ => rfl)
    have hr : ridx_main_v1 (ix2 r l) k = ix2 k l :=
      funext fun a => Fin.ext (by match a with | ⟨0, _⟩ => rfl | ⟨1, _⟩ => rfl)
    rw [hl, hr, cat_apply]
  refine (Finset.sum_congr rfl fun k _ => e k).trans ?_
  refine (Fin.sum_univ_add (a := 64) (b := 128) _).trans ?_
  refine congrArg₂ (· + ·) (Finset.sum_congr rfl fun a _ => ?_) (Finset.sum_congr rfl fun b _ => ?_)
  · rw [Fin.addCases_left]
    exact congrArg (fun t => x0 (ix2 r a) * x3 (ix2 t l)) (Fin.ext rfl)
  · rw [Fin.addCases_right]
    exact congrArg (fun t => x1 (ix2 r b) * x3 (ix2 t l)) (Fin.ext rfl)

/-- The first layer: the positive part of the sum above. -/
theorem h1_apply (x0 : (⟨S12288x64, .f32⟩ : BufTy).Contents (Elt Ideal)) (x1 : (⟨S12288x128, .f32⟩ : BufTy).Contents (Elt Ideal))
    (x3 : (⟨S192x16, .f32⟩ : BufTy).Contents (Elt Ideal)) (r : Fin 12288) (l : Fin 16) :
    val_main_v2 (F := Ideal) x0 x1 x3 (ix2 r l)
      = relu ((∑ a : Fin 64, x0 (ix2 r a) * x3 (ix2 (rowA a) l)) + ∑ b : Fin 128, x1 (ix2 r b) * x3 (ix2 (rowB b) l)) := by
  rw [val_main_v2_apply, layer1_apply, val_main_call0_v0_apply, val_main_call0_cst_apply]
  show max _ (Ideal.ofBits .f32 0x00000000#32) = _
  rw [Ideal.ofBits_zero_f32]
  rfl

/-- The second layer. -/
theorem h2_apply (x0 : (⟨S12288x64, .f32⟩ : BufTy).Contents (Elt Ideal)) (x1 : (⟨S12288x128, .f32⟩ : BufTy).Contents (Elt Ideal))
    (x3 : (⟨S192x16, .f32⟩ : BufTy).Contents (Elt Ideal)) (x4 : (⟨S16x16, .f32⟩ : BufTy).Contents (Elt Ideal)) (r : Fin 12288) (k : Fin 16) :
    val_main_v4 (F := Ideal) x0 x1 x3 x4 (ix2 r k)
      = relu (∑ l : Fin 16, relu ((∑ a : Fin 64, x0 (ix2 r a) * x3 (ix2 (rowA a) l))
          + ∑ b : Fin 128, x1 (ix2 r b) * x3 (ix2 (rowB b) l)) * x4 (ix2 l k)) := by
  rw [val_main_v4_apply, val_main_v3_apply, val_main_call1_v0_apply, val_main_call1_cst_apply]
  show max _ (Ideal.ofBits .f32 0x00000000#32) = _
  rw [Ideal.ofBits_zero_f32]
  refine congrArg (fun t => max t 0) (Finset.sum_congr rfl fun l _ => ?_)
  have hl : lidx_main_v3 (ix2 r k) l = ix2 r l :=
    funext fun a => Fin.ext (by match a with | ⟨0, _⟩ => rfl | ⟨1, _⟩ => rfl)
  have hr : ridx_main_v3 (ix2 r k) l = ix2 l k :=
    funext fun a => Fin.ext (by match a with | ⟨0, _⟩ => rfl | ⟨1, _⟩ => rfl)
  rw [hl, hr, h1_apply]

/-! ## Query, key and value are columns of the packed projection -/

/-- The query stage at `(r, a)` is the packed projection of row `r` at the query's column `a`. -/
theorem q_apply (x0 : (⟨S12288x64, .f32⟩ : BufTy).Contents (Elt Ideal)) (x1 : (⟨S12288x128, .f32⟩ : BufTy).Contents (Elt Ideal))
    (x3 : (⟨S192x16, .f32⟩ : BufTy).Contents (Elt Ideal)) (x4 : (⟨S16x16, .f32⟩ : BufTy).Contents (Elt Ideal))
    (x5 x6 : (⟨S16x8, .f32⟩ : BufTy).Contents (Elt Ideal)) (x7 : (⟨S16x64, .f32⟩ : BufTy).Contents (Elt Ideal))
    (r : Fin 12288) (a : Fin 8) :
    val_main_v5 (F := Ideal) x0 x1 x3 x4 x5 (ix2 r a) = qkvAll x0 x1 x3 x4 x5 x6 x7 r (colQ a) := by
  rw [val_main_v5_apply]
  unfold qkvAll qkvRow
  refine Finset.sum_congr rfl fun k _ => ?_
  have hl : lidx_main_v5 (ix2 r a) k = ix2 r k :=
    funext fun c => Fin.ext (by match c with | ⟨0, _⟩ => rfl | ⟨1, _⟩ => rfl)
  have hr : ridx_main_v5 (ix2 r a) k = ix2 k a :=
    funext fun c => Fin.ext (by match c with | ⟨0, _⟩ => rfl | ⟨1, _⟩ => rfl)
  rw [hl, hr, h2_apply, packW_colQ]

/-- The key stage at `(j, a)` is the packed projection of row `j` at the key's column `a`. -/
theorem k_apply (x0 : (⟨S12288x64, .f32⟩ : BufTy).Contents (Elt Ideal)) (x1 : (⟨S12288x128, .f32⟩ : BufTy).Contents (Elt Ideal))
    (x3 : (⟨S192x16, .f32⟩ : BufTy).Contents (Elt Ideal)) (x4 : (⟨S16x16, .f32⟩ : BufTy).Contents (Elt Ideal))
    (x5 x6 : (⟨S16x8, .f32⟩ : BufTy).Contents (Elt Ideal)) (x7 : (⟨S16x64, .f32⟩ : BufTy).Contents (Elt Ideal))
    (j : Fin 12288) (a : Fin 8) :
    val_main_v6 (F := Ideal) x0 x1 x3 x4 x6 (ix2 j a) = qkvAll x0 x1 x3 x4 x5 x6 x7 j (colK a) := by
  rw [val_main_v6_apply]
  unfold qkvAll qkvRow
  refine Finset.sum_congr rfl fun k _ => ?_
  have hl : lidx_main_v6 (ix2 j a) k = ix2 j k :=
    funext fun c => Fin.ext (by match c with | ⟨0, _⟩ => rfl | ⟨1, _⟩ => rfl)
  have hr : ridx_main_v6 (ix2 j a) k = ix2 k a :=
    funext fun c => Fin.ext (by match c with | ⟨0, _⟩ => rfl | ⟨1, _⟩ => rfl)
  rw [hl, hr, h2_apply, packW_colK]

/-- The value stage at `(j, d)` is the packed projection of row `j` at the value's column `d`. -/
theorem v_apply (x0 : (⟨S12288x64, .f32⟩ : BufTy).Contents (Elt Ideal)) (x1 : (⟨S12288x128, .f32⟩ : BufTy).Contents (Elt Ideal))
    (x3 : (⟨S192x16, .f32⟩ : BufTy).Contents (Elt Ideal)) (x4 : (⟨S16x16, .f32⟩ : BufTy).Contents (Elt Ideal))
    (x5 x6 : (⟨S16x8, .f32⟩ : BufTy).Contents (Elt Ideal)) (x7 : (⟨S16x64, .f32⟩ : BufTy).Contents (Elt Ideal))
    (j : Fin 12288) (d : Fin 64) :
    val_main_v7 (F := Ideal) x0 x1 x3 x4 x7 (ix2 j d) = qkvAll x0 x1 x3 x4 x5 x6 x7 j (colV d) := by
  rw [val_main_v7_apply]
  unfold qkvAll qkvRow
  refine Finset.sum_congr rfl fun k _ => ?_
  have hl : lidx_main_v7 (ix2 j d) k = ix2 j k :=
    funext fun c => Fin.ext (by match c with | ⟨0, _⟩ => rfl | ⟨1, _⟩ => rfl)
  have hr : ridx_main_v7 (ix2 j d) k = ix2 k d :=
    funext fun c => Fin.ext (by match c with | ⟨0, _⟩ => rfl | ⟨1, _⟩ => rfl)
  rw [hl, hr, h2_apply, packW_colV]

/-! ## The attention -/

section Attention

variable (x0 : (⟨S12288x64, .f32⟩ : BufTy).Contents (Elt Ideal)) (x1 : (⟨S12288x128, .f32⟩ : BufTy).Contents (Elt Ideal))
  (x3 : (⟨S192x16, .f32⟩ : BufTy).Contents (Elt Ideal)) (x4 : (⟨S16x16, .f32⟩ : BufTy).Contents (Elt Ideal))
  (x5 x6 : (⟨S16x8, .f32⟩ : BufTy).Contents (Elt Ideal)) (x7 : (⟨S16x64, .f32⟩ : BufTy).Contents (Elt Ideal))

local notation "P" => qkvAll x0 x1 x3 x4 x5 x6 x7

/-- The scaled score of row `r` against row `j`: the inner product of `r`'s query with `j`'s key, times the scale. -/
theorem scores_apply (r j : Fin 12288) :
    val_main_v11 (F := Ideal) x0 x1 x3 x4 x5 x6 (ix2 r j) = (∑ a : Fin 8, P r (colQ a) * P j (colK a)) * scale := by
  have h10 : val_main_v10 (F := Ideal) (ix2 r j) = scale := by
    rw [val_main_v10_apply, val_main_cst_apply]; rfl
  rw [val_main_v11_apply, h10, Ideal.mulf_def, val_main_v9_apply]
  refine congrArg (fun t => t * scale) (Finset.sum_congr rfl fun a _ => ?_)
  have hl : lidx_main_v9 (ix2 r j) a = ix2 r a :=
    funext fun c => Fin.ext (by match c with | ⟨0, _⟩ => rfl | ⟨1, _⟩ => rfl)
  have hr : idx_main_v8 (ridx_main_v9 (ix2 r j) a) = ix2 j a :=
    funext fun c => Fin.ext (by match c with | ⟨0, _⟩ => rfl | ⟨1, _⟩ => rfl)
  rw [hl, val_main_v8_apply, hr, q_apply x0 x1 x3 x4 x5 x6 x7 r a, k_apply x0 x1 x3 x4 x5 x6 x7 j a]

/-- Dropping the column axis of a square array: the fact the fold over a row is stated with. -/
theorem reduces_cols : S12288x12288.Reduces [1] S12288 := by decide

/-- Row `r` with the column `k` put back is the entry `(r, k)`. -/
theorem lift_row (r : Fin 12288) (k : Fin (S12288x12288.size 1)) :
    reduces_cols.lift (ix1 r) k = ix2 r (⟨k.val, k.isLt⟩ : Fin 12288) := by
  funext c; apply Fin.ext
  match c with
  | ⟨0, _⟩ => rfl
  | ⟨1, _⟩ => rfl

/-- A fold of the maximum is not below the value it starts from. -/
theorem max_seed_fold {ι : Type} (s : Finset ι) (b : EReal) (f : ι → EReal) :
    max b (s.fold max b f) = s.fold max b f :=
  max_eq_right ((Finset.le_fold_max b).2 (Or.inl le_rfl))

/-- The row maximum the scores are shifted by: the fold of the maximum over the row's scores from the starting value
    (taking the maximum with the starting value once more changes nothing). -/
theorem rowmax_apply (r : Fin 12288) :
    val_main_v14 (F := Ideal) x0 x1 x3 x4 x5 x6 (ix1 r)
      = (Finset.univ : Finset (Fin 12288)).fold max maxSeed (fun j' => (∑ a : Fin 8, P r (colQ a) * P j' (colK a)) * scale) := by
  have h12 : val_main_v12 (F := Ideal) x0 x1 x3 x4 x5 x6 (ix1 r)
      = (Finset.univ : Finset (Fin 12288)).fold max maxSeed (fun j' => (∑ a : Fin 8, P r (colQ a) * P j' (colK a)) * scale) := by
    unfold val_main_v12
    refine (Host.reduce_eq_fold_single FloatOps.maximumf _ _ reducesTo_S12288x12288_S12288_d1 reduces_cols h_S_ (ix1 r)).trans ?_
    refine congrArg (fun f => Finset.fold max maxSeed f (Finset.univ : Finset (Fin 12288))) (funext fun j' => ?_)
    show val_main_v11 (F := Ideal) x0 x1 x3 x4 x5 x6 (reduces_cols.lift (ix1 r) j') = _
    rw [lift_row]
    exact scores_apply x0 x1 x3 x4 x5 x6 x7 r _
  rw [val_main_v14_apply, val_main_v13_apply, val_main_cst_1_apply, Ideal.maximumf_def, h12]
  exact max_seed_fold _ _ _

/-- The exponential of the shifted score. -/
theorem expv_apply (r j : Fin 12288) :
    val_main_v18 (F := Ideal) x0 x1 x3 x4 x5 x6 (ix2 r j)
      = Ideal.exp ((∑ a : Fin 8, P r (colQ a) * P j (colK a)) * scale
          - (Finset.univ : Finset (Fin 12288)).fold max maxSeed (fun j' => (∑ a : Fin 8, P r (colQ a) * P j' (colK a)) * scale)) := by
  have hi : idx_main_v15 (idx_main_v16 (ix2 r j)) = ix1 r :=
    funext fun c => Fin.ext (by match c with | ⟨0, _⟩ => rfl)
  rw [val_main_v18_apply, val_main_v17_apply, val_main_v16_apply, val_main_v15_apply, hi, Ideal.hostUnary_exp_def,
    Ideal.subf_def, scores_apply x0 x1 x3 x4 x5 x6 x7 r j, rowmax_apply x0 x1 x3 x4 x5 x6 x7 r]

/-- The row sum of the exponentials. -/
theorem den_apply (r : Fin 12288) :
    val_main_v19 (F := Ideal) x0 x1 x3 x4 x5 x6 (ix1 r)
      = ∑ j'' : Fin 12288, Ideal.exp ((∑ a : Fin 8, P r (colQ a) * P j'' (colK a)) * scale
          - (Finset.univ : Finset (Fin 12288)).fold max maxSeed (fun j' => (∑ a : Fin 8, P r (colQ a) * P j' (colK a)) * scale)) := by
  rw [val_main_v19_apply, val_main_cst_2_apply, Ideal.ofBits_def, Ideal.ofBits_zero_f32, zero_add]
  refine Finset.sum_congr rfl fun k _ => ?_
  have hi : idx_main_v19 (ix1 r) k = ix2 r k :=
    funext fun c => Fin.ext (by match c with | ⟨0, _⟩ => rfl | ⟨1, _⟩ => rfl)
  rw [hi, expv_apply x0 x1 x3 x4 x5 x6 x7 r k]

end Attention

/-- The specification at the entry `(r, d)`. -/
theorem result_apply (x0 : (⟨S12288x64, .f32⟩ : BufTy).Contents (Elt Ideal)) (x1 : (⟨S12288x128, .f32⟩ : BufTy).Contents (Elt Ideal))
    (x3 : (⟨S192x16, .f32⟩ : BufTy).Contents (Elt Ideal)) (x4 : (⟨S16x16, .f32⟩ : BufTy).Contents (Elt Ideal))
    (x5 x6 : (⟨S16x8, .f32⟩ : BufTy).Contents (Elt Ideal)) (x7 : (⟨S16x64, .f32⟩ : BufTy).Contents (Elt Ideal))
    (r : Fin 12288) (d : Fin 64) :
    result x0 x1 x3 x4 x5 x6 x7 (ix2 r d) = attnAll (qkvAll x0 x1 x3 x4 x5 x6 x7) r d := rfl

/-- The plain program's result is the specification. -/
theorem ref_is_result (x0 : (⟨S12288x64, .f32⟩ : BufTy).Contents (Elt Ideal)) (x1 : (⟨S12288x128, .f32⟩ : BufTy).Contents (Elt Ideal))
    (x3 : (⟨S192x16, .f32⟩ : BufTy).Contents (Elt Ideal)) (x4 : (⟨S16x16, .f32⟩ : BufTy).Contents (Elt Ideal))
    (x5 x6 : (⟨S16x8, .f32⟩ : BufTy).Contents (Elt Ideal)) (x7 : (⟨S16x64, .f32⟩ : BufTy).Contents (Elt Ideal)) :
    Cert.ReferenceIdeal.Read.val_main_v23 (F := Ideal) x0 x1 x3 x4 x5 x6 x7 = Cert.Fusion.result x0 x1 x3 x4 x5 x6 x7 := by
  funext i
  obtain ⟨r, d, rfl⟩ : ∃ r d, i = ix2 r d := ⟨i 0, i 1, eq_ix2 i⟩
  rw [val_main_v23_apply, result_apply]
  unfold attnAll attnRow
  refine Finset.sum_congr rfl fun j _ => ?_
  have hl : lidx_main_v23 (ix2 r d) j = ix2 r j :=
    funext fun c => Fin.ext (by match c with | ⟨0, _⟩ => rfl | ⟨1, _⟩ => rfl)
  have hr : ridx_main_v23 (ix2 r d) j = ix2 j d :=
    funext fun c => Fin.ext (by match c with | ⟨0, _⟩ => rfl | ⟨1, _⟩ => rfl)
  have hi : idx_main_v20 (idx_main_v21 (ix2 r j)) = ix1 r :=
    funext fun c => Fin.ext (by match c with | ⟨0, _⟩ => rfl)
  rw [hl, hr, val_main_v22_apply, Ideal.hostDivf_def, val_main_v21_apply, val_main_v20_apply, hi,
    expv_apply x0 x1 x3 x4 x5 x6 x7 r j, den_apply x0 x1 x3 x4 x5 x6 x7 r, v_apply x0 x1 x3 x4 x5 x6 x7 j d]

end Cert.Fusion.RefSide

end
-- ==== Proof.lean ====
/-
  A fused two-stage self-attention over a point cloud, tiled, against its plain reference: both compute, on the
  extended reals, softmax((Q Kᵀ) · s) · V with Q, K, V three linear maps of relu(relu([x_main | x_mod] W₁) W₂).

  The tiled program evaluates the first layer's 192-term sums as a 64-term plus a 128-term sum, produces Q, K and V as
  columns of ONE product with the three weight matrices set side by side and padded with zero columns, contracts the
  queries against the keys without transposing them, works on 1536 rows at a time in the first stage and on 256 query
  rows at a time in the second, and narrows two operands to a shorter float format before the last product. On the
  extended reals a change of float format is the identity and every one of the other differences is a regrouping of
  finite sums, so the two results agree entry by entry; no finiteness of the inputs is used.

  The pieces: the specification (Spec); the reference's generated run is the specification (RefSide); each launch of
  the tiled program point by point, and its whole run (TiledQkv, TiledAttn, TiledRun, and the same three for the
  word-level program); what each launch leaves as one function of what it was entered with (ArrQkv, ArrAttn, over the
  bodies' arithmetic at an entry: PayQkv, PayAttn); the small arrays the host lines prepare (HostPrep, HostVals); and
  their composition (Bridge).
-/
import proofs.«134647_j56599079027265_2_alg».proof.Defs
import proofs.«134647_j56599079027265_2_alg».proof.Proof.Gen.Kernel
import proofs.«134647_j56599079027265_2_alg».proof.Proof.Gen.KernelIdeal
import proofs.«134647_j56599079027265_2_alg».proof.Proof.Gen.ReferenceIdeal
import proofs.«134647_j56599079027265_2_alg».proof.Proof.Gen.ReferenceIdeal.Run
import proofs.«134647_j56599079027265_2_alg».proof.Proof.Gen.ReferenceIdeal.Read
import proofs.«134647_j56599079027265_2_alg».proof.Proof.Gen.Pre_finite_inputs
import proofs.«134647_j56599079027265_2_alg».proof.Proof.WordTiledRun
import proofs.«134647_j56599079027265_2_alg».proof.Proof.TiledRun
import proofs.«134647_j56599079027265_2_alg».proof.Proof.Bridge
import proofs.«134647_j56599079027265_2_alg».proof.Proof.RefSide

noncomputable section

namespace Cert.Proof

open Idealize.ShloMosaic Idealize.ShloMosaic.TcCoe Idealize.SL.Sem

/-- The word-level tiled program runs to its end, faults nowhere, and leaves its arguments as launched. -/
theorem frame_word : Cert.frame_Kernel := fun m ρ _ => Cert.Kernel.Tiled.frame (F := Bits) m ρ

/-- So does the tiled program read on the extended reals. -/
theorem frame_tiled : Cert.frame_KernelIdeal := fun m ρ _ => Cert.KernelIdeal.Tiled.frame (F := Ideal) m ρ

/-- The reference is host lines only: its generated run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten when the tiled program was printed for the extended reals. -/
theorem preserves : Cert.preserves_Kernel_KernelIdeal := trivial

/-- From memories that agree on the arguments, the tiled program and the reference both end with the specification's
    result of the arguments in their result arrays. -/
theorem algebraic : Cert.algebraic_KernelIdeal_ReferenceIdeal := by
  intro m ρ m' ρ' _ hagree
  refine ⟨fun c => Cert.Fusion.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c =>
      ⟨(h c _ (Cert.KernelIdeal.Tiled.held_ref Cert.KernelIdeal.main_v5 (by decide))).trans (Cert.Fusion.Bridge.kernel_result m c),
        (h c _ (Cert.KernelIdeal.Tiled.held_ref Cert.KernelIdeal.main_arg0 (by decide))).trans (Cert.KernelIdeal.Tiled.exitA_arg0 m c),
        (h c _ (Cert.KernelIdeal.Tiled.held_ref Cert.KernelIdeal.main_arg1 (by decide))).trans (Cert.KernelIdeal.Tiled.exitA_arg1 m c),
        (h c _ (Cert.KernelIdeal.Tiled.held_ref Cert.KernelIdeal.main_arg2 (by decide))).trans (Cert.KernelIdeal.Tiled.exitA_arg2 m c),
        (h c _ (Cert.KernelIdeal.Tiled.held_ref Cert.KernelIdeal.main_arg3 (by decide))).trans (Cert.KernelIdeal.Tiled.exitA_arg3 m c),
        (h c _ (Cert.KernelIdeal.Tiled.held_ref Cert.KernelIdeal.main_arg4 (by decide))).trans (Cert.KernelIdeal.Tiled.exitA_arg4 m c),
        (h c _ (Cert.KernelIdeal.Tiled.held_ref Cert.KernelIdeal.main_arg5 (by decide))).trans (Cert.KernelIdeal.Tiled.exitA_arg5 m c),
        (h c _ (Cert.KernelIdeal.Tiled.held_ref Cert.KernelIdeal.main_arg6 (by decide))).trans (Cert.KernelIdeal.Tiled.exitA_arg6 m c),
        (h c _ (Cert.KernelIdeal.Tiled.held_ref Cert.KernelIdeal.main_arg7 (by decide))).trans (Cert.KernelIdeal.Tiled.exitA_arg7 m c)⟩)
      (Cert.KernelIdeal.Tiled.run_all (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v23_eq, Cert.Fusion.RefSide.ref_is_result,
      (hagree c).1, (hagree c).2.1, (hagree c).2.2.2.1, (hagree c).2.2.2.2.1, (hagree c).2.2.2.2.2.1, (hagree c).2.2.2.2.2.2.1,
      (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_word, frame_tiled, frame_reference, preserves, algebraic⟩

end Cert.Proof

end
